-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v239)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v239) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v227) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x1024x2 : Shape := ⟨4, ![16, 512, 1024, 2]⟩
abbrev S_ : Shape := ⟨0, ![]⟩

class Facts : Prop where
  bcast_S_S16x512x1024x2 : S_.BroadcastsInDim S16x512x1024x2 (![] : Fin 0 → Fin S16x512x1024x2.rank)
  reducesTo_S16x512x1024x2_S_d0_1_2_3 : S16x512x1024x2.ReducesTo [0, 1, 2, 3] S_
  h_S_ : 0 < S_.numel

variable [Facts]

def fn {F : FTy → Type} [FloatOps F] (main_arg0 : FVec F S16x512x1024x2 .f32) (main_arg1 : FVec F S16x512x1024x2 .f32) : IVec S_ 1 :=
  let main_v0 : FVec F S16x512x1024x2 .f32 := Host.absf main_arg0
  let main_cst : FVec F S_ .f32 := constant S_ .f32 0x7F800000#32
  let main_v1 : FVec F S16x512x1024x2 .f32 := broadcastInDim S16x512x1024x2 ![] bcast_S_S16x512x1024x2 main_cst
  let main_v2 : IVec S16x512x1024x2 1 := cmpf .olt main_v0 main_v1
  let main_c : IVec S_ 1 := constantI S_ 1 1#1
  let main_v3 : IVec S_ 1 := (fun x v => Host.reduce IntOp.andi x v reducesTo_S16x512x1024x2_S_d0_1_2_3 h_S_) main_v2 main_c
  let main_v4 : FVec F S16x512x1024x2 .f32 := Host.absf main_arg1
  let main_cst_0 : FVec F S_ .f32 := constant S_ .f32 0x7F800000#32
  let main_v5 : FVec F S16x512x1024x2 .f32 := broadcastInDim S16x512x1024x2 ![] bcast_S_S16x512x1024x2 main_cst_0
  let main_v6 : IVec S16x512x1024x2 1 := cmpf .olt main_v4 main_v5
  let main_c_1 : IVec S_ 1 := constantI S_ 1 1#1
  let main_v7 : IVec S_ 1 := (fun x v => Host.reduce IntOp.andi x v reducesTo_S16x512x1024x2_S_d0_1_2_3 h_S_) main_v6 main_c_1
  let main_v8 : IVec S_ 1 := andi main_v3 main_v7
  main_v8
-- ==== Kernel.lean ====
abbrev S16x512x1024x2 : Shape := ⟨4, ![16, 512, 1024, 2]⟩
abbrev S16x2x512x1024 : Shape := ⟨4, ![16, 2, 512, 1024]⟩
abbrev S16x512x1024x1 : Shape := ⟨4, ![16, 512, 1024, 1]⟩
abbrev S16x512x1024 : Shape := ⟨3, ![16, 512, 1024]⟩
abbrev S_ : Shape := ⟨0, ![]⟩
abbrev S16x2x524288 : Shape := ⟨3, ![16, 2, 524288]⟩
abbrev S16x1x524288 : Shape := ⟨3, ![16, 1, 524288]⟩
abbrev S16x524288x1 : Shape := ⟨3, ![16, 524288, 1]⟩
abbrev S1 : Shape := ⟨1, ![1]⟩
abbrev S1x1x1 : Shape := ⟨3, ![1, 1, 1]⟩
abbrev S16x524288 : Shape := ⟨2, ![16, 524288]⟩
abbrev S16x1x512x1024 : Shape := ⟨4, ![16, 1, 512, 1024]⟩
abbrev S16x1x4 : Shape := ⟨3, ![16, 1, 4]⟩
abbrev S1x512x1024 : Shape := ⟨3, ![1, 512, 1024]⟩
abbrev S1x1x4 : Shape := ⟨3, ![1, 1, 4]⟩
abbrev S512x1024 : Shape := ⟨2, ![512, 1024]⟩
abbrev S512 : Shape := ⟨1, ![512]⟩
abbrev S512x1 : Shape := ⟨2, ![512, 1]⟩
abbrev S1x1 : Shape := ⟨2, ![1, 1]⟩
abbrev S1x4 : Shape := ⟨2, ![1, 4]⟩
abbrev S16x4 : Shape := ⟨2, ![16, 4]⟩
abbrev S16x1 : Shape := ⟨2, ![16, 1]⟩
abbrev S16 : Shape := ⟨1, ![16]⟩

abbrev nBuf : Space → Nat
  | .hbm => 501
  | .vmem => 10
  | .smem => 0
  | _ => 0

abbrev hbmTy0_0 (i : Nat) : BufTy := match i % 128 with
  | 0 => ⟨S16x512x1024x2, .f32⟩
  | 1 => ⟨S16x512x1024x2, .f32⟩
  | 2 => ⟨S16x2x512x1024, .f32⟩
  | 3 => ⟨S16x2x512x1024, .f32⟩
  | 4 => ⟨S16x512x1024x1, .f32⟩
  | 5 => ⟨S16x512x1024, .f32⟩
  | 6 => ⟨S_, .f32⟩
  | 7 => ⟨S16x512x1024, .f32⟩
  | 8 => ⟨S16x512x1024, .f32⟩
  | 9 => ⟨S_, .f32⟩
  | 10 => ⟨S16x512x1024, .f32⟩
  | 11 => ⟨S16x512x1024, .f32⟩
  | 12 => ⟨S_, .f32⟩
  | 13 => ⟨S16x512x1024, .f32⟩
  | 14 => ⟨S16x512x1024, .f32⟩
  | 15 => ⟨S_, .f32⟩
  | 16 => ⟨S_, .i32⟩
  | 17 => ⟨S_, .f32⟩
  | 18 => ⟨S16x512x1024, .f32⟩
  | 19 => ⟨S16x512x1024, .f32⟩
  | 20 => ⟨S_, .f32⟩
  | 21 => ⟨S16x512x1024, .f32⟩
  | 22 => ⟨S16x512x1024, .f32⟩
  | 23 => ⟨S16x512x1024x1, .f32⟩
  | 24 => ⟨S16x512x1024, .f32⟩
  | 25 => ⟨S_, .f32⟩
  | 26 => ⟨S16x512x1024, .f32⟩
  | 27 => ⟨S16x512x1024, .f32⟩
  | 28 => ⟨S_, .f32⟩
  | 29 => ⟨S16x512x1024, .f32⟩
  | 30 => ⟨S16x512x1024, .f32⟩
  | 31 => ⟨S_, .f32⟩
  | 32 => ⟨S16x512x1024, .f32⟩
  | 33 => ⟨S16x512x1024, .f32⟩
  | 34 => ⟨S_, .f32⟩
  | 35 => ⟨S_, .i32⟩
  | 36 => ⟨S_, .f32⟩
  | 37 => ⟨S16x512x1024, .f32⟩
  | 38 => ⟨S16x512x1024, .f32⟩
  | 39 => ⟨S_, .f32⟩
  | 40 => ⟨S16x512x1024, .f32⟩
  | 41 => ⟨S16x512x1024, .f32⟩
  | 42 => ⟨S16x512x1024, .f32⟩
  | 43 => ⟨S16x512x1024, .f32⟩
  | 44 => ⟨S16x512x1024, .f32⟩
  | 45 => ⟨S16x512x1024, .f32⟩
  | 46 => ⟨S16x512x1024, .i32⟩
  | 47 => ⟨S16x512x1024, .i32⟩
  | 48 => ⟨S_, .i32⟩
  | 49 => ⟨S16x512x1024, .i32⟩
  | 50 => ⟨S16x512x1024, .i32⟩
  | 51 => ⟨S_, .i32⟩
  | 52 => ⟨S16x512x1024, .i32⟩
  | 53 => ⟨S16x512x1024, .i32⟩
  | 54 => ⟨S_, .i32⟩
  | 55 => ⟨S16x512x1024, .i32⟩
  | 56 => ⟨S16x512x1024, .i32⟩
  | 57 => ⟨S_, .i32⟩
  | 58 => ⟨S16x512x1024, .i32⟩
  | 59 => ⟨S16x512x1024, .i32⟩
  | 60 => ⟨S16x2x524288, .f32⟩
  | 61 => ⟨S_, .i32⟩
  | 62 => ⟨S16x512x1024, .i32⟩
  | 63 => ⟨S16x512x1024, .i32⟩
  | 64 => ⟨S16x512x1024, .i32⟩
  | 65 => ⟨S16x1x524288, .i32⟩
  | 66 => ⟨S_, .i32⟩
  | 67 => ⟨S16x1x524288, .i32⟩
  | 68 => ⟨S16x1x524288, .i1⟩
  | 69 => ⟨S_, .i32⟩
  | 70 => ⟨S16x1x524288, .i32⟩
  | 71 => ⟨S16x1x524288, .i32⟩
  | 72 => ⟨S16x1x524288, .i32⟩
  | 73 => ⟨S16x524288x1, .i32⟩
  | 74 => ⟨S1, .i32⟩
  | 75 => ⟨S_, .i32⟩
  | 76 => ⟨S16x524288x1, .i32⟩
  | 77 => ⟨S16x524288x1, .i1⟩
  | 78 => ⟨S1x1x1, .i32⟩
  | 79 => ⟨S16x524288x1, .i32⟩
  | 80 => ⟨S16x524288x1, .i1⟩
  | 81 => ⟨S16x524288x1, .i1⟩
  | 82 => ⟨S_, .i1⟩
  | 83 => ⟨S16x524288, .i1⟩
  | 84 => ⟨S16x2x524288, .f32⟩
  | 85 => ⟨S16x2x524288, .i1⟩
  | 86 => ⟨S_, .f32⟩
  | 87 => ⟨S16x2x524288, .f32⟩
  | 88 => ⟨S16x2x524288, .f32⟩
  | 89 => ⟨S16x2x512x1024, .f32⟩
  | 90 => ⟨S_, .i32⟩
  | 91 => ⟨S16x512x1024, .i32⟩
  | 92 => ⟨S16x512x1024, .i32⟩
  | 93 => ⟨S16x512x1024, .i32⟩
  | 94 => ⟨S16x1x524288, .i32⟩
  | 95 => ⟨S_, .i32⟩
  | 96 => ⟨S16x1x524288, .i32⟩
  | 97 => ⟨S16x1x524288, .i1⟩
  | 98 => ⟨S_, .i32⟩
  | 99 => ⟨S16x1x524288, .i32⟩
  | 100 => ⟨S16x1x524288, .i32⟩
  | 101 => ⟨S16x1x524288, .i32⟩
  | 102 => ⟨S16x524288x1, .i32⟩
  | 103 => ⟨S1, .i32⟩
  | 104 => ⟨S_, .i32⟩
  | 105 => ⟨S16x524288x1, .i32⟩
  | 106 => ⟨S16x524288x1, .i1⟩
  | 107 => ⟨S1x1x1, .i32⟩
  | 108 => ⟨S16x524288x1, .i32⟩
  | 109 => ⟨S16x524288x1, .i1⟩
  | 110 => ⟨S16x524288x1, .i1⟩
  | 111 => ⟨S_, .i1⟩
  | 112 => ⟨S16x524288, .i1⟩
  | 113 => ⟨S16x2x524288, .f32⟩
  | 114 => ⟨S16x2x524288, .i1⟩
  | 115 => ⟨S_, .f32⟩
  | 116 => ⟨S16x2x524288, .f32⟩
  | 117 => ⟨S16x2x524288, .f32⟩
  | 118 => ⟨S16x2x512x1024, .f32⟩
  | 119 => ⟨S_, .i32⟩
  | 120 => ⟨S16x512x1024, .i32⟩
  | 121 => ⟨S16x512x1024, .i32⟩
  | 122 => ⟨S16x512x1024, .i32⟩
  | 123 => ⟨S16x1x524288, .i32⟩
  | 124 => ⟨S_, .i32⟩
  | 125 => ⟨S16x1x524288, .i32⟩
  | 126 => ⟨S16x1x524288, .i1⟩
  | 127 => ⟨S_, .i32⟩
  | _ => ⟨S16x512x1024x2, .f32⟩

abbrev hbmTy0_1 (i : Nat) : BufTy := match i % 128 with
  | 0 => ⟨S16x1x524288, .i32⟩
  | 1 => ⟨S16x1x524288, .i32⟩
  | 2 => ⟨S16x1x524288, .i32⟩
  | 3 => ⟨S16x524288x1, .i32⟩
  | 4 => ⟨S1, .i32⟩
  | 5 => ⟨S_, .i32⟩
  | 6 => ⟨S16x524288x1, .i32⟩
  | 7 => ⟨S16x524288x1, .i1⟩
  | 8 => ⟨S1x1x1, .i32⟩
  | 9 => ⟨S16x524288x1, .i32⟩
  | 10 => ⟨S16x524288x1, .i1⟩
  | 11 => ⟨S16x524288x1, .i1⟩
  | 12 => ⟨S_, .i1⟩
  | 13 => ⟨S16x524288, .i1⟩
  | 14 => ⟨S16x2x524288, .f32⟩
  | 15 => ⟨S16x2x524288, .i1⟩
  | 16 => ⟨S_, .f32⟩
  | 17 => ⟨S16x2x524288, .f32⟩
  | 18 => ⟨S16x2x524288, .f32⟩
  | 19 => ⟨S16x2x512x1024, .f32⟩
  | 20 => ⟨S_, .i32⟩
  | 21 => ⟨S16x512x1024, .i32⟩
  | 22 => ⟨S16x512x1024, .i32⟩
  | 23 => ⟨S16x512x1024, .i32⟩
  | 24 => ⟨S16x1x524288, .i32⟩
  | 25 => ⟨S_, .i32⟩
  | 26 => ⟨S16x1x524288, .i32⟩
  | 27 => ⟨S16x1x524288, .i1⟩
  | 28 => ⟨S_, .i32⟩
  | 29 => ⟨S16x1x524288, .i32⟩
  | 30 => ⟨S16x1x524288, .i32⟩
  | 31 => ⟨S16x1x524288, .i32⟩
  | 32 => ⟨S16x524288x1, .i32⟩
  | 33 => ⟨S1, .i32⟩
  | 34 => ⟨S_, .i32⟩
  | 35 => ⟨S16x524288x1, .i32⟩
  | 36 => ⟨S16x524288x1, .i1⟩
  | 37 => ⟨S1x1x1, .i32⟩
  | 38 => ⟨S16x524288x1, .i32⟩
  | 39 => ⟨S16x524288x1, .i1⟩
  | 40 => ⟨S16x524288x1, .i1⟩
  | 41 => ⟨S_, .i1⟩
  | 42 => ⟨S16x524288, .i1⟩
  | 43 => ⟨S16x2x524288, .f32⟩
  | 44 => ⟨S16x2x524288, .i1⟩
  | 45 => ⟨S_, .f32⟩
  | 46 => ⟨S16x2x524288, .f32⟩
  | 47 => ⟨S16x2x524288, .f32⟩
  | 48 => ⟨S16x2x512x1024, .f32⟩
  | 49 => ⟨S16x1x512x1024, .f32⟩
  | 50 => ⟨S16x1x512x1024, .f32⟩
  | 51 => ⟨S_, .f32⟩
  | 52 => ⟨S16x1x512x1024, .f32⟩
  | 53 => ⟨S16x1x512x1024, .f32⟩
  | 54 => ⟨S16x2x512x1024, .f32⟩
  | 55 => ⟨S16x2x512x1024, .f32⟩
  | 56 => ⟨S_, .f32⟩
  | 57 => ⟨S16x1x512x1024, .f32⟩
  | 58 => ⟨S16x1x512x1024, .f32⟩
  | 59 => ⟨S16x2x512x1024, .f32⟩
  | 60 => ⟨S16x2x512x1024, .f32⟩
  | 61 => ⟨S16x2x512x1024, .f32⟩
  | 62 => ⟨S16x2x512x1024, .f32⟩
  | 63 => ⟨S_, .f32⟩
  | 64 => ⟨S16x1x512x1024, .f32⟩
  | 65 => ⟨S16x1x512x1024, .f32⟩
  | 66 => ⟨S16x2x512x1024, .f32⟩
  | 67 => ⟨S16x2x512x1024, .f32⟩
  | 68 => ⟨S16x2x512x1024, .f32⟩
  | 69 => ⟨S_, .f32⟩
  | 70 => ⟨S16x1x512x1024, .f32⟩
  | 71 => ⟨S16x1x512x1024, .f32⟩
  | 72 => ⟨S16x2x512x1024, .f32⟩
  | 73 => ⟨S16x2x512x1024, .f32⟩
  | 74 => ⟨S16x2x512x1024, .f32⟩
  | 75 => ⟨S16x2x512x1024, .f32⟩
  | 76 => ⟨S16x2x512x1024, .f32⟩
  | 77 => ⟨S16x2x512x1024, .f32⟩
  | 78 => ⟨S16x2x512x1024, .f32⟩
  | 79 => ⟨S16x2x512x1024, .f32⟩
  | 80 => ⟨S16x2x512x1024, .f32⟩
  | 81 => ⟨S16x2x512x1024, .f32⟩
  | 82 => ⟨S16x512x1024x1, .f32⟩
  | 83 => ⟨S16x512x1024, .f32⟩
  | 84 => ⟨S_, .f32⟩
  | 85 => ⟨S16x512x1024, .f32⟩
  | 86 => ⟨S16x512x1024, .f32⟩
  | 87 => ⟨S_, .f32⟩
  | 88 => ⟨S16x512x1024, .f32⟩
  | 89 => ⟨S16x512x1024, .f32⟩
  | 90 => ⟨S_, .f32⟩
  | 91 => ⟨S16x512x1024, .f32⟩
  | 92 => ⟨S16x512x1024, .f32⟩
  | 93 => ⟨S_, .f32⟩
  | 94 => ⟨S_, .i32⟩
  | 95 => ⟨S_, .f32⟩
  | 96 => ⟨S16x512x1024, .f32⟩
  | 97 => ⟨S16x512x1024, .f32⟩
  | 98 => ⟨S_, .f32⟩
  | 99 => ⟨S16x512x1024, .f32⟩
  | 100 => ⟨S16x512x1024, .f32⟩
  | 101 => ⟨S16x512x1024x1, .f32⟩
  | 102 => ⟨S16x512x1024, .f32⟩
  | 103 => ⟨S_, .f32⟩
  | 104 => ⟨S16x512x1024, .f32⟩
  | 105 => ⟨S16x512x1024, .f32⟩
  | 106 => ⟨S_, .f32⟩
  | 107 => ⟨S16x512x1024, .f32⟩
  | 108 => ⟨S16x512x1024, .f32⟩
  | 109 => ⟨S_, .f32⟩
  | 110 => ⟨S16x512x1024, .f32⟩
  | 111 => ⟨S16x512x1024, .f32⟩
  | 112 => ⟨S_, .f32⟩
  | 113 => ⟨S_, .i32⟩
  | 114 => ⟨S_, .f32⟩
  | 115 => ⟨S16x512x1024, .f32⟩
  | 116 => ⟨S16x512x1024, .f32⟩
  | 117 => ⟨S_, .f32⟩
  | 118 => ⟨S16x512x1024, .f32⟩
  | 119 => ⟨S16x512x1024, .f32⟩
  | 120 => ⟨S16x512x1024, .f32⟩
  | 121 => ⟨S16x512x1024, .f32⟩
  | 122 => ⟨S16x512x1024, .f32⟩
  | 123 => ⟨S16x512x1024, .f32⟩
  | 124 => ⟨S16x512x1024, .i32⟩
  | 125 => ⟨S16x512x1024, .i32⟩
  | 126 => ⟨S_, .i32⟩
  | 127 => ⟨S16x512x1024, .i32⟩
  | _ => ⟨S16x512x1024x2, .f32⟩

abbrev hbmTy0_2 (i : Nat) : BufTy := match i % 128 with
  | 0 => ⟨S16x512x1024, .i32⟩
  | 1 => ⟨S_, .i32⟩
  | 2 => ⟨S16x512x1024, .i32⟩
  | 3 => ⟨S16x512x1024, .i32⟩
  | 4 => ⟨S_, .i32⟩
  | 5 => ⟨S16x512x1024, .i32⟩
  | 6 => ⟨S16x512x1024, .i32⟩
  | 7 => ⟨S_, .i32⟩
  | 8 => ⟨S16x512x1024, .i32⟩
  | 9 => ⟨S16x512x1024, .i32⟩
  | 10 => ⟨S16x2x524288, .f32⟩
  | 11 => ⟨S_, .i32⟩
  | 12 => ⟨S16x512x1024, .i32⟩
  | 13 => ⟨S16x512x1024, .i32⟩
  | 14 => ⟨S16x512x1024, .i32⟩
  | 15 => ⟨S16x1x524288, .i32⟩
  | 16 => ⟨S_, .i32⟩
  | 17 => ⟨S16x1x524288, .i32⟩
  | 18 => ⟨S16x1x524288, .i1⟩
  | 19 => ⟨S_, .i32⟩
  | 20 => ⟨S16x1x524288, .i32⟩
  | 21 => ⟨S16x1x524288, .i32⟩
  | 22 => ⟨S16x1x524288, .i32⟩
  | 23 => ⟨S16x524288x1, .i32⟩
  | 24 => ⟨S1, .i32⟩
  | 25 => ⟨S_, .i32⟩
  | 26 => ⟨S16x524288x1, .i32⟩
  | 27 => ⟨S16x524288x1, .i1⟩
  | 28 => ⟨S1x1x1, .i32⟩
  | 29 => ⟨S16x524288x1, .i32⟩
  | 30 => ⟨S16x524288x1, .i1⟩
  | 31 => ⟨S16x524288x1, .i1⟩
  | 32 => ⟨S_, .i1⟩
  | 33 => ⟨S16x524288, .i1⟩
  | 34 => ⟨S16x2x524288, .f32⟩
  | 35 => ⟨S16x2x524288, .i1⟩
  | 36 => ⟨S_, .f32⟩
  | 37 => ⟨S16x2x524288, .f32⟩
  | 38 => ⟨S16x2x524288, .f32⟩
  | 39 => ⟨S16x2x512x1024, .f32⟩
  | 40 => ⟨S_, .i32⟩
  | 41 => ⟨S16x512x1024, .i32⟩
  | 42 => ⟨S16x512x1024, .i32⟩
  | 43 => ⟨S16x512x1024, .i32⟩
  | 44 => ⟨S16x1x524288, .i32⟩
  | 45 => ⟨S_, .i32⟩
  | 46 => ⟨S16x1x524288, .i32⟩
  | 47 => ⟨S16x1x524288, .i1⟩
  | 48 => ⟨S_, .i32⟩
  | 49 => ⟨S16x1x524288, .i32⟩
  | 50 => ⟨S16x1x524288, .i32⟩
  | 51 => ⟨S16x1x524288, .i32⟩
  | 52 => ⟨S16x524288x1, .i32⟩
  | 53 => ⟨S1, .i32⟩
  | 54 => ⟨S_, .i32⟩
  | 55 => ⟨S16x524288x1, .i32⟩
  | 56 => ⟨S16x524288x1, .i1⟩
  | 57 => ⟨S1x1x1, .i32⟩
  | 58 => ⟨S16x524288x1, .i32⟩
  | 59 => ⟨S16x524288x1, .i1⟩
  | 60 => ⟨S16x524288x1, .i1⟩
  | 61 => ⟨S_, .i1⟩
  | 62 => ⟨S16x524288, .i1⟩
  | 63 => ⟨S16x2x524288, .f32⟩
  | 64 => ⟨S16x2x524288, .i1⟩
  | 65 => ⟨S_, .f32⟩
  | 66 => ⟨S16x2x524288, .f32⟩
  | 67 => ⟨S16x2x524288, .f32⟩
  | 68 => ⟨S16x2x512x1024, .f32⟩
  | 69 => ⟨S_, .i32⟩
  | 70 => ⟨S16x512x1024, .i32⟩
  | 71 => ⟨S16x512x1024, .i32⟩
  | 72 => ⟨S16x512x1024, .i32⟩
  | 73 => ⟨S16x1x524288, .i32⟩
  | 74 => ⟨S_, .i32⟩
  | 75 => ⟨S16x1x524288, .i32⟩
  | 76 => ⟨S16x1x524288, .i1⟩
  | 77 => ⟨S_, .i32⟩
  | 78 => ⟨S16x1x524288, .i32⟩
  | 79 => ⟨S16x1x524288, .i32⟩
  | 80 => ⟨S16x1x524288, .i32⟩
  | 81 => ⟨S16x524288x1, .i32⟩
  | 82 => ⟨S1, .i32⟩
  | 83 => ⟨S_, .i32⟩
  | 84 => ⟨S16x524288x1, .i32⟩
  | 85 => ⟨S16x524288x1, .i1⟩
  | 86 => ⟨S1x1x1, .i32⟩
  | 87 => ⟨S16x524288x1, .i32⟩
  | 88 => ⟨S16x524288x1, .i1⟩
  | 89 => ⟨S16x524288x1, .i1⟩
  | 90 => ⟨S_, .i1⟩
  | 91 => ⟨S16x524288, .i1⟩
  | 92 => ⟨S16x2x524288, .f32⟩
  | 93 => ⟨S16x2x524288, .i1⟩
  | 94 => ⟨S_, .f32⟩
  | 95 => ⟨S16x2x524288, .f32⟩
  | 96 => ⟨S16x2x524288, .f32⟩
  | 97 => ⟨S16x2x512x1024, .f32⟩
  | 98 => ⟨S_, .i32⟩
  | 99 => ⟨S16x512x1024, .i32⟩
  | 100 => ⟨S16x512x1024, .i32⟩
  | 101 => ⟨S16x512x1024, .i32⟩
  | 102 => ⟨S16x1x524288, .i32⟩
  | 103 => ⟨S_, .i32⟩
  | 104 => ⟨S16x1x524288, .i32⟩
  | 105 => ⟨S16x1x524288, .i1⟩
  | 106 => ⟨S_, .i32⟩
  | 107 => ⟨S16x1x524288, .i32⟩
  | 108 => ⟨S16x1x524288, .i32⟩
  | 109 => ⟨S16x1x524288, .i32⟩
  | 110 => ⟨S16x524288x1, .i32⟩
  | 111 => ⟨S1, .i32⟩
  | 112 => ⟨S_, .i32⟩
  | 113 => ⟨S16x524288x1, .i32⟩
  | 114 => ⟨S16x524288x1, .i1⟩
  | 115 => ⟨S1x1x1, .i32⟩
  | 116 => ⟨S16x524288x1, .i32⟩
  | 117 => ⟨S16x524288x1, .i1⟩
  | 118 => ⟨S16x524288x1, .i1⟩
  | 119 => ⟨S_, .i1⟩
  | 120 => ⟨S16x524288, .i1⟩
  | 121 => ⟨S16x2x524288, .f32⟩
  | 122 => ⟨S16x2x524288, .i1⟩
  | 123 => ⟨S_, .f32⟩
  | 124 => ⟨S16x2x524288, .f32⟩
  | 125 => ⟨S16x2x524288, .f32⟩
  | 126 => ⟨S16x2x512x1024, .f32⟩
  | 127 => ⟨S16x1x512x1024, .f32⟩
  | _ => ⟨S16x512x1024x2, .f32⟩

abbrev hbmTy0_3 (i : Nat) : BufTy := match i % 128 with
  | 0 => ⟨S16x1x512x1024, .f32⟩
  | 1 => ⟨S_, .f32⟩
  | 2 => ⟨S16x1x512x1024, .f32⟩
  | 3 => ⟨S16x1x512x1024, .f32⟩
  | 4 => ⟨S16x2x512x1024, .f32⟩
  | 5 => ⟨S16x2x512x1024, .f32⟩
  | 6 => ⟨S_, .f32⟩
  | 7 => ⟨S16x1x512x1024, .f32⟩
  | 8 => ⟨S16x1x512x1024, .f32⟩
  | 9 => ⟨S16x2x512x1024, .f32⟩
  | 10 => ⟨S16x2x512x1024, .f32⟩
  | 11 => ⟨S16x2x512x1024, .f32⟩
  | 12 => ⟨S16x2x512x1024, .f32⟩
  | 13 => ⟨S_, .f32⟩
  | 14 => ⟨S16x1x512x1024, .f32⟩
  | 15 => ⟨S16x1x512x1024, .f32⟩
  | 16 => ⟨S16x2x512x1024, .f32⟩
  | 17 => ⟨S16x2x512x1024, .f32⟩
  | 18 => ⟨S16x2x512x1024, .f32⟩
  | 19 => ⟨S_, .f32⟩
  | 20 => ⟨S16x1x512x1024, .f32⟩
  | 21 => ⟨S16x1x512x1024, .f32⟩
  | 22 => ⟨S16x2x512x1024, .f32⟩
  | 23 => ⟨S16x2x512x1024, .f32⟩
  | 24 => ⟨S16x2x512x1024, .f32⟩
  | 25 => ⟨S16x2x512x1024, .f32⟩
  | 26 => ⟨S16x2x512x1024, .f32⟩
  | 27 => ⟨S16x2x512x1024, .f32⟩
  | 28 => ⟨S16x2x512x1024, .f32⟩
  | 29 => ⟨S16x2x512x1024, .f32⟩
  | 30 => ⟨S16x2x512x1024, .f32⟩
  | 31 => ⟨S16x2x512x1024, .f32⟩
  | 32 => ⟨S16x2x512x1024, .f32⟩
  | 33 => ⟨S16x2x512x1024, .f32⟩
  | 34 => ⟨S16x2x512x1024, .f32⟩
  | 35 => ⟨S16x2x512x1024, .f32⟩
  | 36 => ⟨S16x2x512x1024, .f32⟩
  | 37 => ⟨S_, .f32⟩
  | 38 => ⟨S16x512x1024, .f32⟩
  | 39 => ⟨S16x1x512x1024, .f32⟩
  | 40 => ⟨S16x1x512x1024, .f32⟩
  | 41 => ⟨S_, .f32⟩
  | 42 => ⟨S16x1x512x1024, .f32⟩
  | 43 => ⟨S16x1x512x1024, .f32⟩
  | 44 => ⟨S_, .f32⟩
  | 45 => ⟨S16x1x512x1024, .f32⟩
  | 46 => ⟨S16x1x512x1024, .f32⟩
  | 47 => ⟨S16x2x512x1024, .f32⟩
  | 48 => ⟨S_, .f32⟩
  | 49 => ⟨S16x512x1024, .f32⟩
  | 50 => ⟨S16x1x512x1024, .f32⟩
  | 51 => ⟨S16x1x512x1024, .f32⟩
  | 52 => ⟨S_, .f32⟩
  | 53 => ⟨S16x1x512x1024, .f32⟩
  | 54 => ⟨S16x1x512x1024, .f32⟩
  | 55 => ⟨S_, .f32⟩
  | 56 => ⟨S16x1x512x1024, .f32⟩
  | 57 => ⟨S16x1x512x1024, .f32⟩
  | 58 => ⟨S16x2x512x1024, .f32⟩
  | 59 => ⟨S_, .f32⟩
  | 60 => ⟨S16x512x1024, .f32⟩
  | 61 => ⟨S16x1x512x1024, .f32⟩
  | 62 => ⟨S16x1x512x1024, .f32⟩
  | 63 => ⟨S_, .f32⟩
  | 64 => ⟨S16x1x512x1024, .f32⟩
  | 65 => ⟨S16x1x512x1024, .f32⟩
  | 66 => ⟨S16x1x512x1024, .i1⟩
  | 67 => ⟨S16x1x512x1024, .f32⟩
  | 68 => ⟨S16x2x512x1024, .f32⟩
  | 69 => ⟨S_, .f32⟩
  | 70 => ⟨S16x512x1024, .f32⟩
  | 71 => ⟨S16x1x512x1024, .f32⟩
  | 72 => ⟨S16x1x512x1024, .f32⟩
  | 73 => ⟨S_, .f32⟩
  | 74 => ⟨S16x1x512x1024, .f32⟩
  | 75 => ⟨S16x1x512x1024, .f32⟩
  | 76 => ⟨S16x1x512x1024, .i1⟩
  | 77 => ⟨S16x1x512x1024, .f32⟩
  | 78 => ⟨S_, .f32⟩
  | 79 => ⟨S16x512x1024, .f32⟩
  | 80 => ⟨S16x1x512x1024, .f32⟩
  | 81 => ⟨S_, .f32⟩
  | 82 => ⟨S16x1x512x1024, .f32⟩
  | 83 => ⟨S16x1x512x1024, .f32⟩
  | 84 => ⟨S_, .f32⟩
  | 85 => ⟨S16x512x1024, .f32⟩
  | 86 => ⟨S16x1x512x1024, .f32⟩
  | 87 => ⟨S_, .f32⟩
  | 88 => ⟨S16x1x512x1024, .f32⟩
  | 89 => ⟨S16x1x512x1024, .f32⟩
  | 90 => ⟨S16x512x1024, .f32⟩
  | 91 => ⟨S16x512x1024, .f32⟩
  | 92 => ⟨S16x512x1024, .f32⟩
  | 93 => ⟨S16x512x1024, .f32⟩
  | 94 => ⟨S16x1x4, .f32⟩
  | 95 => ⟨S16x4, .f32⟩
  | 96 => ⟨S16x1, .f32⟩
  | 97 => ⟨S16, .f32⟩
  | 98 => ⟨S_, .f32⟩
  | 99 => ⟨S_, .f32⟩
  | 100 => ⟨S16x1, .f32⟩
  | 101 => ⟨S16, .f32⟩
  | 102 => ⟨S_, .f32⟩
  | 103 => ⟨S_, .f32⟩
  | 104 => ⟨S16x1, .f32⟩
  | 105 => ⟨S16, .f32⟩
  | 106 => ⟨S_, .f32⟩
  | 107 => ⟨S_, .f32⟩
  | 108 => ⟨S16x1, .f32⟩
  | 109 => ⟨S16, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | _ => ⟨S16x512x1024x2, .f32⟩

abbrev hbmTy (i : Nat) : BufTy := match i / 128 with
  | 0 => hbmTy0_0 i
  | 1 => hbmTy0_1 i
  | 2 => hbmTy0_2 i
  | 3 => hbmTy0_3 i
  | _ => ⟨S16x512x1024x2, .f32⟩

abbrev bufTy : (tb : Table) → Fin (tcTables nBuf tb) → BufTy
  | .hbm, ⟨i, _⟩ => hbmTy i
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x512x1024, .f32⟩
  | .local _ .vmem, ⟨8, _⟩ => ⟨S1x1x4, .f32⟩
  | .local _ .vmem, ⟨9, _⟩ => ⟨S1x1x4, .f32⟩
  | _, _ => ⟨S16x512x1024x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_c : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_cst_4 : Ref sig .tc := ⟨.hbm, 28, rfl⟩
abbrev main_v15 : Ref sig .tc := ⟨.hbm, 29, rfl⟩
abbrev main_v16 : Ref sig .tc := ⟨.hbm, 30, rfl⟩
abbrev main_cst_5 : Ref sig .tc := ⟨.hbm, 31, rfl⟩
abbrev main_v17 : Ref sig .tc := ⟨.hbm, 32, rfl⟩
abbrev main_v18 : Ref sig .tc := ⟨.hbm, 33, rfl⟩
abbrev main_cst_6 : Ref sig .tc := ⟨.hbm, 34, rfl⟩
abbrev main_c_7 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_c_8 : Ref sig .tc := ⟨.hbm, 48, rfl⟩
abbrev main_v26 : Ref sig .tc := ⟨.hbm, 49, rfl⟩
abbrev main_v27 : Ref sig .tc := ⟨.hbm, 50, rfl⟩
abbrev main_c_9 : Ref sig .tc := ⟨.hbm, 51, rfl⟩
abbrev main_v28 : Ref sig .tc := ⟨.hbm, 52, rfl⟩
abbrev main_v29 : Ref sig .tc := ⟨.hbm, 53, rfl⟩
abbrev main_c_10 : Ref sig .tc := ⟨.hbm, 54, rfl⟩
abbrev main_v30 : Ref sig .tc := ⟨.hbm, 55, rfl⟩
abbrev main_v31 : Ref sig .tc := ⟨.hbm, 56, rfl⟩
abbrev main_c_11 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_c_12 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_call2_c : Ref sig .tc := ⟨.hbm, 66, rfl⟩
abbrev main_call2_v0 : Ref sig .tc := ⟨.hbm, 67, rfl⟩
abbrev main_call2_v1 : Ref sig .tc := ⟨.hbm, 68, rfl⟩
abbrev main_call2_c_0 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_call2_v5 : Ref sig .tc := ⟨.hbm, 73, rfl⟩
abbrev main_call2_c_1 : Ref sig .tc := ⟨.hbm, 74, rfl⟩
abbrev main_call2_c_2 : Ref sig .tc := ⟨.hbm, 75, rfl⟩
abbrev main_call2_v6 : Ref sig .tc := ⟨.hbm, 76, rfl⟩
abbrev main_call2_v7 : Ref sig .tc := ⟨.hbm, 77, rfl⟩
abbrev main_call2_v8 : Ref sig .tc := ⟨.hbm, 78, rfl⟩
abbrev main_call2_v9 : Ref sig .tc := ⟨.hbm, 79, rfl⟩
abbrev main_call2_v10 : Ref sig .tc := ⟨.hbm, 80, rfl⟩
abbrev main_call2_v11 : Ref sig .tc := ⟨.hbm, 81, rfl⟩
abbrev main_call2_c_3 : Ref sig .tc := ⟨.hbm, 82, rfl⟩
abbrev main_call2_v12 : Ref sig .tc := ⟨.hbm, 83, rfl⟩
abbrev main_call2_v13 : Ref sig .tc := ⟨.hbm, 84, rfl⟩
abbrev main_call2_v14 : Ref sig .tc := ⟨.hbm, 85, rfl⟩
abbrev main_call2_cst : Ref sig .tc := ⟨.hbm, 86, rfl⟩
abbrev main_call2_v15 : Ref sig .tc := ⟨.hbm, 87, rfl⟩
abbrev main_v39 : Ref sig .tc := ⟨.hbm, 88, rfl⟩
abbrev main_v40 : Ref sig .tc := ⟨.hbm, 89, rfl⟩
abbrev main_c_13 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_call3_c : Ref sig .tc := ⟨.hbm, 95, rfl⟩
abbrev main_call3_v0 : Ref sig .tc := ⟨.hbm, 96, rfl⟩
abbrev main_call3_v1 : Ref sig .tc := ⟨.hbm, 97, rfl⟩
abbrev main_call3_c_0 : Ref sig .tc := ⟨.hbm, 98, rfl⟩
abbrev main_call3_v2 : Ref sig .tc := ⟨.hbm, 99, rfl⟩
abbrev main_call3_v3 : Ref sig .tc := ⟨.hbm, 100, rfl⟩
abbrev main_call3_v4 : Ref sig .tc := ⟨.hbm, 101, rfl⟩
abbrev main_call3_v5 : Ref sig .tc := ⟨.hbm, 102, rfl⟩
abbrev main_call3_c_1 : Ref sig .tc := ⟨.hbm, 103, rfl⟩
abbrev main_call3_c_2 : Ref sig .tc := ⟨.hbm, 104, rfl⟩
abbrev main_call3_v6 : Ref sig .tc := ⟨.hbm, 105, rfl⟩
abbrev main_call3_v7 : Ref sig .tc := ⟨.hbm, 106, rfl⟩
abbrev main_call3_v8 : Ref sig .tc := ⟨.hbm, 107, rfl⟩
abbrev main_call3_v9 : Ref sig .tc := ⟨.hbm, 108, rfl⟩
abbrev main_call3_v10 : Ref sig .tc := ⟨.hbm, 109, rfl⟩
abbrev main_call3_v11 : Ref sig .tc := ⟨.hbm, 110, rfl⟩
abbrev main_call3_c_3 : Ref sig .tc := ⟨.hbm, 111, rfl⟩
abbrev main_call3_v12 : Ref sig .tc := ⟨.hbm, 112, rfl⟩
abbrev main_call3_v13 : Ref sig .tc := ⟨.hbm, 113, rfl⟩
abbrev main_call3_v14 : Ref sig .tc := ⟨.hbm, 114, rfl⟩
abbrev main_call3_cst : Ref sig .tc := ⟨.hbm, 115, rfl⟩
abbrev main_call3_v15 : Ref sig .tc := ⟨.hbm, 116, rfl⟩
abbrev main_v45 : Ref sig .tc := ⟨.hbm, 117, rfl⟩
abbrev main_v46 : Ref sig .tc := ⟨.hbm, 118, rfl⟩
abbrev main_c_14 : Ref sig .tc := ⟨.hbm, 119, rfl⟩
abbrev main_v47 : Ref sig .tc := ⟨.hbm, 120, rfl⟩
abbrev main_v48 : Ref sig .tc := ⟨.hbm, 121, rfl⟩
abbrev main_v49 : Ref sig .tc := ⟨.hbm, 122, rfl⟩
abbrev main_v50 : Ref sig .tc := ⟨.hbm, 123, rfl⟩
abbrev main_call4_c : Ref sig .tc := ⟨.hbm, 124, rfl⟩
abbrev main_call4_v0 : Ref sig .tc := ⟨.hbm, 125, rfl⟩
abbrev main_call4_v1 : Ref sig .tc := ⟨.hbm, 126, rfl⟩
abbrev main_call4_c_0 : Ref sig .tc := ⟨.hbm, 127, rfl⟩
abbrev main_call4_v2 : Ref sig .tc := ⟨.hbm, 128, rfl⟩
abbrev main_call4_v3 : Ref sig .tc := ⟨.hbm, 129, rfl⟩
abbrev main_call4_v4 : Ref sig .tc := ⟨.hbm, 130, rfl⟩
abbrev main_call4_v5 : Ref sig .tc := ⟨.hbm, 131, rfl⟩
abbrev main_call4_c_1 : Ref sig .tc := ⟨.hbm, 132, rfl⟩
abbrev main_call4_c_2 : Ref sig .tc := ⟨.hbm, 133, rfl⟩
abbrev main_call4_v6 : Ref sig .tc := ⟨.hbm, 134, rfl⟩
abbrev main_call4_v7 : Ref sig .tc := ⟨.hbm, 135, rfl⟩
abbrev main_call4_v8 : Ref sig .tc := ⟨.hbm, 136, rfl⟩
abbrev main_call4_v9 : Ref sig .tc := ⟨.hbm, 137, rfl⟩
abbrev main_call4_v10 : Ref sig .tc := ⟨.hbm, 138, rfl⟩
abbrev main_call4_v11 : Ref sig .tc := ⟨.hbm, 139, rfl⟩
abbrev main_call4_c_3 : Ref sig .tc := ⟨.hbm, 140, rfl⟩
abbrev main_call4_v12 : Ref sig .tc := ⟨.hbm, 141, rfl⟩
abbrev main_call4_v13 : Ref sig .tc := ⟨.hbm, 142, rfl⟩
abbrev main_call4_v14 : Ref sig .tc := ⟨.hbm, 143, rfl⟩
abbrev main_call4_cst : Ref sig .tc := ⟨.hbm, 144, rfl⟩
abbrev main_call4_v15 : Ref sig .tc := ⟨.hbm, 145, rfl⟩
abbrev main_v51 : Ref sig .tc := ⟨.hbm, 146, rfl⟩
abbrev main_v52 : Ref sig .tc := ⟨.hbm, 147, rfl⟩
abbrev main_c_15 : Ref sig .tc := ⟨.hbm, 148, rfl⟩
abbrev main_v53 : Ref sig .tc := ⟨.hbm, 149, rfl⟩
abbrev main_v54 : Ref sig .tc := ⟨.hbm, 150, rfl⟩
abbrev main_v55 : Ref sig .tc := ⟨.hbm, 151, rfl⟩
abbrev main_v56 : Ref sig .tc := ⟨.hbm, 152, rfl⟩
abbrev main_call5_c : Ref sig .tc := ⟨.hbm, 153, rfl⟩
abbrev main_call5_v0 : Ref sig .tc := ⟨.hbm, 154, rfl⟩
abbrev main_call5_v1 : Ref sig .tc := ⟨.hbm, 155, rfl⟩
abbrev main_call5_c_0 : Ref sig .tc := ⟨.hbm, 156, rfl⟩
abbrev main_call5_v2 : Ref sig .tc := ⟨.hbm, 157, rfl⟩
abbrev main_call5_v3 : Ref sig .tc := ⟨.hbm, 158, rfl⟩
abbrev main_call5_v4 : Ref sig .tc := ⟨.hbm, 159, rfl⟩
abbrev main_call5_v5 : Ref sig .tc := ⟨.hbm, 160, rfl⟩
abbrev main_call5_c_1 : Ref sig .tc := ⟨.hbm, 161, rfl⟩
abbrev main_call5_c_2 : Ref sig .tc := ⟨.hbm, 162, rfl⟩
abbrev main_call5_v6 : Ref sig .tc := ⟨.hbm, 163, rfl⟩
abbrev main_call5_v7 : Ref sig .tc := ⟨.hbm, 164, rfl⟩
abbrev main_call5_v8 : Ref sig .tc := ⟨.hbm, 165, rfl⟩
abbrev main_call5_v9 : Ref sig .tc := ⟨.hbm, 166, rfl⟩
abbrev main_call5_v10 : Ref sig .tc := ⟨.hbm, 167, rfl⟩
abbrev main_call5_v11 : Ref sig .tc := ⟨.hbm, 168, rfl⟩
abbrev main_call5_c_3 : Ref sig .tc := ⟨.hbm, 169, rfl⟩
abbrev main_call5_v12 : Ref sig .tc := ⟨.hbm, 170, rfl⟩
abbrev main_call5_v13 : Ref sig .tc := ⟨.hbm, 171, rfl⟩
abbrev main_call5_v14 : Ref sig .tc := ⟨.hbm, 172, rfl⟩
abbrev main_call5_cst : Ref sig .tc := ⟨.hbm, 173, rfl⟩
abbrev main_call5_v15 : Ref sig .tc := ⟨.hbm, 174, rfl⟩
abbrev main_v57 : Ref sig .tc := ⟨.hbm, 175, rfl⟩
abbrev main_v58 : Ref sig .tc := ⟨.hbm, 176, rfl⟩
abbrev main_v59 : Ref sig .tc := ⟨.hbm, 177, rfl⟩
abbrev main_v60 : Ref sig .tc := ⟨.hbm, 178, rfl⟩
abbrev main_cst_16 : Ref sig .tc := ⟨.hbm, 179, rfl⟩
abbrev main_v61 : Ref sig .tc := ⟨.hbm, 180, rfl⟩
abbrev main_v62 : Ref sig .tc := ⟨.hbm, 181, rfl⟩
abbrev main_v63 : Ref sig .tc := ⟨.hbm, 182, rfl⟩
abbrev main_v64 : Ref sig .tc := ⟨.hbm, 183, rfl⟩
abbrev main_cst_17 : Ref sig .tc := ⟨.hbm, 184, rfl⟩
abbrev main_v65 : Ref sig .tc := ⟨.hbm, 185, rfl⟩
abbrev main_v66 : Ref sig .tc := ⟨.hbm, 186, rfl⟩
abbrev main_v67 : Ref sig .tc := ⟨.hbm, 187, rfl⟩
abbrev main_v68 : Ref sig .tc := ⟨.hbm, 188, rfl⟩
abbrev main_v69 : Ref sig .tc := ⟨.hbm, 189, rfl⟩
abbrev main_v70 : Ref sig .tc := ⟨.hbm, 190, rfl⟩
abbrev main_cst_18 : Ref sig .tc := ⟨.hbm, 191, rfl⟩
abbrev main_v71 : Ref sig .tc := ⟨.hbm, 192, rfl⟩
abbrev main_v72 : Ref sig .tc := ⟨.hbm, 193, rfl⟩
abbrev main_v73 : Ref sig .tc := ⟨.hbm, 194, rfl⟩
abbrev main_v74 : Ref sig .tc := ⟨.hbm, 195, rfl⟩
abbrev main_v75 : Ref sig .tc := ⟨.hbm, 196, rfl⟩
abbrev main_cst_19 : Ref sig .tc := ⟨.hbm, 197, rfl⟩
abbrev main_v76 : Ref sig .tc := ⟨.hbm, 198, rfl⟩
abbrev main_v77 : Ref sig .tc := ⟨.hbm, 199, rfl⟩
abbrev main_v78 : Ref sig .tc := ⟨.hbm, 200, rfl⟩
abbrev main_v79 : Ref sig .tc := ⟨.hbm, 201, rfl⟩
abbrev main_v80 : Ref sig .tc := ⟨.hbm, 202, rfl⟩
abbrev main_v81 : Ref sig .tc := ⟨.hbm, 203, rfl⟩
abbrev main_v82 : Ref sig .tc := ⟨.hbm, 204, rfl⟩
abbrev main_v83 : Ref sig .tc := ⟨.hbm, 205, rfl⟩
abbrev main_v84 : Ref sig .tc := ⟨.hbm, 206, rfl⟩
abbrev main_v85 : Ref sig .tc := ⟨.hbm, 207, rfl⟩
abbrev main_v86 : Ref sig .tc := ⟨.hbm, 208, rfl⟩
abbrev main_v87 : Ref sig .tc := ⟨.hbm, 209, rfl⟩
abbrev main_v88 : Ref sig .tc := ⟨.hbm, 210, rfl⟩
abbrev main_v89 : Ref sig .tc := ⟨.hbm, 211, rfl⟩
abbrev main_cst_20 : Ref sig .tc := ⟨.hbm, 212, rfl⟩
abbrev main_v90 : Ref sig .tc := ⟨.hbm, 213, rfl⟩
abbrev main_v91 : Ref sig .tc := ⟨.hbm, 214, rfl⟩
abbrev main_cst_21 : Ref sig .tc := ⟨.hbm, 215, rfl⟩
abbrev main_v92 : Ref sig .tc := ⟨.hbm, 216, rfl⟩
abbrev main_v93 : Ref sig .tc := ⟨.hbm, 217, rfl⟩
abbrev main_cst_22 : Ref sig .tc := ⟨.hbm, 218, rfl⟩
abbrev main_v94 : Ref sig .tc := ⟨.hbm, 219, rfl⟩
abbrev main_v95 : Ref sig .tc := ⟨.hbm, 220, rfl⟩
abbrev main_cst_23 : Ref sig .tc := ⟨.hbm, 221, rfl⟩
abbrev main_c_24 : Ref sig .tc := ⟨.hbm, 222, rfl⟩
abbrev main_call6_v0 : Ref sig .tc := ⟨.hbm, 223, rfl⟩
abbrev main_call6_v1 : Ref sig .tc := ⟨.hbm, 224, rfl⟩
abbrev main_call6_v2 : Ref sig .tc := ⟨.hbm, 225, rfl⟩
abbrev main_call6_v3 : Ref sig .tc := ⟨.hbm, 226, rfl⟩
abbrev main_call6_v4 : Ref sig .tc := ⟨.hbm, 227, rfl⟩
abbrev main_v96 : Ref sig .tc := ⟨.hbm, 228, rfl⟩
abbrev main_v97 : Ref sig .tc := ⟨.hbm, 229, rfl⟩
abbrev main_v98 : Ref sig .tc := ⟨.hbm, 230, rfl⟩
abbrev main_cst_25 : Ref sig .tc := ⟨.hbm, 231, rfl⟩
abbrev main_v99 : Ref sig .tc := ⟨.hbm, 232, rfl⟩
abbrev main_v100 : Ref sig .tc := ⟨.hbm, 233, rfl⟩
abbrev main_cst_26 : Ref sig .tc := ⟨.hbm, 234, rfl⟩
abbrev main_v101 : Ref sig .tc := ⟨.hbm, 235, rfl⟩
abbrev main_v102 : Ref sig .tc := ⟨.hbm, 236, rfl⟩
abbrev main_cst_27 : Ref sig .tc := ⟨.hbm, 237, rfl⟩
abbrev main_v103 : Ref sig .tc := ⟨.hbm, 238, rfl⟩
abbrev main_v104 : Ref sig .tc := ⟨.hbm, 239, rfl⟩
abbrev main_cst_28 : Ref sig .tc := ⟨.hbm, 240, rfl⟩
abbrev main_c_29 : Ref sig .tc := ⟨.hbm, 241, rfl⟩
abbrev main_call7_v0 : Ref sig .tc := ⟨.hbm, 242, rfl⟩
abbrev main_call7_v1 : Ref sig .tc := ⟨.hbm, 243, rfl⟩
abbrev main_call7_v2 : Ref sig .tc := ⟨.hbm, 244, rfl⟩
abbrev main_call7_v3 : Ref sig .tc := ⟨.hbm, 245, rfl⟩
abbrev main_call7_v4 : Ref sig .tc := ⟨.hbm, 246, rfl⟩
abbrev main_v105 : Ref sig .tc := ⟨.hbm, 247, rfl⟩
abbrev main_v106 : Ref sig .tc := ⟨.hbm, 248, rfl⟩
abbrev main_v107 : Ref sig .tc := ⟨.hbm, 249, rfl⟩
abbrev main_v108 : Ref sig .tc := ⟨.hbm, 250, rfl⟩
abbrev main_v109 : Ref sig .tc := ⟨.hbm, 251, rfl⟩
abbrev main_v110 : Ref sig .tc := ⟨.hbm, 252, rfl⟩
abbrev main_v111 : Ref sig .tc := ⟨.hbm, 253, rfl⟩
abbrev main_c_30 : Ref sig .tc := ⟨.hbm, 254, rfl⟩
abbrev main_v112 : Ref sig .tc := ⟨.hbm, 255, rfl⟩
abbrev main_v113 : Ref sig .tc := ⟨.hbm, 256, rfl⟩
abbrev main_c_31 : Ref sig .tc := ⟨.hbm, 257, rfl⟩
abbrev main_v114 : Ref sig .tc := ⟨.hbm, 258, rfl⟩
abbrev main_v115 : Ref sig .tc := ⟨.hbm, 259, rfl⟩
abbrev main_c_32 : Ref sig .tc := ⟨.hbm, 260, rfl⟩
abbrev main_v116 : Ref sig .tc := ⟨.hbm, 261, rfl⟩
abbrev main_v117 : Ref sig .tc := ⟨.hbm, 262, rfl⟩
abbrev main_c_33 : Ref sig .tc := ⟨.hbm, 263, rfl⟩
abbrev main_v118 : Ref sig .tc := ⟨.hbm, 264, rfl⟩
abbrev main_v119 : Ref sig .tc := ⟨.hbm, 265, rfl⟩
abbrev main_v120 : Ref sig .tc := ⟨.hbm, 266, rfl⟩
abbrev main_c_34 : Ref sig .tc := ⟨.hbm, 267, rfl⟩
abbrev main_v121 : Ref sig .tc := ⟨.hbm, 268, rfl⟩
abbrev main_v122 : Ref sig .tc := ⟨.hbm, 269, rfl⟩
abbrev main_v123 : Ref sig .tc := ⟨.hbm, 270, rfl⟩
abbrev main_v124 : Ref sig .tc := ⟨.hbm, 271, rfl⟩
abbrev main_call8_c : Ref sig .tc := ⟨.hbm, 272, rfl⟩
abbrev main_call8_v0 : Ref sig .tc := ⟨.hbm, 273, rfl⟩
abbrev main_call8_v1 : Ref sig .tc := ⟨.hbm, 274, rfl⟩
abbrev main_call8_c_0 : Ref sig .tc := ⟨.hbm, 275, rfl⟩
abbrev main_call8_v2 : Ref sig .tc := ⟨.hbm, 276, rfl⟩
abbrev main_call8_v3 : Ref sig .tc := ⟨.hbm, 277, rfl⟩
abbrev main_call8_v4 : Ref sig .tc := ⟨.hbm, 278, rfl⟩
abbrev main_call8_v5 : Ref sig .tc := ⟨.hbm, 279, rfl⟩
abbrev main_call8_c_1 : Ref sig .tc := ⟨.hbm, 280, rfl⟩
abbrev main_call8_c_2 : Ref sig .tc := ⟨.hbm, 281, rfl⟩
abbrev main_call8_v6 : Ref sig .tc := ⟨.hbm, 282, rfl⟩
abbrev main_call8_v7 : Ref sig .tc := ⟨.hbm, 283, rfl⟩
abbrev main_call8_v8 : Ref sig .tc := ⟨.hbm, 284, rfl⟩
abbrev main_call8_v9 : Ref sig .tc := ⟨.hbm, 285, rfl⟩
abbrev main_call8_v10 : Ref sig .tc := ⟨.hbm, 286, rfl⟩
abbrev main_call8_v11 : Ref sig .tc := ⟨.hbm, 287, rfl⟩
abbrev main_call8_c_3 : Ref sig .tc := ⟨.hbm, 288, rfl⟩
abbrev main_call8_v12 : Ref sig .tc := ⟨.hbm, 289, rfl⟩
abbrev main_call8_v13 : Ref sig .tc := ⟨.hbm, 290, rfl⟩
abbrev main_call8_v14 : Ref sig .tc := ⟨.hbm, 291, rfl⟩
abbrev main_call8_cst : Ref sig .tc := ⟨.hbm, 292, rfl⟩
abbrev main_call8_v15 : Ref sig .tc := ⟨.hbm, 293, rfl⟩
abbrev main_v125 : Ref sig .tc := ⟨.hbm, 294, rfl⟩
abbrev main_v126 : Ref sig .tc := ⟨.hbm, 295, rfl⟩
abbrev main_c_35 : Ref sig .tc := ⟨.hbm, 296, rfl⟩
abbrev main_v127 : Ref sig .tc := ⟨.hbm, 297, rfl⟩
abbrev main_v128 : Ref sig .tc := ⟨.hbm, 298, rfl⟩
abbrev main_v129 : Ref sig .tc := ⟨.hbm, 299, rfl⟩
abbrev main_v130 : Ref sig .tc := ⟨.hbm, 300, rfl⟩
abbrev main_call9_c : Ref sig .tc := ⟨.hbm, 301, rfl⟩
abbrev main_call9_v0 : Ref sig .tc := ⟨.hbm, 302, rfl⟩
abbrev main_call9_v1 : Ref sig .tc := ⟨.hbm, 303, rfl⟩
abbrev main_call9_c_0 : Ref sig .tc := ⟨.hbm, 304, rfl⟩
abbrev main_call9_v2 : Ref sig .tc := ⟨.hbm, 305, rfl⟩
abbrev main_call9_v3 : Ref sig .tc := ⟨.hbm, 306, rfl⟩
abbrev main_call9_v4 : Ref sig .tc := ⟨.hbm, 307, rfl⟩
abbrev main_call9_v5 : Ref sig .tc := ⟨.hbm, 308, rfl⟩
abbrev main_call9_c_1 : Ref sig .tc := ⟨.hbm, 309, rfl⟩
abbrev main_call9_c_2 : Ref sig .tc := ⟨.hbm, 310, rfl⟩
abbrev main_call9_v6 : Ref sig .tc := ⟨.hbm, 311, rfl⟩
abbrev main_call9_v7 : Ref sig .tc := ⟨.hbm, 312, rfl⟩
abbrev main_call9_v8 : Ref sig .tc := ⟨.hbm, 313, rfl⟩
abbrev main_call9_v9 : Ref sig .tc := ⟨.hbm, 314, rfl⟩
abbrev main_call9_v10 : Ref sig .tc := ⟨.hbm, 315, rfl⟩
abbrev main_call9_v11 : Ref sig .tc := ⟨.hbm, 316, rfl⟩
abbrev main_call9_c_3 : Ref sig .tc := ⟨.hbm, 317, rfl⟩
abbrev main_call9_v12 : Ref sig .tc := ⟨.hbm, 318, rfl⟩
abbrev main_call9_v13 : Ref sig .tc := ⟨.hbm, 319, rfl⟩
abbrev main_call9_v14 : Ref sig .tc := ⟨.hbm, 320, rfl⟩
abbrev main_call9_cst : Ref sig .tc := ⟨.hbm, 321, rfl⟩
abbrev main_call9_v15 : Ref sig .tc := ⟨.hbm, 322, rfl⟩
abbrev main_v131 : Ref sig .tc := ⟨.hbm, 323, rfl⟩
abbrev main_v132 : Ref sig .tc := ⟨.hbm, 324, rfl⟩
abbrev main_c_36 : Ref sig .tc := ⟨.hbm, 325, rfl⟩
abbrev main_v133 : Ref sig .tc := ⟨.hbm, 326, rfl⟩
abbrev main_v134 : Ref sig .tc := ⟨.hbm, 327, rfl⟩
abbrev main_v135 : Ref sig .tc := ⟨.hbm, 328, rfl⟩
abbrev main_v136 : Ref sig .tc := ⟨.hbm, 329, rfl⟩
abbrev main_call10_c : Ref sig .tc := ⟨.hbm, 330, rfl⟩
abbrev main_call10_v0 : Ref sig .tc := ⟨.hbm, 331, rfl⟩
abbrev main_call10_v1 : Ref sig .tc := ⟨.hbm, 332, rfl⟩
abbrev main_call10_c_0 : Ref sig .tc := ⟨.hbm, 333, rfl⟩
abbrev main_call10_v2 : Ref sig .tc := ⟨.hbm, 334, rfl⟩
abbrev main_call10_v3 : Ref sig .tc := ⟨.hbm, 335, rfl⟩
abbrev main_call10_v4 : Ref sig .tc := ⟨.hbm, 336, rfl⟩
abbrev main_call10_v5 : Ref sig .tc := ⟨.hbm, 337, rfl⟩
abbrev main_call10_c_1 : Ref sig .tc := ⟨.hbm, 338, rfl⟩
abbrev main_call10_c_2 : Ref sig .tc := ⟨.hbm, 339, rfl⟩
abbrev main_call10_v6 : Ref sig .tc := ⟨.hbm, 340, rfl⟩
abbrev main_call10_v7 : Ref sig .tc := ⟨.hbm, 341, rfl⟩
abbrev main_call10_v8 : Ref sig .tc := ⟨.hbm, 342, rfl⟩
abbrev main_call10_v9 : Ref sig .tc := ⟨.hbm, 343, rfl⟩
abbrev main_call10_v10 : Ref sig .tc := ⟨.hbm, 344, rfl⟩
abbrev main_call10_v11 : Ref sig .tc := ⟨.hbm, 345, rfl⟩
abbrev main_call10_c_3 : Ref sig .tc := ⟨.hbm, 346, rfl⟩
abbrev main_call10_v12 : Ref sig .tc := ⟨.hbm, 347, rfl⟩
abbrev main_call10_v13 : Ref sig .tc := ⟨.hbm, 348, rfl⟩
abbrev main_call10_v14 : Ref sig .tc := ⟨.hbm, 349, rfl⟩
abbrev main_call10_cst : Ref sig .tc := ⟨.hbm, 350, rfl⟩
abbrev main_call10_v15 : Ref sig .tc := ⟨.hbm, 351, rfl⟩
abbrev main_v137 : Ref sig .tc := ⟨.hbm, 352, rfl⟩
abbrev main_v138 : Ref sig .tc := ⟨.hbm, 353, rfl⟩
abbrev main_c_37 : Ref sig .tc := ⟨.hbm, 354, rfl⟩
abbrev main_v139 : Ref sig .tc := ⟨.hbm, 355, rfl⟩
abbrev main_v140 : Ref sig .tc := ⟨.hbm, 356, rfl⟩
abbrev main_v141 : Ref sig .tc := ⟨.hbm, 357, rfl⟩
abbrev main_v142 : Ref sig .tc := ⟨.hbm, 358, rfl⟩
abbrev main_call11_c : Ref sig .tc := ⟨.hbm, 359, rfl⟩
abbrev main_call11_v0 : Ref sig .tc := ⟨.hbm, 360, rfl⟩
abbrev main_call11_v1 : Ref sig .tc := ⟨.hbm, 361, rfl⟩
abbrev main_call11_c_0 : Ref sig .tc := ⟨.hbm, 362, rfl⟩
abbrev main_call11_v2 : Ref sig .tc := ⟨.hbm, 363, rfl⟩
abbrev main_call11_v3 : Ref sig .tc := ⟨.hbm, 364, rfl⟩
abbrev main_call11_v4 : Ref sig .tc := ⟨.hbm, 365, rfl⟩
abbrev main_call11_v5 : Ref sig .tc := ⟨.hbm, 366, rfl⟩
abbrev main_call11_c_1 : Ref sig .tc := ⟨.hbm, 367, rfl⟩
abbrev main_call11_c_2 : Ref sig .tc := ⟨.hbm, 368, rfl⟩
abbrev main_call11_v6 : Ref sig .tc := ⟨.hbm, 369, rfl⟩
abbrev main_call11_v7 : Ref sig .tc := ⟨.hbm, 370, rfl⟩
abbrev main_call11_v8 : Ref sig .tc := ⟨.hbm, 371, rfl⟩
abbrev main_call11_v9 : Ref sig .tc := ⟨.hbm, 372, rfl⟩
abbrev main_call11_v10 : Ref sig .tc := ⟨.hbm, 373, rfl⟩
abbrev main_call11_v11 : Ref sig .tc := ⟨.hbm, 374, rfl⟩
abbrev main_call11_c_3 : Ref sig .tc := ⟨.hbm, 375, rfl⟩
abbrev main_call11_v12 : Ref sig .tc := ⟨.hbm, 376, rfl⟩
abbrev main_call11_v13 : Ref sig .tc := ⟨.hbm, 377, rfl⟩
abbrev main_call11_v14 : Ref sig .tc := ⟨.hbm, 378, rfl⟩
abbrev main_call11_cst : Ref sig .tc := ⟨.hbm, 379, rfl⟩
abbrev main_call11_v15 : Ref sig .tc := ⟨.hbm, 380, rfl⟩
abbrev main_v143 : Ref sig .tc := ⟨.hbm, 381, rfl⟩
abbrev main_v144 : Ref sig .tc := ⟨.hbm, 382, rfl⟩
abbrev main_v145 : Ref sig .tc := ⟨.hbm, 383, rfl⟩
abbrev main_v146 : Ref sig .tc := ⟨.hbm, 384, rfl⟩
abbrev main_cst_38 : Ref sig .tc := ⟨.hbm, 385, rfl⟩
abbrev main_v147 : Ref sig .tc := ⟨.hbm, 386, rfl⟩
abbrev main_v148 : Ref sig .tc := ⟨.hbm, 387, rfl⟩
abbrev main_v149 : Ref sig .tc := ⟨.hbm, 388, rfl⟩
abbrev main_v150 : Ref sig .tc := ⟨.hbm, 389, rfl⟩
abbrev main_cst_39 : Ref sig .tc := ⟨.hbm, 390, rfl⟩
abbrev main_v151 : Ref sig .tc := ⟨.hbm, 391, rfl⟩
abbrev main_v152 : Ref sig .tc := ⟨.hbm, 392, rfl⟩
abbrev main_v153 : Ref sig .tc := ⟨.hbm, 393, rfl⟩
abbrev main_v154 : Ref sig .tc := ⟨.hbm, 394, rfl⟩
abbrev main_v155 : Ref sig .tc := ⟨.hbm, 395, rfl⟩
abbrev main_v156 : Ref sig .tc := ⟨.hbm, 396, rfl⟩
abbrev main_cst_40 : Ref sig .tc := ⟨.hbm, 397, rfl⟩
abbrev main_v157 : Ref sig .tc := ⟨.hbm, 398, rfl⟩
abbrev main_v158 : Ref sig .tc := ⟨.hbm, 399, rfl⟩
abbrev main_v159 : Ref sig .tc := ⟨.hbm, 400, rfl⟩
abbrev main_v160 : Ref sig .tc := ⟨.hbm, 401, rfl⟩
abbrev main_v161 : Ref sig .tc := ⟨.hbm, 402, rfl⟩
abbrev main_cst_41 : Ref sig .tc := ⟨.hbm, 403, rfl⟩
abbrev main_v162 : Ref sig .tc := ⟨.hbm, 404, rfl⟩
abbrev main_v163 : Ref sig .tc := ⟨.hbm, 405, rfl⟩
abbrev main_v164 : Ref sig .tc := ⟨.hbm, 406, rfl⟩
abbrev main_v165 : Ref sig .tc := ⟨.hbm, 407, rfl⟩
abbrev main_v166 : Ref sig .tc := ⟨.hbm, 408, rfl⟩
abbrev main_v167 : Ref sig .tc := ⟨.hbm, 409, rfl⟩
abbrev main_v168 : Ref sig .tc := ⟨.hbm, 410, rfl⟩
abbrev main_v169 : Ref sig .tc := ⟨.hbm, 411, rfl⟩
abbrev main_v170 : Ref sig .tc := ⟨.hbm, 412, rfl⟩
abbrev main_v171 : Ref sig .tc := ⟨.hbm, 413, rfl⟩
abbrev main_v172 : Ref sig .tc := ⟨.hbm, 414, rfl⟩
abbrev main_v173 : Ref sig .tc := ⟨.hbm, 415, rfl⟩
abbrev main_v174 : Ref sig .tc := ⟨.hbm, 416, rfl⟩
abbrev main_v175 : Ref sig .tc := ⟨.hbm, 417, rfl⟩
abbrev main_v176 : Ref sig .tc := ⟨.hbm, 418, rfl⟩
abbrev main_v177 : Ref sig .tc := ⟨.hbm, 419, rfl⟩
abbrev main_v178 : Ref sig .tc := ⟨.hbm, 420, rfl⟩
abbrev main_cst_42 : Ref sig .tc := ⟨.hbm, 421, rfl⟩
abbrev main_v179 : Ref sig .tc := ⟨.hbm, 422, rfl⟩
abbrev main_v180 : Ref sig .tc := ⟨.hbm, 423, rfl⟩
abbrev main_v181 : Ref sig .tc := ⟨.hbm, 424, rfl⟩
abbrev main_cst_43 : Ref sig .tc := ⟨.hbm, 425, rfl⟩
abbrev main_v182 : Ref sig .tc := ⟨.hbm, 426, rfl⟩
abbrev main_v183 : Ref sig .tc := ⟨.hbm, 427, rfl⟩
abbrev main_cst_44 : Ref sig .tc := ⟨.hbm, 428, rfl⟩
abbrev main_v184 : Ref sig .tc := ⟨.hbm, 429, rfl⟩
abbrev main_v185 : Ref sig .tc := ⟨.hbm, 430, rfl⟩
abbrev main_v186 : Ref sig .tc := ⟨.hbm, 431, rfl⟩
abbrev main_cst_45 : Ref sig .tc := ⟨.hbm, 432, rfl⟩
abbrev main_v187 : Ref sig .tc := ⟨.hbm, 433, rfl⟩
abbrev main_v188 : Ref sig .tc := ⟨.hbm, 434, rfl⟩
abbrev main_v189 : Ref sig .tc := ⟨.hbm, 435, rfl⟩
abbrev main_cst_46 : Ref sig .tc := ⟨.hbm, 436, rfl⟩
abbrev main_v190 : Ref sig .tc := ⟨.hbm, 437, rfl⟩
abbrev main_v191 : Ref sig .tc := ⟨.hbm, 438, rfl⟩
abbrev main_cst_47 : Ref sig .tc := ⟨.hbm, 439, rfl⟩
abbrev main_v192 : Ref sig .tc := ⟨.hbm, 440, rfl⟩
abbrev main_v193 : Ref sig .tc := ⟨.hbm, 441, rfl⟩
abbrev main_v194 : Ref sig .tc := ⟨.hbm, 442, rfl⟩
abbrev main_cst_48 : Ref sig .tc := ⟨.hbm, 443, rfl⟩
abbrev main_v195 : Ref sig .tc := ⟨.hbm, 444, rfl⟩
abbrev main_v196 : Ref sig .tc := ⟨.hbm, 445, rfl⟩
abbrev main_v197 : Ref sig .tc := ⟨.hbm, 446, rfl⟩
abbrev main_cst_49 : Ref sig .tc := ⟨.hbm, 447, rfl⟩
abbrev main_v198 : Ref sig .tc := ⟨.hbm, 448, rfl⟩
abbrev main_v199 : Ref sig .tc := ⟨.hbm, 449, rfl⟩
abbrev main_v200 : Ref sig .tc := ⟨.hbm, 450, rfl⟩
abbrev main_v201 : Ref sig .tc := ⟨.hbm, 451, rfl⟩
abbrev main_v202 : Ref sig .tc := ⟨.hbm, 452, rfl⟩
abbrev main_cst_50 : Ref sig .tc := ⟨.hbm, 453, rfl⟩
abbrev main_v203 : Ref sig .tc := ⟨.hbm, 454, rfl⟩
abbrev main_v204 : Ref sig .tc := ⟨.hbm, 455, rfl⟩
abbrev main_v205 : Ref sig .tc := ⟨.hbm, 456, rfl⟩
abbrev main_cst_51 : Ref sig .tc := ⟨.hbm, 457, rfl⟩
abbrev main_v206 : Ref sig .tc := ⟨.hbm, 458, rfl⟩
abbrev main_v207 : Ref sig .tc := ⟨.hbm, 459, rfl⟩
abbrev main_v208 : Ref sig .tc := ⟨.hbm, 460, rfl⟩
abbrev main_v209 : Ref sig .tc := ⟨.hbm, 461, rfl⟩
abbrev main_cst_52 : Ref sig .tc := ⟨.hbm, 462, rfl⟩
abbrev main_v210 : Ref sig .tc := ⟨.hbm, 463, rfl⟩
abbrev main_v211 : Ref sig .tc := ⟨.hbm, 464, rfl⟩
abbrev main_cst_53 : Ref sig .tc := ⟨.hbm, 465, rfl⟩
abbrev main_v212 : Ref sig .tc := ⟨.hbm, 466, rfl⟩
abbrev main_v213 : Ref sig .tc := ⟨.hbm, 467, rfl⟩
abbrev main_cst_54 : Ref sig .tc := ⟨.hbm, 468, rfl⟩
abbrev main_v214 : Ref sig .tc := ⟨.hbm, 469, rfl⟩
abbrev main_v215 : Ref sig .tc := ⟨.hbm, 470, rfl⟩
abbrev main_cst_55 : Ref sig .tc := ⟨.hbm, 471, rfl⟩
abbrev main_v216 : Ref sig .tc := ⟨.hbm, 472, rfl⟩
abbrev main_v217 : Ref sig .tc := ⟨.hbm, 473, rfl⟩
abbrev main_v218 : Ref sig .tc := ⟨.hbm, 474, rfl⟩
abbrev main_v219 : Ref sig .tc := ⟨.hbm, 475, rfl⟩
abbrev main_v220 : Ref sig .tc := ⟨.hbm, 476, rfl⟩
abbrev main_v221 : Ref sig .tc := ⟨.hbm, 477, rfl⟩
abbrev main_v222 : Ref sig .tc := ⟨.hbm, 478, rfl⟩
abbrev main_v223 : Ref sig .tc := ⟨.hbm, 479, rfl⟩
abbrev main_v224 : Ref sig .tc := ⟨.hbm, 480, rfl⟩
abbrev main_v225 : Ref sig .tc := ⟨.hbm, 481, rfl⟩
abbrev main_cst_56 : Ref sig .tc := ⟨.hbm, 482, rfl⟩
abbrev main_v226 : Ref sig .tc := ⟨.hbm, 483, rfl⟩
abbrev main_v227 : Ref sig .tc := ⟨.hbm, 484, rfl⟩
abbrev main_v228 : Ref sig .tc := ⟨.hbm, 485, rfl⟩
abbrev main_cst_57 : Ref sig .tc := ⟨.hbm, 486, rfl⟩
abbrev main_v229 : Ref sig .tc := ⟨.hbm, 487, rfl⟩
abbrev main_v230 : Ref sig .tc := ⟨.hbm, 488, rfl⟩
abbrev main_v231 : Ref sig .tc := ⟨.hbm, 489, rfl⟩
abbrev main_cst_58 : Ref sig .tc := ⟨.hbm, 490, rfl⟩
abbrev main_v232 : Ref sig .tc := ⟨.hbm, 491, rfl⟩
abbrev main_v233 : Ref sig .tc := ⟨.hbm, 492, rfl⟩
abbrev main_v234 : Ref sig .tc := ⟨.hbm, 493, rfl⟩
abbrev main_cst_59 : Ref sig .tc := ⟨.hbm, 494, rfl⟩
abbrev main_v235 : Ref sig .tc := ⟨.hbm, 495, rfl⟩
abbrev main_v236 : Ref sig .tc := ⟨.hbm, 496, rfl⟩
abbrev main_v237 : Ref sig .tc := ⟨.hbm, 497, rfl⟩
abbrev main_v238 : Ref sig .tc := ⟨.hbm, 498, rfl⟩
abbrev main_cst_60 : Ref sig .tc := ⟨.hbm, 499, rfl⟩
abbrev main_v239 : Ref sig .tc := ⟨.hbm, 500, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S16x512x1024x2_S16x2x512x1024_0_3_1_2 : S16x512x1024x2.Transposes [0, 3, 1, 2] S16x2x512x1024
  slices_S16x512x1024x2_S16x512x1024x1_0_0_0_0 : S16x512x1024x2.Slices ![0, 0, 0, 0] S16x512x1024x1
  shapeCasts_S16x512x1024x1_S16x512x1024 : S16x512x1024x1.ShapeCasts S16x512x1024
  bcast_S_S16x512x1024 : S_.BroadcastsInDim S16x512x1024 (![] : Fin 0 → Fin S16x512x1024.rank)
  slices_S16x512x1024x2_S16x512x1024x1_0_0_0_1 : S16x512x1024x2.Slices ![0, 0, 0, 1] S16x512x1024x1
  shapeCasts_S16x2x512x1024_S16x2x524288 : S16x2x512x1024.ShapeCasts S16x2x524288
  shapeCasts_S16x512x1024_S16x1x524288 : S16x512x1024.ShapeCasts S16x1x524288
  bcast_S_S16x1x524288 : S_.BroadcastsInDim S16x1x524288 (![] : Fin 0 → Fin S16x1x524288.rank)
  shapeCasts_S16x1x524288_S16x524288x1 : S16x1x524288.ShapeCasts S16x524288x1
  bcast_S_S16x524288x1 : S_.BroadcastsInDim S16x524288x1 (![] : Fin 0 → Fin S16x524288x1.rank)
  bcast_S1_S1x1x1_2 : S1.BroadcastsInDim S1x1x1 (![2] : Fin 1 → Fin S1x1x1.rank)
  bcast_S1x1x1_S16x524288x1_0_1_2 : S1x1x1.BroadcastsInDim S16x524288x1 (![0, 1, 2] : Fin 3 → Fin S16x524288x1.rank)
  reducesTo_S16x524288x1_S16x524288_d2 : S16x524288x1.ReducesTo [2] S16x524288
  h_S_ : 0 < S_.numel
  bcast_S16x524288_S16x2x524288_0_2 : S16x524288.BroadcastsInDim S16x2x524288 (![0, 2] : Fin 2 → Fin S16x2x524288.rank)
  bcast_S_S16x2x524288 : S_.BroadcastsInDim S16x2x524288 (![] : Fin 0 → Fin S16x2x524288.rank)
  shapeCasts_S16x2x524288_S16x2x512x1024 : S16x2x524288.ShapeCasts S16x2x512x1024
  bcast_S16x512x1024_S16x1x512x1024_0_2_3 : S16x512x1024.BroadcastsInDim S16x1x512x1024 (![0, 2, 3] : Fin 3 → Fin S16x1x512x1024.rank)
  bcast_S_S16x1x512x1024 : S_.BroadcastsInDim S16x1x512x1024 (![] : Fin 0 → Fin S16x1x512x1024.rank)
  bcast_S16x1x512x1024_S16x2x512x1024_0_1_2_3 : S16x1x512x1024.BroadcastsInDim S16x2x512x1024 (![0, 1, 2, 3] : Fin 4 → Fin S16x2x512x1024.rank)
  reducesTo_S16x2x512x1024_S16x512x1024_d1 : S16x2x512x1024.ReducesTo [1] S16x512x1024
  shapeCasts_S16x1x512x1024_S16x512x1024 : S16x1x512x1024.ShapeCasts S16x512x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  reduces_S512x1024_S512 : S512x1024.Reduces [1] S512
  shapeCasts_S512_S512x1 : S512.ShapeCasts S512x1
  reduces_S512x1_S1 : S512x1.Reduces [0] S1
  shapeCasts_S1_S1x1 : S1.ShapeCasts S1x1
  concatenates_S1x1_S1x1_S1x1_S1x1_S1x4_d1 : Shape.Concatenates [S1x1, S1x1, S1x1, S1x1] S1x4 1
  inb_S1x1x4_S1x1x4_0_0_0 : ∀ a, (![0, 0, 0] : Fin 3 → Nat) a + S1x1x4.size a ≤ S1x1x4.size a
  h_S1x1x4 : 0 < S1x1x4.numel
  shapeCasts_S1x1x4_S1x4 : S1x1x4.ShapeCasts S1x4
  shapeCasts_S1x4_S1x1x4 : S1x4.ShapeCasts S1x1x4
  shapeCasts_S16x1x4_S16x4 : S16x1x4.ShapeCasts S16x4
  slices_S16x4_S16x1_0_0 : S16x4.Slices ![0, 0] S16x1
  shapeCasts_S16x1_S16 : S16x1.ShapeCasts S16
  reducesTo_S16_S_d0 : S16.ReducesTo [0] S_
  slices_S16x4_S16x1_0_1 : S16x4.Slices ![0, 1] S16x1
  slices_S16x4_S16x1_0_2 : S16x4.Slices ![0, 2] S16x1
  slices_S16x4_S16x1_0_3 : S16x4.Slices ![0, 3] S16x1
  gather_S16x2x524288_S16x524288x1_S16x2x524288_1_2_0_0_2_2_121_wf : GatherDims.WF S16x2x524288 S16x524288x1 S16x2x524288 [1] [2] [0] [2] [0] 2 ![1, 2, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S16x512x1024.size a
  hwx0_0 : ∀ i : grid0.Coords, EltTy.bits .f32 = 32 ∨ (Rect.block (s := S16x512x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S16x512x1024.size a
  hwx0_1 : ∀ i : grid0.Coords, EltTy.bits .f32 = 32 ∨ (Rect.block (s := S16x512x1024) S1x512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1024.size a ≤ S16x512x1024.size a
  hwx0_2 : ∀ i : grid0.Coords, EltTy.bits .f32 = 32 ∨ (Rect.block (s := S16x512x1024) S1x512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1024.size a ≤ S16x512x1024.size a
  hwx0_3 : ∀ i : grid0.Coords, EltTy.bits .f32 = 32 ∨ (Rect.block (s := S16x512x1024) S1x512x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x4.size a ≤ S16x1x4.size a
  hwx0_4 : ∀ i : grid0.Coords, EltTy.bits .f32 = 32 ∨ (Rect.block (s := S16x1x4) S1x1x4.size (cc0_transform_4 i) (hinb0_4 i)).WholeWords (EltTy.packing .f32)

variable [Facts₀]

def gather_S16x2x524288_S16x524288x1_S16x2x524288_1_2_0_0_2_2_121 : GatherDims S16x2x524288 S16x524288x1 S16x2x524288 where
  offsetDims := [1]
  collapsedSliceDims := [2]
  operandBatchingDims := [0]
  startIndicesBatchingDims := [0]
  startIndexMap := [2]
  indexVectorDim := 2
  sliceSizes := ![1, 2, 1]
  wf := gather_S16x2x524288_S16x524288x1_S16x2x524288_1_2_0_0_2_2_121_wf

abbrev win0_0 : Pipeline.Window sig grid0 :=
  Pipeline.Window.ofSpec (Memref.whole main_v218) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v220) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v219) S1x512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v221) S1x512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v222) S1x1x4.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x512x1024x2 : Shape := ⟨4, ![16, 512, 1024, 2]⟩
abbrev S16x2x512x1024 : Shape := ⟨4, ![16, 2, 512, 1024]⟩
abbrev S16x512x1024x1 : Shape := ⟨4, ![16, 512, 1024, 1]⟩
abbrev S16x512x1024 : Shape := ⟨3, ![16, 512, 1024]⟩
abbrev S_ : Shape := ⟨0, ![]⟩
abbrev S16x2x524288 : Shape := ⟨3, ![16, 2, 524288]⟩
abbrev S16x1x524288 : Shape := ⟨3, ![16, 1, 524288]⟩
abbrev S16x524288x1 : Shape := ⟨3, ![16, 524288, 1]⟩
abbrev S1 : Shape := ⟨1, ![1]⟩
abbrev S1x1x1 : Shape := ⟨3, ![1, 1, 1]⟩
abbrev S16x524288 : Shape := ⟨2, ![16, 524288]⟩
abbrev S16x1x512x1024 : Shape := ⟨4, ![16, 1, 512, 1024]⟩

abbrev nBuf : Space → Nat
  | .hbm => 489
  | .vmem => 0
  | .smem => 0
  | _ => 0

abbrev hbmTy0_0 (i : Nat) : BufTy := match i % 128 with
  | 0 => ⟨S16x512x1024x2, .f32⟩
  | 1 => ⟨S16x512x1024x2, .f32⟩
  | 2 => ⟨S16x2x512x1024, .f32⟩
  | 3 => ⟨S16x2x512x1024, .f32⟩
  | 4 => ⟨S16x512x1024x1, .f32⟩
  | 5 => ⟨S16x512x1024, .f32⟩
  | 6 => ⟨S_, .f32⟩
  | 7 => ⟨S16x512x1024, .f32⟩
  | 8 => ⟨S16x512x1024, .f32⟩
  | 9 => ⟨S_, .f32⟩
  | 10 => ⟨S16x512x1024, .f32⟩
  | 11 => ⟨S16x512x1024, .f32⟩
  | 12 => ⟨S_, .f32⟩
  | 13 => ⟨S16x512x1024, .f32⟩
  | 14 => ⟨S16x512x1024, .f32⟩
  | 15 => ⟨S_, .f32⟩
  | 16 => ⟨S_, .i32⟩
  | 17 => ⟨S_, .f32⟩
  | 18 => ⟨S16x512x1024, .f32⟩
  | 19 => ⟨S16x512x1024, .f32⟩
  | 20 => ⟨S_, .f32⟩
  | 21 => ⟨S16x512x1024, .f32⟩
  | 22 => ⟨S16x512x1024, .f32⟩
  | 23 => ⟨S16x512x1024x1, .f32⟩
  | 24 => ⟨S16x512x1024, .f32⟩
  | 25 => ⟨S_, .f32⟩
  | 26 => ⟨S16x512x1024, .f32⟩
  | 27 => ⟨S16x512x1024, .f32⟩
  | 28 => ⟨S_, .f32⟩
  | 29 => ⟨S16x512x1024, .f32⟩
  | 30 => ⟨S16x512x1024, .f32⟩
  | 31 => ⟨S_, .f32⟩
  | 32 => ⟨S16x512x1024, .f32⟩
  | 33 => ⟨S16x512x1024, .f32⟩
  | 34 => ⟨S_, .f32⟩
  | 35 => ⟨S_, .i32⟩
  | 36 => ⟨S_, .f32⟩
  | 37 => ⟨S16x512x1024, .f32⟩
  | 38 => ⟨S16x512x1024, .f32⟩
  | 39 => ⟨S_, .f32⟩
  | 40 => ⟨S16x512x1024, .f32⟩
  | 41 => ⟨S16x512x1024, .f32⟩
  | 42 => ⟨S16x512x1024, .f32⟩
  | 43 => ⟨S16x512x1024, .f32⟩
  | 44 => ⟨S16x512x1024, .f32⟩
  | 45 => ⟨S16x512x1024, .f32⟩
  | 46 => ⟨S16x512x1024, .i32⟩
  | 47 => ⟨S16x512x1024, .i32⟩
  | 48 => ⟨S_, .i32⟩
  | 49 => ⟨S16x512x1024, .i32⟩
  | 50 => ⟨S16x512x1024, .i32⟩
  | 51 => ⟨S_, .i32⟩
  | 52 => ⟨S16x512x1024, .i32⟩
  | 53 => ⟨S16x512x1024, .i32⟩
  | 54 => ⟨S_, .i32⟩
  | 55 => ⟨S16x512x1024, .i32⟩
  | 56 => ⟨S16x512x1024, .i32⟩
  | 57 => ⟨S_, .i32⟩
  | 58 => ⟨S16x512x1024, .i32⟩
  | 59 => ⟨S16x512x1024, .i32⟩
  | 60 => ⟨S16x2x524288, .f32⟩
  | 61 => ⟨S_, .i32⟩
  | 62 => ⟨S16x512x1024, .i32⟩
  | 63 => ⟨S16x512x1024, .i32⟩
  | 64 => ⟨S16x512x1024, .i32⟩
  | 65 => ⟨S16x1x524288, .i32⟩
  | 66 => ⟨S_, .i32⟩
  | 67 => ⟨S16x1x524288, .i32⟩
  | 68 => ⟨S16x1x524288, .i1⟩
  | 69 => ⟨S_, .i32⟩
  | 70 => ⟨S16x1x524288, .i32⟩
  | 71 => ⟨S16x1x524288, .i32⟩
  | 72 => ⟨S16x1x524288, .i32⟩
  | 73 => ⟨S16x524288x1, .i32⟩
  | 74 => ⟨S1, .i32⟩
  | 75 => ⟨S_, .i32⟩
  | 76 => ⟨S16x524288x1, .i32⟩
  | 77 => ⟨S16x524288x1, .i1⟩
  | 78 => ⟨S1x1x1, .i32⟩
  | 79 => ⟨S16x524288x1, .i32⟩
  | 80 => ⟨S16x524288x1, .i1⟩
  | 81 => ⟨S16x524288x1, .i1⟩
  | 82 => ⟨S_, .i1⟩
  | 83 => ⟨S16x524288, .i1⟩
  | 84 => ⟨S16x2x524288, .f32⟩
  | 85 => ⟨S16x2x524288, .i1⟩
  | 86 => ⟨S_, .f32⟩
  | 87 => ⟨S16x2x524288, .f32⟩
  | 88 => ⟨S16x2x524288, .f32⟩
  | 89 => ⟨S16x2x512x1024, .f32⟩
  | 90 => ⟨S_, .i32⟩
  | 91 => ⟨S16x512x1024, .i32⟩
  | 92 => ⟨S16x512x1024, .i32⟩
  | 93 => ⟨S16x512x1024, .i32⟩
  | 94 => ⟨S16x1x524288, .i32⟩
  | 95 => ⟨S_, .i32⟩
  | 96 => ⟨S16x1x524288, .i32⟩
  | 97 => ⟨S16x1x524288, .i1⟩
  | 98 => ⟨S_, .i32⟩
  | 99 => ⟨S16x1x524288, .i32⟩
  | 100 => ⟨S16x1x524288, .i32⟩
  | 101 => ⟨S16x1x524288, .i32⟩
  | 102 => ⟨S16x524288x1, .i32⟩
  | 103 => ⟨S1, .i32⟩
  | 104 => ⟨S_, .i32⟩
  | 105 => ⟨S16x524288x1, .i32⟩
  | 106 => ⟨S16x524288x1, .i1⟩
  | 107 => ⟨S1x1x1, .i32⟩
  | 108 => ⟨S16x524288x1, .i32⟩
  | 109 => ⟨S16x524288x1, .i1⟩
  | 110 => ⟨S16x524288x1, .i1⟩
  | 111 => ⟨S_, .i1⟩
  | 112 => ⟨S16x524288, .i1⟩
  | 113 => ⟨S16x2x524288, .f32⟩
  | 114 => ⟨S16x2x524288, .i1⟩
  | 115 => ⟨S_, .f32⟩
  | 116 => ⟨S16x2x524288, .f32⟩
  | 117 => ⟨S16x2x524288, .f32⟩
  | 118 => ⟨S16x2x512x1024, .f32⟩
  | 119 => ⟨S_, .i32⟩
  | 120 => ⟨S16x512x1024, .i32⟩
  | 121 => ⟨S16x512x1024, .i32⟩
  | 122 => ⟨S16x512x1024, .i32⟩
  | 123 => ⟨S16x1x524288, .i32⟩
  | 124 => ⟨S_, .i32⟩
  | 125 => ⟨S16x1x524288, .i32⟩
  | 126 => ⟨S16x1x524288, .i1⟩
  | 127 => ⟨S_, .i32⟩
  | _ => ⟨S16x512x1024x2, .f32⟩

abbrev hbmTy0_1 (i : Nat) : BufTy := match i % 128 with
  | 0 => ⟨S16x1x524288, .i32⟩
  | 1 => ⟨S16x1x524288, .i32⟩
  | 2 => ⟨S16x1x524288, .i32⟩
  | 3 => ⟨S16x524288x1, .i32⟩
  | 4 => ⟨S1, .i32⟩
  | 5 => ⟨S_, .i32⟩
  | 6 => ⟨S16x524288x1, .i32⟩
  | 7 => ⟨S16x524288x1, .i1⟩
  | 8 => ⟨S1x1x1, .i32⟩
  | 9 => ⟨S16x524288x1, .i32⟩
  | 10 => ⟨S16x524288x1, .i1⟩
  | 11 => ⟨S16x524288x1, .i1⟩
  | 12 => ⟨S_, .i1⟩
  | 13 => ⟨S16x524288, .i1⟩
  | 14 => ⟨S16x2x524288, .f32⟩
  | 15 => ⟨S16x2x524288, .i1⟩
  | 16 => ⟨S_, .f32⟩
  | 17 => ⟨S16x2x524288, .f32⟩
  | 18 => ⟨S16x2x524288, .f32⟩
  | 19 => ⟨S16x2x512x1024, .f32⟩
  | 20 => ⟨S_, .i32⟩
  | 21 => ⟨S16x512x1024, .i32⟩
  | 22 => ⟨S16x512x1024, .i32⟩
  | 23 => ⟨S16x512x1024, .i32⟩
  | 24 => ⟨S16x1x524288, .i32⟩
  | 25 => ⟨S_, .i32⟩
  | 26 => ⟨S16x1x524288, .i32⟩
  | 27 => ⟨S16x1x524288, .i1⟩
  | 28 => ⟨S_, .i32⟩
  | 29 => ⟨S16x1x524288, .i32⟩
  | 30 => ⟨S16x1x524288, .i32⟩
  | 31 => ⟨S16x1x524288, .i32⟩
  | 32 => ⟨S16x524288x1, .i32⟩
  | 33 => ⟨S1, .i32⟩
  | 34 => ⟨S_, .i32⟩
  | 35 => ⟨S16x524288x1, .i32⟩
  | 36 => ⟨S16x524288x1, .i1⟩
  | 37 => ⟨S1x1x1, .i32⟩
  | 38 => ⟨S16x524288x1, .i32⟩
  | 39 => ⟨S16x524288x1, .i1⟩
  | 40 => ⟨S16x524288x1, .i1⟩
  | 41 => ⟨S_, .i1⟩
  | 42 => ⟨S16x524288, .i1⟩
  | 43 => ⟨S16x2x524288, .f32⟩
  | 44 => ⟨S16x2x524288, .i1⟩
  | 45 => ⟨S_, .f32⟩
  | 46 => ⟨S16x2x524288, .f32⟩
  | 47 => ⟨S16x2x524288, .f32⟩
  | 48 => ⟨S16x2x512x1024, .f32⟩
  | 49 => ⟨S16x1x512x1024, .f32⟩
  | 50 => ⟨S16x1x512x1024, .f32⟩
  | 51 => ⟨S_, .f32⟩
  | 52 => ⟨S16x1x512x1024, .f32⟩
  | 53 => ⟨S16x1x512x1024, .f32⟩
  | 54 => ⟨S16x2x512x1024, .f32⟩
  | 55 => ⟨S16x2x512x1024, .f32⟩
  | 56 => ⟨S_, .f32⟩
  | 57 => ⟨S16x1x512x1024, .f32⟩
  | 58 => ⟨S16x1x512x1024, .f32⟩
  | 59 => ⟨S16x2x512x1024, .f32⟩
  | 60 => ⟨S16x2x512x1024, .f32⟩
  | 61 => ⟨S16x2x512x1024, .f32⟩
  | 62 => ⟨S16x2x512x1024, .f32⟩
  | 63 => ⟨S_, .f32⟩
  | 64 => ⟨S16x1x512x1024, .f32⟩
  | 65 => ⟨S16x1x512x1024, .f32⟩
  | 66 => ⟨S16x2x512x1024, .f32⟩
  | 67 => ⟨S16x2x512x1024, .f32⟩
  | 68 => ⟨S16x2x512x1024, .f32⟩
  | 69 => ⟨S_, .f32⟩
  | 70 => ⟨S16x1x512x1024, .f32⟩
  | 71 => ⟨S16x1x512x1024, .f32⟩
  | 72 => ⟨S16x2x512x1024, .f32⟩
  | 73 => ⟨S16x2x512x1024, .f32⟩
  | 74 => ⟨S16x2x512x1024, .f32⟩
  | 75 => ⟨S16x2x512x1024, .f32⟩
  | 76 => ⟨S16x2x512x1024, .f32⟩
  | 77 => ⟨S16x2x512x1024, .f32⟩
  | 78 => ⟨S16x2x512x1024, .f32⟩
  | 79 => ⟨S16x2x512x1024, .f32⟩
  | 80 => ⟨S16x2x512x1024, .f32⟩
  | 81 => ⟨S16x2x512x1024, .f32⟩
  | 82 => ⟨S16x512x1024x1, .f32⟩
  | 83 => ⟨S16x512x1024, .f32⟩
  | 84 => ⟨S_, .f32⟩
  | 85 => ⟨S16x512x1024, .f32⟩
  | 86 => ⟨S16x512x1024, .f32⟩
  | 87 => ⟨S_, .f32⟩
  | 88 => ⟨S16x512x1024, .f32⟩
  | 89 => ⟨S16x512x1024, .f32⟩
  | 90 => ⟨S_, .f32⟩
  | 91 => ⟨S16x512x1024, .f32⟩
  | 92 => ⟨S16x512x1024, .f32⟩
  | 93 => ⟨S_, .f32⟩
  | 94 => ⟨S_, .i32⟩
  | 95 => ⟨S_, .f32⟩
  | 96 => ⟨S16x512x1024, .f32⟩
  | 97 => ⟨S16x512x1024, .f32⟩
  | 98 => ⟨S_, .f32⟩
  | 99 => ⟨S16x512x1024, .f32⟩
  | 100 => ⟨S16x512x1024, .f32⟩
  | 101 => ⟨S16x512x1024x1, .f32⟩
  | 102 => ⟨S16x512x1024, .f32⟩
  | 103 => ⟨S_, .f32⟩
  | 104 => ⟨S16x512x1024, .f32⟩
  | 105 => ⟨S16x512x1024, .f32⟩
  | 106 => ⟨S_, .f32⟩
  | 107 => ⟨S16x512x1024, .f32⟩
  | 108 => ⟨S16x512x1024, .f32⟩
  | 109 => ⟨S_, .f32⟩
  | 110 => ⟨S16x512x1024, .f32⟩
  | 111 => ⟨S16x512x1024, .f32⟩
  | 112 => ⟨S_, .f32⟩
  | 113 => ⟨S_, .i32⟩
  | 114 => ⟨S_, .f32⟩
  | 115 => ⟨S16x512x1024, .f32⟩
  | 116 => ⟨S16x512x1024, .f32⟩
  | 117 => ⟨S_, .f32⟩
  | 118 => ⟨S16x512x1024, .f32⟩
  | 119 => ⟨S16x512x1024, .f32⟩
  | 120 => ⟨S16x512x1024, .f32⟩
  | 121 => ⟨S16x512x1024, .f32⟩
  | 122 => ⟨S16x512x1024, .f32⟩
  | 123 => ⟨S16x512x1024, .f32⟩
  | 124 => ⟨S16x512x1024, .i32⟩
  | 125 => ⟨S16x512x1024, .i32⟩
  | 126 => ⟨S_, .i32⟩
  | 127 => ⟨S16x512x1024, .i32⟩
  | _ => ⟨S16x512x1024x2, .f32⟩

abbrev hbmTy0_2 (i : Nat) : BufTy := match i % 128 with
  | 0 => ⟨S16x512x1024, .i32⟩
  | 1 => ⟨S_, .i32⟩
  | 2 => ⟨S16x512x1024, .i32⟩
  | 3 => ⟨S16x512x1024, .i32⟩
  | 4 => ⟨S_, .i32⟩
  | 5 => ⟨S16x512x1024, .i32⟩
  | 6 => ⟨S16x512x1024, .i32⟩
  | 7 => ⟨S_, .i32⟩
  | 8 => ⟨S16x512x1024, .i32⟩
  | 9 => ⟨S16x512x1024, .i32⟩
  | 10 => ⟨S16x2x524288, .f32⟩
  | 11 => ⟨S_, .i32⟩
  | 12 => ⟨S16x512x1024, .i32⟩
  | 13 => ⟨S16x512x1024, .i32⟩
  | 14 => ⟨S16x512x1024, .i32⟩
  | 15 => ⟨S16x1x524288, .i32⟩
  | 16 => ⟨S_, .i32⟩
  | 17 => ⟨S16x1x524288, .i32⟩
  | 18 => ⟨S16x1x524288, .i1⟩
  | 19 => ⟨S_, .i32⟩
  | 20 => ⟨S16x1x524288, .i32⟩
  | 21 => ⟨S16x1x524288, .i32⟩
  | 22 => ⟨S16x1x524288, .i32⟩
  | 23 => ⟨S16x524288x1, .i32⟩
  | 24 => ⟨S1, .i32⟩
  | 25 => ⟨S_, .i32⟩
  | 26 => ⟨S16x524288x1, .i32⟩
  | 27 => ⟨S16x524288x1, .i1⟩
  | 28 => ⟨S1x1x1, .i32⟩
  | 29 => ⟨S16x524288x1, .i32⟩
  | 30 => ⟨S16x524288x1, .i1⟩
  | 31 => ⟨S16x524288x1, .i1⟩
  | 32 => ⟨S_, .i1⟩
  | 33 => ⟨S16x524288, .i1⟩
  | 34 => ⟨S16x2x524288, .f32⟩
  | 35 => ⟨S16x2x524288, .i1⟩
  | 36 => ⟨S_, .f32⟩
  | 37 => ⟨S16x2x524288, .f32⟩
  | 38 => ⟨S16x2x524288, .f32⟩
  | 39 => ⟨S16x2x512x1024, .f32⟩
  | 40 => ⟨S_, .i32⟩
  | 41 => ⟨S16x512x1024, .i32⟩
  | 42 => ⟨S16x512x1024, .i32⟩
  | 43 => ⟨S16x512x1024, .i32⟩
  | 44 => ⟨S16x1x524288, .i32⟩
  | 45 => ⟨S_, .i32⟩
  | 46 => ⟨S16x1x524288, .i32⟩
  | 47 => ⟨S16x1x524288, .i1⟩
  | 48 => ⟨S_, .i32⟩
  | 49 => ⟨S16x1x524288, .i32⟩
  | 50 => ⟨S16x1x524288, .i32⟩
  | 51 => ⟨S16x1x524288, .i32⟩
  | 52 => ⟨S16x524288x1, .i32⟩
  | 53 => ⟨S1, .i32⟩
  | 54 => ⟨S_, .i32⟩
  | 55 => ⟨S16x524288x1, .i32⟩
  | 56 => ⟨S16x524288x1, .i1⟩
  | 57 => ⟨S1x1x1, .i32⟩
  | 58 => ⟨S16x524288x1, .i32⟩
  | 59 => ⟨S16x524288x1, .i1⟩
  | 60 => ⟨S16x524288x1, .i1⟩
  | 61 => ⟨S_, .i1⟩
  | 62 => ⟨S16x524288, .i1⟩
  | 63 => ⟨S16x2x524288, .f32⟩
  | 64 => ⟨S16x2x524288, .i1⟩
  | 65 => ⟨S_, .f32⟩
  | 66 => ⟨S16x2x524288, .f32⟩
  | 67 => ⟨S16x2x524288, .f32⟩
  | 68 => ⟨S16x2x512x1024, .f32⟩
  | 69 => ⟨S_, .i32⟩
  | 70 => ⟨S16x512x1024, .i32⟩
  | 71 => ⟨S16x512x1024, .i32⟩
  | 72 => ⟨S16x512x1024, .i32⟩
  | 73 => ⟨S16x1x524288, .i32⟩
  | 74 => ⟨S_, .i32⟩
  | 75 => ⟨S16x1x524288, .i32⟩
  | 76 => ⟨S16x1x524288, .i1⟩
  | 77 => ⟨S_, .i32⟩
  | 78 => ⟨S16x1x524288, .i32⟩
  | 79 => ⟨S16x1x524288, .i32⟩
  | 80 => ⟨S16x1x524288, .i32⟩
  | 81 => ⟨S16x524288x1, .i32⟩
  | 82 => ⟨S1, .i32⟩
  | 83 => ⟨S_, .i32⟩
  | 84 => ⟨S16x524288x1, .i32⟩
  | 85 => ⟨S16x524288x1, .i1⟩
  | 86 => ⟨S1x1x1, .i32⟩
  | 87 => ⟨S16x524288x1, .i32⟩
  | 88 => ⟨S16x524288x1, .i1⟩
  | 89 => ⟨S16x524288x1, .i1⟩
  | 90 => ⟨S_, .i1⟩
  | 91 => ⟨S16x524288, .i1⟩
  | 92 => ⟨S16x2x524288, .f32⟩
  | 93 => ⟨S16x2x524288, .i1⟩
  | 94 => ⟨S_, .f32⟩
  | 95 => ⟨S16x2x524288, .f32⟩
  | 96 => ⟨S16x2x524288, .f32⟩
  | 97 => ⟨S16x2x512x1024, .f32⟩
  | 98 => ⟨S_, .i32⟩
  | 99 => ⟨S16x512x1024, .i32⟩
  | 100 => ⟨S16x512x1024, .i32⟩
  | 101 => ⟨S16x512x1024, .i32⟩
  | 102 => ⟨S16x1x524288, .i32⟩
  | 103 => ⟨S_, .i32⟩
  | 104 => ⟨S16x1x524288, .i32⟩
  | 105 => ⟨S16x1x524288, .i1⟩
  | 106 => ⟨S_, .i32⟩
  | 107 => ⟨S16x1x524288, .i32⟩
  | 108 => ⟨S16x1x524288, .i32⟩
  | 109 => ⟨S16x1x524288, .i32⟩
  | 110 => ⟨S16x524288x1, .i32⟩
  | 111 => ⟨S1, .i32⟩
  | 112 => ⟨S_, .i32⟩
  | 113 => ⟨S16x524288x1, .i32⟩
  | 114 => ⟨S16x524288x1, .i1⟩
  | 115 => ⟨S1x1x1, .i32⟩
  | 116 => ⟨S16x524288x1, .i32⟩
  | 117 => ⟨S16x524288x1, .i1⟩
  | 118 => ⟨S16x524288x1, .i1⟩
  | 119 => ⟨S_, .i1⟩
  | 120 => ⟨S16x524288, .i1⟩
  | 121 => ⟨S16x2x524288, .f32⟩
  | 122 => ⟨S16x2x524288, .i1⟩
  | 123 => ⟨S_, .f32⟩
  | 124 => ⟨S16x2x524288, .f32⟩
  | 125 => ⟨S16x2x524288, .f32⟩
  | 126 => ⟨S16x2x512x1024, .f32⟩
  | 127 => ⟨S16x1x512x1024, .f32⟩
  | _ => ⟨S16x512x1024x2, .f32⟩

abbrev hbmTy0_3 (i : Nat) : BufTy := match i % 128 with
  | 0 => ⟨S16x1x512x1024, .f32⟩
  | 1 => ⟨S_, .f32⟩
  | 2 => ⟨S16x1x512x1024, .f32⟩
  | 3 => ⟨S16x1x512x1024, .f32⟩
  | 4 => ⟨S16x2x512x1024, .f32⟩
  | 5 => ⟨S16x2x512x1024, .f32⟩
  | 6 => ⟨S_, .f32⟩
  | 7 => ⟨S16x1x512x1024, .f32⟩
  | 8 => ⟨S16x1x512x1024, .f32⟩
  | 9 => ⟨S16x2x512x1024, .f32⟩
  | 10 => ⟨S16x2x512x1024, .f32⟩
  | 11 => ⟨S16x2x512x1024, .f32⟩
  | 12 => ⟨S16x2x512x1024, .f32⟩
  | 13 => ⟨S_, .f32⟩
  | 14 => ⟨S16x1x512x1024, .f32⟩
  | 15 => ⟨S16x1x512x1024, .f32⟩
  | 16 => ⟨S16x2x512x1024, .f32⟩
  | 17 => ⟨S16x2x512x1024, .f32⟩
  | 18 => ⟨S16x2x512x1024, .f32⟩
  | 19 => ⟨S_, .f32⟩
  | 20 => ⟨S16x1x512x1024, .f32⟩
  | 21 => ⟨S16x1x512x1024, .f32⟩
  | 22 => ⟨S16x2x512x1024, .f32⟩
  | 23 => ⟨S16x2x512x1024, .f32⟩
  | 24 => ⟨S16x2x512x1024, .f32⟩
  | 25 => ⟨S16x2x512x1024, .f32⟩
  | 26 => ⟨S16x2x512x1024, .f32⟩
  | 27 => ⟨S16x2x512x1024, .f32⟩
  | 28 => ⟨S16x2x512x1024, .f32⟩
  | 29 => ⟨S16x2x512x1024, .f32⟩
  | 30 => ⟨S16x2x512x1024, .f32⟩
  | 31 => ⟨S16x2x512x1024, .f32⟩
  | 32 => ⟨S16x2x512x1024, .f32⟩
  | 33 => ⟨S16x2x512x1024, .f32⟩
  | 34 => ⟨S16x2x512x1024, .f32⟩
  | 35 => ⟨S16x2x512x1024, .f32⟩
  | 36 => ⟨S16x2x512x1024, .f32⟩
  | 37 => ⟨S_, .f32⟩
  | 38 => ⟨S16x512x1024, .f32⟩
  | 39 => ⟨S16x1x512x1024, .f32⟩
  | 40 => ⟨S16x1x512x1024, .f32⟩
  | 41 => ⟨S_, .f32⟩
  | 42 => ⟨S16x1x512x1024, .f32⟩
  | 43 => ⟨S16x1x512x1024, .f32⟩
  | 44 => ⟨S_, .f32⟩
  | 45 => ⟨S16x1x512x1024, .f32⟩
  | 46 => ⟨S16x1x512x1024, .f32⟩
  | 47 => ⟨S16x2x512x1024, .f32⟩
  | 48 => ⟨S_, .f32⟩
  | 49 => ⟨S16x512x1024, .f32⟩
  | 50 => ⟨S16x1x512x1024, .f32⟩
  | 51 => ⟨S16x1x512x1024, .f32⟩
  | 52 => ⟨S_, .f32⟩
  | 53 => ⟨S16x1x512x1024, .f32⟩
  | 54 => ⟨S16x1x512x1024, .f32⟩
  | 55 => ⟨S_, .f32⟩
  | 56 => ⟨S16x1x512x1024, .f32⟩
  | 57 => ⟨S16x1x512x1024, .f32⟩
  | 58 => ⟨S16x2x512x1024, .f32⟩
  | 59 => ⟨S_, .f32⟩
  | 60 => ⟨S16x512x1024, .f32⟩
  | 61 => ⟨S16x1x512x1024, .f32⟩
  | 62 => ⟨S16x1x512x1024, .f32⟩
  | 63 => ⟨S_, .f32⟩
  | 64 => ⟨S16x1x512x1024, .f32⟩
  | 65 => ⟨S16x1x512x1024, .f32⟩
  | 66 => ⟨S16x1x512x1024, .i1⟩
  | 67 => ⟨S16x1x512x1024, .f32⟩
  | 68 => ⟨S16x2x512x1024, .f32⟩
  | 69 => ⟨S_, .f32⟩
  | 70 => ⟨S16x512x1024, .f32⟩
  | 71 => ⟨S16x1x512x1024, .f32⟩
  | 72 => ⟨S16x1x512x1024, .f32⟩
  | 73 => ⟨S_, .f32⟩
  | 74 => ⟨S16x1x512x1024, .f32⟩
  | 75 => ⟨S16x1x512x1024, .f32⟩
  | 76 => ⟨S16x1x512x1024, .i1⟩
  | 77 => ⟨S16x1x512x1024, .f32⟩
  | 78 => ⟨S_, .f32⟩
  | 79 => ⟨S16x512x1024, .f32⟩
  | 80 => ⟨S16x1x512x1024, .f32⟩
  | 81 => ⟨S_, .f32⟩
  | 82 => ⟨S16x1x512x1024, .f32⟩
  | 83 => ⟨S16x1x512x1024, .f32⟩
  | 84 => ⟨S16x1x512x1024, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S16x512x1024, .f32⟩
  | 92 => ⟨S16x1x512x1024, .f32⟩
  | 93 => ⟨S_, .f32⟩
  | 94 => ⟨S16x1x512x1024, .f32⟩
  | 95 => ⟨S16x1x512x1024, .f32⟩
  | 96 => ⟨S16x1x512x1024, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | _ => ⟨S16x512x1024x2, .f32⟩

abbrev hbmTy (i : Nat) : BufTy := match i / 128 with
  | 0 => hbmTy0_0 i
  | 1 => hbmTy0_1 i
  | 2 => hbmTy0_2 i
  | 3 => hbmTy0_3 i
  | _ => ⟨S16x512x1024x2, .f32⟩

abbrev bufTy : (tb : Table) → Fin (tcTables nBuf tb) → BufTy
  | .hbm, ⟨i, _⟩ => hbmTy i
  | _, _ => ⟨S16x512x1024x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_c : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_cst_4 : Ref sig .tc := ⟨.hbm, 28, rfl⟩
abbrev main_v15 : Ref sig .tc := ⟨.hbm, 29, rfl⟩
abbrev main_v16 : Ref sig .tc := ⟨.hbm, 30, rfl⟩
abbrev main_cst_5 : Ref sig .tc := ⟨.hbm, 31, rfl⟩
abbrev main_v17 : Ref sig .tc := ⟨.hbm, 32, rfl⟩
abbrev main_v18 : Ref sig .tc := ⟨.hbm, 33, rfl⟩
abbrev main_cst_6 : Ref sig .tc := ⟨.hbm, 34, rfl⟩
abbrev main_c_7 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_c_8 : Ref sig .tc := ⟨.hbm, 48, rfl⟩
abbrev main_v26 : Ref sig .tc := ⟨.hbm, 49, rfl⟩
abbrev main_v27 : Ref sig .tc := ⟨.hbm, 50, rfl⟩
abbrev main_c_9 : Ref sig .tc := ⟨.hbm, 51, rfl⟩
abbrev main_v28 : Ref sig .tc := ⟨.hbm, 52, rfl⟩
abbrev main_v29 : Ref sig .tc := ⟨.hbm, 53, rfl⟩
abbrev main_c_10 : Ref sig .tc := ⟨.hbm, 54, rfl⟩
abbrev main_v30 : Ref sig .tc := ⟨.hbm, 55, rfl⟩
abbrev main_v31 : Ref sig .tc := ⟨.hbm, 56, rfl⟩
abbrev main_c_11 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_c_12 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_call2_c : Ref sig .tc := ⟨.hbm, 66, rfl⟩
abbrev main_call2_v0 : Ref sig .tc := ⟨.hbm, 67, rfl⟩
abbrev main_call2_v1 : Ref sig .tc := ⟨.hbm, 68, rfl⟩
abbrev main_call2_c_0 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_call2_v5 : Ref sig .tc := ⟨.hbm, 73, rfl⟩
abbrev main_call2_c_1 : Ref sig .tc := ⟨.hbm, 74, rfl⟩
abbrev main_call2_c_2 : Ref sig .tc := ⟨.hbm, 75, rfl⟩
abbrev main_call2_v6 : Ref sig .tc := ⟨.hbm, 76, rfl⟩
abbrev main_call2_v7 : Ref sig .tc := ⟨.hbm, 77, rfl⟩
abbrev main_call2_v8 : Ref sig .tc := ⟨.hbm, 78, rfl⟩
abbrev main_call2_v9 : Ref sig .tc := ⟨.hbm, 79, rfl⟩
abbrev main_call2_v10 : Ref sig .tc := ⟨.hbm, 80, rfl⟩
abbrev main_call2_v11 : Ref sig .tc := ⟨.hbm, 81, rfl⟩
abbrev main_call2_c_3 : Ref sig .tc := ⟨.hbm, 82, rfl⟩
abbrev main_call2_v12 : Ref sig .tc := ⟨.hbm, 83, rfl⟩
abbrev main_call2_v13 : Ref sig .tc := ⟨.hbm, 84, rfl⟩
abbrev main_call2_v14 : Ref sig .tc := ⟨.hbm, 85, rfl⟩
abbrev main_call2_cst : Ref sig .tc := ⟨.hbm, 86, rfl⟩
abbrev main_call2_v15 : Ref sig .tc := ⟨.hbm, 87, rfl⟩
abbrev main_v39 : Ref sig .tc := ⟨.hbm, 88, rfl⟩
abbrev main_v40 : Ref sig .tc := ⟨.hbm, 89, rfl⟩
abbrev main_c_13 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_call3_c : Ref sig .tc := ⟨.hbm, 95, rfl⟩
abbrev main_call3_v0 : Ref sig .tc := ⟨.hbm, 96, rfl⟩
abbrev main_call3_v1 : Ref sig .tc := ⟨.hbm, 97, rfl⟩
abbrev main_call3_c_0 : Ref sig .tc := ⟨.hbm, 98, rfl⟩
abbrev main_call3_v2 : Ref sig .tc := ⟨.hbm, 99, rfl⟩
abbrev main_call3_v3 : Ref sig .tc := ⟨.hbm, 100, rfl⟩
abbrev main_call3_v4 : Ref sig .tc := ⟨.hbm, 101, rfl⟩
abbrev main_call3_v5 : Ref sig .tc := ⟨.hbm, 102, rfl⟩
abbrev main_call3_c_1 : Ref sig .tc := ⟨.hbm, 103, rfl⟩
abbrev main_call3_c_2 : Ref sig .tc := ⟨.hbm, 104, rfl⟩
abbrev main_call3_v6 : Ref sig .tc := ⟨.hbm, 105, rfl⟩
abbrev main_call3_v7 : Ref sig .tc := ⟨.hbm, 106, rfl⟩
abbrev main_call3_v8 : Ref sig .tc := ⟨.hbm, 107, rfl⟩
abbrev main_call3_v9 : Ref sig .tc := ⟨.hbm, 108, rfl⟩
abbrev main_call3_v10 : Ref sig .tc := ⟨.hbm, 109, rfl⟩
abbrev main_call3_v11 : Ref sig .tc := ⟨.hbm, 110, rfl⟩
abbrev main_call3_c_3 : Ref sig .tc := ⟨.hbm, 111, rfl⟩
abbrev main_call3_v12 : Ref sig .tc := ⟨.hbm, 112, rfl⟩
abbrev main_call3_v13 : Ref sig .tc := ⟨.hbm, 113, rfl⟩
abbrev main_call3_v14 : Ref sig .tc := ⟨.hbm, 114, rfl⟩
abbrev main_call3_cst : Ref sig .tc := ⟨.hbm, 115, rfl⟩
abbrev main_call3_v15 : Ref sig .tc := ⟨.hbm, 116, rfl⟩
abbrev main_v45 : Ref sig .tc := ⟨.hbm, 117, rfl⟩
abbrev main_v46 : Ref sig .tc := ⟨.hbm, 118, rfl⟩
abbrev main_c_14 : Ref sig .tc := ⟨.hbm, 119, rfl⟩
abbrev main_v47 : Ref sig .tc := ⟨.hbm, 120, rfl⟩
abbrev main_v48 : Ref sig .tc := ⟨.hbm, 121, rfl⟩
abbrev main_v49 : Ref sig .tc := ⟨.hbm, 122, rfl⟩
abbrev main_v50 : Ref sig .tc := ⟨.hbm, 123, rfl⟩
abbrev main_call4_c : Ref sig .tc := ⟨.hbm, 124, rfl⟩
abbrev main_call4_v0 : Ref sig .tc := ⟨.hbm, 125, rfl⟩
abbrev main_call4_v1 : Ref sig .tc := ⟨.hbm, 126, rfl⟩
abbrev main_call4_c_0 : Ref sig .tc := ⟨.hbm, 127, rfl⟩
abbrev main_call4_v2 : Ref sig .tc := ⟨.hbm, 128, rfl⟩
abbrev main_call4_v3 : Ref sig .tc := ⟨.hbm, 129, rfl⟩
abbrev main_call4_v4 : Ref sig .tc := ⟨.hbm, 130, rfl⟩
abbrev main_call4_v5 : Ref sig .tc := ⟨.hbm, 131, rfl⟩
abbrev main_call4_c_1 : Ref sig .tc := ⟨.hbm, 132, rfl⟩
abbrev main_call4_c_2 : Ref sig .tc := ⟨.hbm, 133, rfl⟩
abbrev main_call4_v6 : Ref sig .tc := ⟨.hbm, 134, rfl⟩
abbrev main_call4_v7 : Ref sig .tc := ⟨.hbm, 135, rfl⟩
abbrev main_call4_v8 : Ref sig .tc := ⟨.hbm, 136, rfl⟩
abbrev main_call4_v9 : Ref sig .tc := ⟨.hbm, 137, rfl⟩
abbrev main_call4_v10 : Ref sig .tc := ⟨.hbm, 138, rfl⟩
abbrev main_call4_v11 : Ref sig .tc := ⟨.hbm, 139, rfl⟩
abbrev main_call4_c_3 : Ref sig .tc := ⟨.hbm, 140, rfl⟩
abbrev main_call4_v12 : Ref sig .tc := ⟨.hbm, 141, rfl⟩
abbrev main_call4_v13 : Ref sig .tc := ⟨.hbm, 142, rfl⟩
abbrev main_call4_v14 : Ref sig .tc := ⟨.hbm, 143, rfl⟩
abbrev main_call4_cst : Ref sig .tc := ⟨.hbm, 144, rfl⟩
abbrev main_call4_v15 : Ref sig .tc := ⟨.hbm, 145, rfl⟩
abbrev main_v51 : Ref sig .tc := ⟨.hbm, 146, rfl⟩
abbrev main_v52 : Ref sig .tc := ⟨.hbm, 147, rfl⟩
abbrev main_c_15 : Ref sig .tc := ⟨.hbm, 148, rfl⟩
abbrev main_v53 : Ref sig .tc := ⟨.hbm, 149, rfl⟩
abbrev main_v54 : Ref sig .tc := ⟨.hbm, 150, rfl⟩
abbrev main_v55 : Ref sig .tc := ⟨.hbm, 151, rfl⟩
abbrev main_v56 : Ref sig .tc := ⟨.hbm, 152, rfl⟩
abbrev main_call5_c : Ref sig .tc := ⟨.hbm, 153, rfl⟩
abbrev main_call5_v0 : Ref sig .tc := ⟨.hbm, 154, rfl⟩
abbrev main_call5_v1 : Ref sig .tc := ⟨.hbm, 155, rfl⟩
abbrev main_call5_c_0 : Ref sig .tc := ⟨.hbm, 156, rfl⟩
abbrev main_call5_v2 : Ref sig .tc := ⟨.hbm, 157, rfl⟩
abbrev main_call5_v3 : Ref sig .tc := ⟨.hbm, 158, rfl⟩
abbrev main_call5_v4 : Ref sig .tc := ⟨.hbm, 159, rfl⟩
abbrev main_call5_v5 : Ref sig .tc := ⟨.hbm, 160, rfl⟩
abbrev main_call5_c_1 : Ref sig .tc := ⟨.hbm, 161, rfl⟩
abbrev main_call5_c_2 : Ref sig .tc := ⟨.hbm, 162, rfl⟩
abbrev main_call5_v6 : Ref sig .tc := ⟨.hbm, 163, rfl⟩
abbrev main_call5_v7 : Ref sig .tc := ⟨.hbm, 164, rfl⟩
abbrev main_call5_v8 : Ref sig .tc := ⟨.hbm, 165, rfl⟩
abbrev main_call5_v9 : Ref sig .tc := ⟨.hbm, 166, rfl⟩
abbrev main_call5_v10 : Ref sig .tc := ⟨.hbm, 167, rfl⟩
abbrev main_call5_v11 : Ref sig .tc := ⟨.hbm, 168, rfl⟩
abbrev main_call5_c_3 : Ref sig .tc := ⟨.hbm, 169, rfl⟩
abbrev main_call5_v12 : Ref sig .tc := ⟨.hbm, 170, rfl⟩
abbrev main_call5_v13 : Ref sig .tc := ⟨.hbm, 171, rfl⟩
abbrev main_call5_v14 : Ref sig .tc := ⟨.hbm, 172, rfl⟩
abbrev main_call5_cst : Ref sig .tc := ⟨.hbm, 173, rfl⟩
abbrev main_call5_v15 : Ref sig .tc := ⟨.hbm, 174, rfl⟩
abbrev main_v57 : Ref sig .tc := ⟨.hbm, 175, rfl⟩
abbrev main_v58 : Ref sig .tc := ⟨.hbm, 176, rfl⟩
abbrev main_v59 : Ref sig .tc := ⟨.hbm, 177, rfl⟩
abbrev main_v60 : Ref sig .tc := ⟨.hbm, 178, rfl⟩
abbrev main_cst_16 : Ref sig .tc := ⟨.hbm, 179, rfl⟩
abbrev main_v61 : Ref sig .tc := ⟨.hbm, 180, rfl⟩
abbrev main_v62 : Ref sig .tc := ⟨.hbm, 181, rfl⟩
abbrev main_v63 : Ref sig .tc := ⟨.hbm, 182, rfl⟩
abbrev main_v64 : Ref sig .tc := ⟨.hbm, 183, rfl⟩
abbrev main_cst_17 : Ref sig .tc := ⟨.hbm, 184, rfl⟩
abbrev main_v65 : Ref sig .tc := ⟨.hbm, 185, rfl⟩
abbrev main_v66 : Ref sig .tc := ⟨.hbm, 186, rfl⟩
abbrev main_v67 : Ref sig .tc := ⟨.hbm, 187, rfl⟩
abbrev main_v68 : Ref sig .tc := ⟨.hbm, 188, rfl⟩
abbrev main_v69 : Ref sig .tc := ⟨.hbm, 189, rfl⟩
abbrev main_v70 : Ref sig .tc := ⟨.hbm, 190, rfl⟩
abbrev main_cst_18 : Ref sig .tc := ⟨.hbm, 191, rfl⟩
abbrev main_v71 : Ref sig .tc := ⟨.hbm, 192, rfl⟩
abbrev main_v72 : Ref sig .tc := ⟨.hbm, 193, rfl⟩
abbrev main_v73 : Ref sig .tc := ⟨.hbm, 194, rfl⟩
abbrev main_v74 : Ref sig .tc := ⟨.hbm, 195, rfl⟩
abbrev main_v75 : Ref sig .tc := ⟨.hbm, 196, rfl⟩
abbrev main_cst_19 : Ref sig .tc := ⟨.hbm, 197, rfl⟩
abbrev main_v76 : Ref sig .tc := ⟨.hbm, 198, rfl⟩
abbrev main_v77 : Ref sig .tc := ⟨.hbm, 199, rfl⟩
abbrev main_v78 : Ref sig .tc := ⟨.hbm, 200, rfl⟩
abbrev main_v79 : Ref sig .tc := ⟨.hbm, 201, rfl⟩
abbrev main_v80 : Ref sig .tc := ⟨.hbm, 202, rfl⟩
abbrev main_v81 : Ref sig .tc := ⟨.hbm, 203, rfl⟩
abbrev main_v82 : Ref sig .tc := ⟨.hbm, 204, rfl⟩
abbrev main_v83 : Ref sig .tc := ⟨.hbm, 205, rfl⟩
abbrev main_v84 : Ref sig .tc := ⟨.hbm, 206, rfl⟩
abbrev main_v85 : Ref sig .tc := ⟨.hbm, 207, rfl⟩
abbrev main_v86 : Ref sig .tc := ⟨.hbm, 208, rfl⟩
abbrev main_v87 : Ref sig .tc := ⟨.hbm, 209, rfl⟩
abbrev main_v88 : Ref sig .tc := ⟨.hbm, 210, rfl⟩
abbrev main_v89 : Ref sig .tc := ⟨.hbm, 211, rfl⟩
abbrev main_cst_20 : Ref sig .tc := ⟨.hbm, 212, rfl⟩
abbrev main_v90 : Ref sig .tc := ⟨.hbm, 213, rfl⟩
abbrev main_v91 : Ref sig .tc := ⟨.hbm, 214, rfl⟩
abbrev main_cst_21 : Ref sig .tc := ⟨.hbm, 215, rfl⟩
abbrev main_v92 : Ref sig .tc := ⟨.hbm, 216, rfl⟩
abbrev main_v93 : Ref sig .tc := ⟨.hbm, 217, rfl⟩
abbrev main_cst_22 : Ref sig .tc := ⟨.hbm, 218, rfl⟩
abbrev main_v94 : Ref sig .tc := ⟨.hbm, 219, rfl⟩
abbrev main_v95 : Ref sig .tc := ⟨.hbm, 220, rfl⟩
abbrev main_cst_23 : Ref sig .tc := ⟨.hbm, 221, rfl⟩
abbrev main_c_24 : Ref sig .tc := ⟨.hbm, 222, rfl⟩
abbrev main_call6_v0 : Ref sig .tc := ⟨.hbm, 223, rfl⟩
abbrev main_call6_v1 : Ref sig .tc := ⟨.hbm, 224, rfl⟩
abbrev main_call6_v2 : Ref sig .tc := ⟨.hbm, 225, rfl⟩
abbrev main_call6_v3 : Ref sig .tc := ⟨.hbm, 226, rfl⟩
abbrev main_call6_v4 : Ref sig .tc := ⟨.hbm, 227, rfl⟩
abbrev main_v96 : Ref sig .tc := ⟨.hbm, 228, rfl⟩
abbrev main_v97 : Ref sig .tc := ⟨.hbm, 229, rfl⟩
abbrev main_v98 : Ref sig .tc := ⟨.hbm, 230, rfl⟩
abbrev main_cst_25 : Ref sig .tc := ⟨.hbm, 231, rfl⟩
abbrev main_v99 : Ref sig .tc := ⟨.hbm, 232, rfl⟩
abbrev main_v100 : Ref sig .tc := ⟨.hbm, 233, rfl⟩
abbrev main_cst_26 : Ref sig .tc := ⟨.hbm, 234, rfl⟩
abbrev main_v101 : Ref sig .tc := ⟨.hbm, 235, rfl⟩
abbrev main_v102 : Ref sig .tc := ⟨.hbm, 236, rfl⟩
abbrev main_cst_27 : Ref sig .tc := ⟨.hbm, 237, rfl⟩
abbrev main_v103 : Ref sig .tc := ⟨.hbm, 238, rfl⟩
abbrev main_v104 : Ref sig .tc := ⟨.hbm, 239, rfl⟩
abbrev main_cst_28 : Ref sig .tc := ⟨.hbm, 240, rfl⟩
abbrev main_c_29 : Ref sig .tc := ⟨.hbm, 241, rfl⟩
abbrev main_call7_v0 : Ref sig .tc := ⟨.hbm, 242, rfl⟩
abbrev main_call7_v1 : Ref sig .tc := ⟨.hbm, 243, rfl⟩
abbrev main_call7_v2 : Ref sig .tc := ⟨.hbm, 244, rfl⟩
abbrev main_call7_v3 : Ref sig .tc := ⟨.hbm, 245, rfl⟩
abbrev main_call7_v4 : Ref sig .tc := ⟨.hbm, 246, rfl⟩
abbrev main_v105 : Ref sig .tc := ⟨.hbm, 247, rfl⟩
abbrev main_v106 : Ref sig .tc := ⟨.hbm, 248, rfl⟩
abbrev main_v107 : Ref sig .tc := ⟨.hbm, 249, rfl⟩
abbrev main_v108 : Ref sig .tc := ⟨.hbm, 250, rfl⟩
abbrev main_v109 : Ref sig .tc := ⟨.hbm, 251, rfl⟩
abbrev main_v110 : Ref sig .tc := ⟨.hbm, 252, rfl⟩
abbrev main_v111 : Ref sig .tc := ⟨.hbm, 253, rfl⟩
abbrev main_c_30 : Ref sig .tc := ⟨.hbm, 254, rfl⟩
abbrev main_v112 : Ref sig .tc := ⟨.hbm, 255, rfl⟩
abbrev main_v113 : Ref sig .tc := ⟨.hbm, 256, rfl⟩
abbrev main_c_31 : Ref sig .tc := ⟨.hbm, 257, rfl⟩
abbrev main_v114 : Ref sig .tc := ⟨.hbm, 258, rfl⟩
abbrev main_v115 : Ref sig .tc := ⟨.hbm, 259, rfl⟩
abbrev main_c_32 : Ref sig .tc := ⟨.hbm, 260, rfl⟩
abbrev main_v116 : Ref sig .tc := ⟨.hbm, 261, rfl⟩
abbrev main_v117 : Ref sig .tc := ⟨.hbm, 262, rfl⟩
abbrev main_c_33 : Ref sig .tc := ⟨.hbm, 263, rfl⟩
abbrev main_v118 : Ref sig .tc := ⟨.hbm, 264, rfl⟩
abbrev main_v119 : Ref sig .tc := ⟨.hbm, 265, rfl⟩
abbrev main_v120 : Ref sig .tc := ⟨.hbm, 266, rfl⟩
abbrev main_c_34 : Ref sig .tc := ⟨.hbm, 267, rfl⟩
abbrev main_v121 : Ref sig .tc := ⟨.hbm, 268, rfl⟩
abbrev main_v122 : Ref sig .tc := ⟨.hbm, 269, rfl⟩
abbrev main_v123 : Ref sig .tc := ⟨.hbm, 270, rfl⟩
abbrev main_v124 : Ref sig .tc := ⟨.hbm, 271, rfl⟩
abbrev main_call8_c : Ref sig .tc := ⟨.hbm, 272, rfl⟩
abbrev main_call8_v0 : Ref sig .tc := ⟨.hbm, 273, rfl⟩
abbrev main_call8_v1 : Ref sig .tc := ⟨.hbm, 274, rfl⟩
abbrev main_call8_c_0 : Ref sig .tc := ⟨.hbm, 275, rfl⟩
abbrev main_call8_v2 : Ref sig .tc := ⟨.hbm, 276, rfl⟩
abbrev main_call8_v3 : Ref sig .tc := ⟨.hbm, 277, rfl⟩
abbrev main_call8_v4 : Ref sig .tc := ⟨.hbm, 278, rfl⟩
abbrev main_call8_v5 : Ref sig .tc := ⟨.hbm, 279, rfl⟩
abbrev main_call8_c_1 : Ref sig .tc := ⟨.hbm, 280, rfl⟩
abbrev main_call8_c_2 : Ref sig .tc := ⟨.hbm, 281, rfl⟩
abbrev main_call8_v6 : Ref sig .tc := ⟨.hbm, 282, rfl⟩
abbrev main_call8_v7 : Ref sig .tc := ⟨.hbm, 283, rfl⟩
abbrev main_call8_v8 : Ref sig .tc := ⟨.hbm, 284, rfl⟩
abbrev main_call8_v9 : Ref sig .tc := ⟨.hbm, 285, rfl⟩
abbrev main_call8_v10 : Ref sig .tc := ⟨.hbm, 286, rfl⟩
abbrev main_call8_v11 : Ref sig .tc := ⟨.hbm, 287, rfl⟩
abbrev main_call8_c_3 : Ref sig .tc := ⟨.hbm, 288, rfl⟩
abbrev main_call8_v12 : Ref sig .tc := ⟨.hbm, 289, rfl⟩
abbrev main_call8_v13 : Ref sig .tc := ⟨.hbm, 290, rfl⟩
abbrev main_call8_v14 : Ref sig .tc := ⟨.hbm, 291, rfl⟩
abbrev main_call8_cst : Ref sig .tc := ⟨.hbm, 292, rfl⟩
abbrev main_call8_v15 : Ref sig .tc := ⟨.hbm, 293, rfl⟩
abbrev main_v125 : Ref sig .tc := ⟨.hbm, 294, rfl⟩
abbrev main_v126 : Ref sig .tc := ⟨.hbm, 295, rfl⟩
abbrev main_c_35 : Ref sig .tc := ⟨.hbm, 296, rfl⟩
abbrev main_v127 : Ref sig .tc := ⟨.hbm, 297, rfl⟩
abbrev main_v128 : Ref sig .tc := ⟨.hbm, 298, rfl⟩
abbrev main_v129 : Ref sig .tc := ⟨.hbm, 299, rfl⟩
abbrev main_v130 : Ref sig .tc := ⟨.hbm, 300, rfl⟩
abbrev main_call9_c : Ref sig .tc := ⟨.hbm, 301, rfl⟩
abbrev main_call9_v0 : Ref sig .tc := ⟨.hbm, 302, rfl⟩
abbrev main_call9_v1 : Ref sig .tc := ⟨.hbm, 303, rfl⟩
abbrev main_call9_c_0 : Ref sig .tc := ⟨.hbm, 304, rfl⟩
abbrev main_call9_v2 : Ref sig .tc := ⟨.hbm, 305, rfl⟩
abbrev main_call9_v3 : Ref sig .tc := ⟨.hbm, 306, rfl⟩
abbrev main_call9_v4 : Ref sig .tc := ⟨.hbm, 307, rfl⟩
abbrev main_call9_v5 : Ref sig .tc := ⟨.hbm, 308, rfl⟩
abbrev main_call9_c_1 : Ref sig .tc := ⟨.hbm, 309, rfl⟩
abbrev main_call9_c_2 : Ref sig .tc := ⟨.hbm, 310, rfl⟩
abbrev main_call9_v6 : Ref sig .tc := ⟨.hbm, 311, rfl⟩
abbrev main_call9_v7 : Ref sig .tc := ⟨.hbm, 312, rfl⟩
abbrev main_call9_v8 : Ref sig .tc := ⟨.hbm, 313, rfl⟩
abbrev main_call9_v9 : Ref sig .tc := ⟨.hbm, 314, rfl⟩
abbrev main_call9_v10 : Ref sig .tc := ⟨.hbm, 315, rfl⟩
abbrev main_call9_v11 : Ref sig .tc := ⟨.hbm, 316, rfl⟩
abbrev main_call9_c_3 : Ref sig .tc := ⟨.hbm, 317, rfl⟩
abbrev main_call9_v12 : Ref sig .tc := ⟨.hbm, 318, rfl⟩
abbrev main_call9_v13 : Ref sig .tc := ⟨.hbm, 319, rfl⟩
abbrev main_call9_v14 : Ref sig .tc := ⟨.hbm, 320, rfl⟩
abbrev main_call9_cst : Ref sig .tc := ⟨.hbm, 321, rfl⟩
abbrev main_call9_v15 : Ref sig .tc := ⟨.hbm, 322, rfl⟩
abbrev main_v131 : Ref sig .tc := ⟨.hbm, 323, rfl⟩
abbrev main_v132 : Ref sig .tc := ⟨.hbm, 324, rfl⟩
abbrev main_c_36 : Ref sig .tc := ⟨.hbm, 325, rfl⟩
abbrev main_v133 : Ref sig .tc := ⟨.hbm, 326, rfl⟩
abbrev main_v134 : Ref sig .tc := ⟨.hbm, 327, rfl⟩
abbrev main_v135 : Ref sig .tc := ⟨.hbm, 328, rfl⟩
abbrev main_v136 : Ref sig .tc := ⟨.hbm, 329, rfl⟩
abbrev main_call10_c : Ref sig .tc := ⟨.hbm, 330, rfl⟩
abbrev main_call10_v0 : Ref sig .tc := ⟨.hbm, 331, rfl⟩
abbrev main_call10_v1 : Ref sig .tc := ⟨.hbm, 332, rfl⟩
abbrev main_call10_c_0 : Ref sig .tc := ⟨.hbm, 333, rfl⟩
abbrev main_call10_v2 : Ref sig .tc := ⟨.hbm, 334, rfl⟩
abbrev main_call10_v3 : Ref sig .tc := ⟨.hbm, 335, rfl⟩
abbrev main_call10_v4 : Ref sig .tc := ⟨.hbm, 336, rfl⟩
abbrev main_call10_v5 : Ref sig .tc := ⟨.hbm, 337, rfl⟩
abbrev main_call10_c_1 : Ref sig .tc := ⟨.hbm, 338, rfl⟩
abbrev main_call10_c_2 : Ref sig .tc := ⟨.hbm, 339, rfl⟩
abbrev main_call10_v6 : Ref sig .tc := ⟨.hbm, 340, rfl⟩
abbrev main_call10_v7 : Ref sig .tc := ⟨.hbm, 341, rfl⟩
abbrev main_call10_v8 : Ref sig .tc := ⟨.hbm, 342, rfl⟩
abbrev main_call10_v9 : Ref sig .tc := ⟨.hbm, 343, rfl⟩
abbrev main_call10_v10 : Ref sig .tc := ⟨.hbm, 344, rfl⟩
abbrev main_call10_v11 : Ref sig .tc := ⟨.hbm, 345, rfl⟩
abbrev main_call10_c_3 : Ref sig .tc := ⟨.hbm, 346, rfl⟩
abbrev main_call10_v12 : Ref sig .tc := ⟨.hbm, 347, rfl⟩
abbrev main_call10_v13 : Ref sig .tc := ⟨.hbm, 348, rfl⟩
abbrev main_call10_v14 : Ref sig .tc := ⟨.hbm, 349, rfl⟩
abbrev main_call10_cst : Ref sig .tc := ⟨.hbm, 350, rfl⟩
abbrev main_call10_v15 : Ref sig .tc := ⟨.hbm, 351, rfl⟩
abbrev main_v137 : Ref sig .tc := ⟨.hbm, 352, rfl⟩
abbrev main_v138 : Ref sig .tc := ⟨.hbm, 353, rfl⟩
abbrev main_c_37 : Ref sig .tc := ⟨.hbm, 354, rfl⟩
abbrev main_v139 : Ref sig .tc := ⟨.hbm, 355, rfl⟩
abbrev main_v140 : Ref sig .tc := ⟨.hbm, 356, rfl⟩
abbrev main_v141 : Ref sig .tc := ⟨.hbm, 357, rfl⟩
abbrev main_v142 : Ref sig .tc := ⟨.hbm, 358, rfl⟩
abbrev main_call11_c : Ref sig .tc := ⟨.hbm, 359, rfl⟩
abbrev main_call11_v0 : Ref sig .tc := ⟨.hbm, 360, rfl⟩
abbrev main_call11_v1 : Ref sig .tc := ⟨.hbm, 361, rfl⟩
abbrev main_call11_c_0 : Ref sig .tc := ⟨.hbm, 362, rfl⟩
abbrev main_call11_v2 : Ref sig .tc := ⟨.hbm, 363, rfl⟩
abbrev main_call11_v3 : Ref sig .tc := ⟨.hbm, 364, rfl⟩
abbrev main_call11_v4 : Ref sig .tc := ⟨.hbm, 365, rfl⟩
abbrev main_call11_v5 : Ref sig .tc := ⟨.hbm, 366, rfl⟩
abbrev main_call11_c_1 : Ref sig .tc := ⟨.hbm, 367, rfl⟩
abbrev main_call11_c_2 : Ref sig .tc := ⟨.hbm, 368, rfl⟩
abbrev main_call11_v6 : Ref sig .tc := ⟨.hbm, 369, rfl⟩
abbrev main_call11_v7 : Ref sig .tc := ⟨.hbm, 370, rfl⟩
abbrev main_call11_v8 : Ref sig .tc := ⟨.hbm, 371, rfl⟩
abbrev main_call11_v9 : Ref sig .tc := ⟨.hbm, 372, rfl⟩
abbrev main_call11_v10 : Ref sig .tc := ⟨.hbm, 373, rfl⟩
abbrev main_call11_v11 : Ref sig .tc := ⟨.hbm, 374, rfl⟩
abbrev main_call11_c_3 : Ref sig .tc := ⟨.hbm, 375, rfl⟩
abbrev main_call11_v12 : Ref sig .tc := ⟨.hbm, 376, rfl⟩
abbrev main_call11_v13 : Ref sig .tc := ⟨.hbm, 377, rfl⟩
abbrev main_call11_v14 : Ref sig .tc := ⟨.hbm, 378, rfl⟩
abbrev main_call11_cst : Ref sig .tc := ⟨.hbm, 379, rfl⟩
abbrev main_call11_v15 : Ref sig .tc := ⟨.hbm, 380, rfl⟩
abbrev main_v143 : Ref sig .tc := ⟨.hbm, 381, rfl⟩
abbrev main_v144 : Ref sig .tc := ⟨.hbm, 382, rfl⟩
abbrev main_v145 : Ref sig .tc := ⟨.hbm, 383, rfl⟩
abbrev main_v146 : Ref sig .tc := ⟨.hbm, 384, rfl⟩
abbrev main_cst_38 : Ref sig .tc := ⟨.hbm, 385, rfl⟩
abbrev main_v147 : Ref sig .tc := ⟨.hbm, 386, rfl⟩
abbrev main_v148 : Ref sig .tc := ⟨.hbm, 387, rfl⟩
abbrev main_v149 : Ref sig .tc := ⟨.hbm, 388, rfl⟩
abbrev main_v150 : Ref sig .tc := ⟨.hbm, 389, rfl⟩
abbrev main_cst_39 : Ref sig .tc := ⟨.hbm, 390, rfl⟩
abbrev main_v151 : Ref sig .tc := ⟨.hbm, 391, rfl⟩
abbrev main_v152 : Ref sig .tc := ⟨.hbm, 392, rfl⟩
abbrev main_v153 : Ref sig .tc := ⟨.hbm, 393, rfl⟩
abbrev main_v154 : Ref sig .tc := ⟨.hbm, 394, rfl⟩
abbrev main_v155 : Ref sig .tc := ⟨.hbm, 395, rfl⟩
abbrev main_v156 : Ref sig .tc := ⟨.hbm, 396, rfl⟩
abbrev main_cst_40 : Ref sig .tc := ⟨.hbm, 397, rfl⟩
abbrev main_v157 : Ref sig .tc := ⟨.hbm, 398, rfl⟩
abbrev main_v158 : Ref sig .tc := ⟨.hbm, 399, rfl⟩
abbrev main_v159 : Ref sig .tc := ⟨.hbm, 400, rfl⟩
abbrev main_v160 : Ref sig .tc := ⟨.hbm, 401, rfl⟩
abbrev main_v161 : Ref sig .tc := ⟨.hbm, 402, rfl⟩
abbrev main_cst_41 : Ref sig .tc := ⟨.hbm, 403, rfl⟩
abbrev main_v162 : Ref sig .tc := ⟨.hbm, 404, rfl⟩
abbrev main_v163 : Ref sig .tc := ⟨.hbm, 405, rfl⟩
abbrev main_v164 : Ref sig .tc := ⟨.hbm, 406, rfl⟩
abbrev main_v165 : Ref sig .tc := ⟨.hbm, 407, rfl⟩
abbrev main_v166 : Ref sig .tc := ⟨.hbm, 408, rfl⟩
abbrev main_v167 : Ref sig .tc := ⟨.hbm, 409, rfl⟩
abbrev main_v168 : Ref sig .tc := ⟨.hbm, 410, rfl⟩
abbrev main_v169 : Ref sig .tc := ⟨.hbm, 411, rfl⟩
abbrev main_v170 : Ref sig .tc := ⟨.hbm, 412, rfl⟩
abbrev main_v171 : Ref sig .tc := ⟨.hbm, 413, rfl⟩
abbrev main_v172 : Ref sig .tc := ⟨.hbm, 414, rfl⟩
abbrev main_v173 : Ref sig .tc := ⟨.hbm, 415, rfl⟩
abbrev main_v174 : Ref sig .tc := ⟨.hbm, 416, rfl⟩
abbrev main_v175 : Ref sig .tc := ⟨.hbm, 417, rfl⟩
abbrev main_v176 : Ref sig .tc := ⟨.hbm, 418, rfl⟩
abbrev main_v177 : Ref sig .tc := ⟨.hbm, 419, rfl⟩
abbrev main_v178 : Ref sig .tc := ⟨.hbm, 420, rfl⟩
abbrev main_cst_42 : Ref sig .tc := ⟨.hbm, 421, rfl⟩
abbrev main_v179 : Ref sig .tc := ⟨.hbm, 422, rfl⟩
abbrev main_v180 : Ref sig .tc := ⟨.hbm, 423, rfl⟩
abbrev main_v181 : Ref sig .tc := ⟨.hbm, 424, rfl⟩
abbrev main_cst_43 : Ref sig .tc := ⟨.hbm, 425, rfl⟩
abbrev main_v182 : Ref sig .tc := ⟨.hbm, 426, rfl⟩
abbrev main_v183 : Ref sig .tc := ⟨.hbm, 427, rfl⟩
abbrev main_cst_44 : Ref sig .tc := ⟨.hbm, 428, rfl⟩
abbrev main_v184 : Ref sig .tc := ⟨.hbm, 429, rfl⟩
abbrev main_v185 : Ref sig .tc := ⟨.hbm, 430, rfl⟩
abbrev main_v186 : Ref sig .tc := ⟨.hbm, 431, rfl⟩
abbrev main_cst_45 : Ref sig .tc := ⟨.hbm, 432, rfl⟩
abbrev main_v187 : Ref sig .tc := ⟨.hbm, 433, rfl⟩
abbrev main_v188 : Ref sig .tc := ⟨.hbm, 434, rfl⟩
abbrev main_v189 : Ref sig .tc := ⟨.hbm, 435, rfl⟩
abbrev main_cst_46 : Ref sig .tc := ⟨.hbm, 436, rfl⟩
abbrev main_v190 : Ref sig .tc := ⟨.hbm, 437, rfl⟩
abbrev main_v191 : Ref sig .tc := ⟨.hbm, 438, rfl⟩
abbrev main_cst_47 : Ref sig .tc := ⟨.hbm, 439, rfl⟩
abbrev main_v192 : Ref sig .tc := ⟨.hbm, 440, rfl⟩
abbrev main_v193 : Ref sig .tc := ⟨.hbm, 441, rfl⟩
abbrev main_v194 : Ref sig .tc := ⟨.hbm, 442, rfl⟩
abbrev main_cst_48 : Ref sig .tc := ⟨.hbm, 443, rfl⟩
abbrev main_v195 : Ref sig .tc := ⟨.hbm, 444, rfl⟩
abbrev main_v196 : Ref sig .tc := ⟨.hbm, 445, rfl⟩
abbrev main_v197 : Ref sig .tc := ⟨.hbm, 446, rfl⟩
abbrev main_cst_49 : Ref sig .tc := ⟨.hbm, 447, rfl⟩
abbrev main_v198 : Ref sig .tc := ⟨.hbm, 448, rfl⟩
abbrev main_v199 : Ref sig .tc := ⟨.hbm, 449, rfl⟩
abbrev main_v200 : Ref sig .tc := ⟨.hbm, 450, rfl⟩
abbrev main_v201 : Ref sig .tc := ⟨.hbm, 451, rfl⟩
abbrev main_v202 : Ref sig .tc := ⟨.hbm, 452, rfl⟩
abbrev main_cst_50 : Ref sig .tc := ⟨.hbm, 453, rfl⟩
abbrev main_v203 : Ref sig .tc := ⟨.hbm, 454, rfl⟩
abbrev main_v204 : Ref sig .tc := ⟨.hbm, 455, rfl⟩
abbrev main_v205 : Ref sig .tc := ⟨.hbm, 456, rfl⟩
abbrev main_cst_51 : Ref sig .tc := ⟨.hbm, 457, rfl⟩
abbrev main_v206 : Ref sig .tc := ⟨.hbm, 458, rfl⟩
abbrev main_v207 : Ref sig .tc := ⟨.hbm, 459, rfl⟩
abbrev main_v208 : Ref sig .tc := ⟨.hbm, 460, rfl⟩
abbrev main_v209 : Ref sig .tc := ⟨.hbm, 461, rfl⟩
abbrev main_cst_52 : Ref sig .tc := ⟨.hbm, 462, rfl⟩
abbrev main_v210 : Ref sig .tc := ⟨.hbm, 463, rfl⟩
abbrev main_v211 : Ref sig .tc := ⟨.hbm, 464, rfl⟩
abbrev main_cst_53 : Ref sig .tc := ⟨.hbm, 465, rfl⟩
abbrev main_v212 : Ref sig .tc := ⟨.hbm, 466, rfl⟩
abbrev main_v213 : Ref sig .tc := ⟨.hbm, 467, rfl⟩
abbrev main_v214 : Ref sig .tc := ⟨.hbm, 468, rfl⟩
abbrev main_cst_54 : Ref sig .tc := ⟨.hbm, 469, rfl⟩
abbrev main_v215 : Ref sig .tc := ⟨.hbm, 470, rfl⟩
abbrev main_cst_55 : Ref sig .tc := ⟨.hbm, 471, rfl⟩
abbrev main_v216 : Ref sig .tc := ⟨.hbm, 472, rfl⟩
abbrev main_v217 : Ref sig .tc := ⟨.hbm, 473, rfl⟩
abbrev main_cst_56 : Ref sig .tc := ⟨.hbm, 474, rfl⟩
abbrev main_v218 : Ref sig .tc := ⟨.hbm, 475, rfl⟩
abbrev main_v219 : Ref sig .tc := ⟨.hbm, 476, rfl⟩
abbrev main_cst_57 : Ref sig .tc := ⟨.hbm, 477, rfl⟩
abbrev main_v220 : Ref sig .tc := ⟨.hbm, 478, rfl⟩
abbrev main_v221 : Ref sig .tc := ⟨.hbm, 479, rfl⟩
abbrev main_v222 : Ref sig .tc := ⟨.hbm, 480, rfl⟩
abbrev main_cst_58 : Ref sig .tc := ⟨.hbm, 481, rfl⟩
abbrev main_v223 : Ref sig .tc := ⟨.hbm, 482, rfl⟩
abbrev main_cst_59 : Ref sig .tc := ⟨.hbm, 483, rfl⟩
abbrev main_v224 : Ref sig .tc := ⟨.hbm, 484, rfl⟩
abbrev main_v225 : Ref sig .tc := ⟨.hbm, 485, rfl⟩
abbrev main_v226 : Ref sig .tc := ⟨.hbm, 486, rfl⟩
abbrev main_cst_60 : Ref sig .tc := ⟨.hbm, 487, rfl⟩
abbrev main_v227 : Ref sig .tc := ⟨.hbm, 488, rfl⟩

abbrev nD : Nat := 1
abbrev τ : Topo := Topo.v7x

variable {F : FTy → Type} [FloatOps F]

class Facts₀ : Prop where
  transposes_S16x512x1024x2_S16x2x512x1024_0_3_1_2 : S16x512x1024x2.Transposes [0, 3, 1, 2] S16x2x512x1024
  slices_S16x512x1024x2_S16x512x1024x1_0_0_0_0 : S16x512x1024x2.Slices ![0, 0, 0, 0] S16x512x1024x1
  shapeCasts_S16x512x1024x1_S16x512x1024 : S16x512x1024x1.ShapeCasts S16x512x1024
  bcast_S_S16x512x1024 : S_.BroadcastsInDim S16x512x1024 (![] : Fin 0 → Fin S16x512x1024.rank)
  slices_S16x512x1024x2_S16x512x1024x1_0_0_0_1 : S16x512x1024x2.Slices ![0, 0, 0, 1] S16x512x1024x1
  shapeCasts_S16x2x512x1024_S16x2x524288 : S16x2x512x1024.ShapeCasts S16x2x524288
  shapeCasts_S16x512x1024_S16x1x524288 : S16x512x1024.ShapeCasts S16x1x524288
  bcast_S_S16x1x524288 : S_.BroadcastsInDim S16x1x524288 (![] : Fin 0 → Fin S16x1x524288.rank)
  shapeCasts_S16x1x524288_S16x524288x1 : S16x1x524288.ShapeCasts S16x524288x1
  bcast_S_S16x524288x1 : S_.BroadcastsInDim S16x524288x1 (![] : Fin 0 → Fin S16x524288x1.rank)
  bcast_S1_S1x1x1_2 : S1.BroadcastsInDim S1x1x1 (![2] : Fin 1 → Fin S1x1x1.rank)
  bcast_S1x1x1_S16x524288x1_0_1_2 : S1x1x1.BroadcastsInDim S16x524288x1 (![0, 1, 2] : Fin 3 → Fin S16x524288x1.rank)
  reducesTo_S16x524288x1_S16x524288_d2 : S16x524288x1.ReducesTo [2] S16x524288
  h_S_ : 0 < S_.numel
  bcast_S16x524288_S16x2x524288_0_2 : S16x524288.BroadcastsInDim S16x2x524288 (![0, 2] : Fin 2 → Fin S16x2x524288.rank)
  bcast_S_S16x2x524288 : S_.BroadcastsInDim S16x2x524288 (![] : Fin 0 → Fin S16x2x524288.rank)
  shapeCasts_S16x2x524288_S16x2x512x1024 : S16x2x524288.ShapeCasts S16x2x512x1024
  bcast_S16x512x1024_S16x1x512x1024_0_2_3 : S16x512x1024.BroadcastsInDim S16x1x512x1024 (![0, 2, 3] : Fin 3 → Fin S16x1x512x1024.rank)
  bcast_S_S16x1x512x1024 : S_.BroadcastsInDim S16x1x512x1024 (![] : Fin 0 → Fin S16x1x512x1024.rank)
  bcast_S16x1x512x1024_S16x2x512x1024_0_1_2_3 : S16x1x512x1024.BroadcastsInDim S16x2x512x1024 (![0, 1, 2, 3] : Fin 4 → Fin S16x2x512x1024.rank)
  reducesTo_S16x2x512x1024_S16x512x1024_d1 : S16x2x512x1024.ReducesTo [1] S16x512x1024
  reducesTo_S16x1x512x1024_S_d0_1_2_3 : S16x1x512x1024.ReducesTo [0, 1, 2, 3] S_
  gather_S16x2x524288_S16x524288x1_S16x2x524288_1_2_0_0_2_2_121_wf : GatherDims.WF S16x2x524288 S16x524288x1 S16x2x524288 [1] [2] [0] [2] [0] 2 ![1, 2, 1]

variable [Facts₀]

def gather_S16x2x524288_S16x524288x1_S16x2x524288_1_2_0_0_2_2_121 : GatherDims S16x2x524288 S16x524288x1 S16x2x524288 where
  offsetDims := [1]
  collapsedSliceDims := [2]
  operandBatchingDims := [0]
  startIndicesBatchingDims := [0]
  startIndexMap := [2]
  indexVectorDim := 2
  sliceSizes := ![1, 2, 1]
  wf := gather_S16x2x524288_S16x524288x1_S16x2x524288_1_2_0_0_2_2_121_wf

class Facts : Prop extends Facts₀ where

variable [Facts]
-- ==== Proof.SumOrder.lean ====
/-
  Finite sums over the index set of a rank-4 array whose second axis has extent one, and of a rank-2 array
  with a trailing unit axis, written as iterated sums over the coordinates. Addition on the extended reals is
  commutative and associative, so a total over every index of a [B, 1, H, W] array is the sum over the batch
  coordinate of the sum over rows of the sum over lanes: the only law the two programs' results differ by.
-/
import Idealize.ShloMosaic.Lib.ValueIdx

namespace Cert.MaskedMean

open Idealize.ShloMosaic Idealize.ShloMosaic.ValueIdx

/-- The index set of a [B, 1, H, W] array is the product of its three free coordinate ranges: the unit axis
    carries no information. -/
def idxEquivUnit4 {B H W : Nat} : (⟨4, ![B, 1, H, W]⟩ : Shape).Idx ≃ Fin B × Fin H × Fin W where
  toFun i := (i 0, i 2, i 3)
  invFun p := ix4 p.1 (0 : Fin 1) p.2.1 p.2.2
  left_inv i := by
    funext a
    match a with
    | ⟨0, _⟩ => rfl
    | ⟨1, h⟩ => exact Fin.ext (by have hlt : (i ⟨1, h⟩).val < 1 := (i ⟨1, h⟩).isLt; show 0 = (i ⟨1, h⟩).val; omega)
    | ⟨2, _⟩ => rfl
    | ⟨3, _⟩ => rfl
  right_inv _ := rfl

/-- A total over every index of a [B, 1, H, W] array is the iterated sum over batch, row and lane. -/
theorem sum_idxUnit4 {M : Type*} [AddCommMonoid M] {B H W : Nat} (f : (⟨4, ![B, 1, H, W]⟩ : Shape).Idx → M) :
    ∑ i, f i = ∑ b : Fin B, ∑ h : Fin H, ∑ w : Fin W, f (ix4 b (0 : Fin 1) h w) := by
  rw [← Equiv.sum_comp (idxEquivUnit4 (B := B) (H := H) (W := W)).symm f, Fintype.sum_prod_type]
  refine Finset.sum_congr rfl fun b _ => ?_
  rw [Fintype.sum_prod_type]
  rfl

/-- The index set of a rank-1 array is its coordinate range … -/
def idxEquiv1 {n : Nat} : (⟨1, ![n]⟩ : Shape).Idx ≃ Fin n where
  toFun i := i 0
  invFun b := ix1 b
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ b : Fin n, f (ix1 b) := by
  rw [← Equiv.sum_comp (idxEquiv1 (n := n)).symm f]
  rfl

/-- A sum over the one coordinate of a unit range is its one term. -/
theorem sum_fin_one {M : Type*} [AddCommMonoid M] (f : Fin 1 → M) : ∑ k : Fin 1, f k = f 0 := by
  simp

end Cert.MaskedMean
-- ==== Proof.BodySums.lean ====
/-
  What the kernel body stores for one batch element. It loads four [1, 512, 1024] slabs — the channel-mean
  difference and the mask of the forward direction, then those of the backward direction — and stores a
  [1, 1, 4] vector: lane 0 the total of (mean · mask) over the forward slab, lane 1 the total of the forward
  mask, lanes 2 and 3 the same for the backward direction. Each total is taken lanes first, then rows; on the
  extended reals that is the double sum over rows and lanes.
-/
import proofs.«131796_j81346680586607_2_alg».proof.Proof.Gen.KernelIdeal.Skeleton
import proofs.«131796_j81346680586607_2_alg».proof.Proof.SumOrder
import Idealize.ShloMosaic.Lib.Pipeline.Value
import Idealize.ShloMosaic.Lib.ValueIdx
import Idealize.ShloMosaic.PureOps.Ideal.Laws

noncomputable section

namespace Cert.MaskedMean

open Idealize.ShloMosaic Idealize.ShloMosaic.ValueIdx Cert.KernelIdeal Cert.KernelIdeal.Gen

/-- The total of a [512, 1024] slab: rows outside, lanes inside. -/
def slabTotal (v : FVec Ideal S512x1024 .f32) : EReal := ∑ h : Fin 512, ∑ w : Fin 1024, v (ix2 h w)

/-- Summing the lanes of every row, then the rows, and viewing the one number left as a [1, 1] vector: its one
    entry is the slab's total. -/
theorem rows_of_lanes (v : FVec Ideal S512x1024 .f32) :
    shapeCast S1x1 (multiReduction .add [0] S1
        (shapeCast S512x1 (multiReduction .add [1] S512 v 0x00000000#32 reduces_S512x1024_S512 (.inl rfl) rfl) shapeCasts_S512_S512x1)
        0x00000000#32 reduces_S512x1_S1 (.inl rfl) rfl) shapeCasts_S1_S1x1 (ix2 (0 : Fin 1) (0 : Fin 1))
      = slabTotal v := by
  refine (shapeCast_apply _ shapeCasts_S1_S1x1 (ix2 (0 : Fin 1) (0 : Fin 1)) (ix1 (0 : Fin 1))
    (by rw [Shape.rowMajor_val_one, Shape.rowMajor_val_two]; rfl)).trans ?_
  refine (Ideal.multiReduction_add_single _ 0x00000000#32 reduces_S512x1_S1 (.inl rfl) rfl (ix1 (0 : Fin 1))).trans ?_
  show ∑ k : Fin 512, _ = _
  refine Finset.sum_congr rfl fun k _ => ?_
  refine (shapeCast_apply _ shapeCasts_S512_S512x1 _ (ix1 k)
    (by rw [Shape.rowMajor_val_one, Shape.rowMajor_val_two]; show k.val = k.val * 1 + 0; omega)).trans ?_
  refine (Ideal.multiReduction_add_single v 0x00000000#32 reduces_S512x1024_S512 (.inl rfl) rfl (ix1 k)).trans ?_
  show ∑ w : Fin 1024, _ = _
  refine Finset.sum_congr rfl fun w _ => congrArg v ?_
  funext a
  match a with
  | ⟨0, _⟩ => rfl
  | ⟨1, _⟩ => rfl

/-- Dropping the leading unit axis of a [1, 512, 1024] slab. -/
theorem slab_apply (x : Vec Ideal S1x512x1024 .f32) (h : Fin 512) (w : Fin 1024) :
    shapeCast S512x1024 x shapeCasts_S1x512x1024_S512x1024 (ix2 h w) = x (ix3 (0 : Fin 1) h w) := by
  refine (shapeCast_apply x shapeCasts_S1x512x1024_S512x1024 (ix2 h w) (ix3 (0 : Fin 1) h w)
    (by rw [Shape.rowMajor_val_two, Shape.rowMajor_val_three]; show (0 * 512 + h.val) * 1024 + w.val = h.val * 1024 + w.val; omega))

/-- The four totals one batch element contributes. -/
def slabStats (x0 x1 x2 x3 : Vec Ideal S1x512x1024 .f32) (q : Fin 4) : EReal :=
  match q with
  | ⟨0, _⟩ => ∑ h : Fin 512, ∑ w : Fin 1024, x0 (ix3 (0 : Fin 1) h w) * x1 (ix3 (0 : Fin 1) h w)
  | ⟨1, _⟩ => ∑ h : Fin 512, ∑ w : Fin 1024, x1 (ix3 (0 : Fin 1) h w)
  | ⟨2, _⟩ => ∑ h : Fin 512, ∑ w : Fin 1024, x2 (ix3 (0 : Fin 1) h w) * x3 (ix3 (0 : Fin 1) h w)
  | ⟨3, _⟩ => ∑ h : Fin 512, ∑ w : Fin 1024, x3 (ix3 (0 : Fin 1) h w)

/-- Four [1, 1] pieces laid side by side along the lanes: lane `q` of the [1, 4] result is piece `q`'s one entry. -/
theorem lanes_of_pieces (p0 p1 p2 p3 : FVec Ideal S1x1 .f32) (q : Fin 4) :
    concatenate S1x4 1 ([⟨S1x1, p0⟩, ⟨S1x1, p1⟩, ⟨S1x1, p2⟩, ⟨S1x1, p3⟩] : List ((s : Shape) × (s.Idx → Ideal .f32)))
        concatenates_S1x1_S1x1_S1x1_S1x1_S1x4_d1 (ix2 (0 : Fin 1) q)
      = (match q with | ⟨0, _⟩ => p0 | ⟨1, _⟩ => p1 | ⟨2, _⟩ => p2 | ⟨3, _⟩ => p3) (ix2 (0 : Fin 1) (0 : Fin 1)) := by
  have hi : ∀ (j : S1x4.Idx) (b : Fin S1x1.rank), b.cast (rfl : S1x1.rank = S1x4.rank) ≠ (1 : Fin 2) → (j 0).val = 0 →
      ((ix2 (0 : Fin 1) (0 : Fin 1) : S1x1.Idx) b).val = (j (b.cast (rfl : S1x1.rank = S1x4.rank))).val := by
    intro j b hb hj
    match b with
    | ⟨0, _⟩ => exact hj.symm
    | ⟨1, _⟩ => exact absurd rfl hb
  match q with
  | ⟨0, _⟩ =>
    exact concatenate_apply_piece (t := S1x4) (1 : Fin 2) ([⟨S1x1, p0⟩, ⟨S1x1, p1⟩, ⟨S1x1, p2⟩, ⟨S1x1, p3⟩] : List ((s : Shape) × (s.Idx → Ideal .f32))) concatenates_S1x1_S1x1_S1x1_S1x1_S1x4_d1 _ 0 (by show 0 < 4; omega) S1x1 p0 rfl rfl 0 rfl
      (ix2 (0 : Fin 1) (0 : Fin 1)) (fun b hb => hi _ b hb rfl) rfl
  | ⟨1, _⟩ =>
    exact concatenate_apply_piece (t := S1x4) (1 : Fin 2) ([⟨S1x1, p0⟩, ⟨S1x1, p1⟩, ⟨S1x1, p2⟩, ⟨S1x1, p3⟩] : List ((s : Shape) × (s.Idx → Ideal .f32))) concatenates_S1x1_S1x1_S1x1_S1x1_S1x4_d1 _ 1 (by show 1 < 4; omega) S1x1 p1 rfl rfl 1 rfl
      (ix2 (0 : Fin 1) (0 : Fin 1)) (fun b hb => hi _ b hb rfl) rfl
  | ⟨2, _⟩ =>
    exact concatenate_apply_piece (t := S1x4) (1 : Fin 2) ([⟨S1x1, p0⟩, ⟨S1x1, p1⟩, ⟨S1x1, p2⟩, ⟨S1x1, p3⟩] : List ((s : Shape) × (s.Idx → Ideal .f32))) concatenates_S1x1_S1x1_S1x1_S1x1_S1x4_d1 _ 2 (by show 2 < 4; omega) S1x1 p2 rfl rfl 2 rfl
      (ix2 (0 : Fin 1) (0 : Fin 1)) (fun b hb => hi _ b hb rfl) rfl
  | ⟨3, _⟩ =>
    exact concatenate_apply_piece (t := S1x4) (1 : Fin 2) ([⟨S1x1, p0⟩, ⟨S1x1, p1⟩, ⟨S1x1, p2⟩, ⟨S1x1, p3⟩] : List ((s : Shape) × (s.Idx → Ideal .f32))) concatenates_S1x1_S1x1_S1x1_S1x1_S1x4_d1 _ 3 (by show 3 < 4; omega) S1x1 p3 rfl rfl 3 rfl
      (ix2 (0 : Fin 1) (0 : Fin 1)) (fun b hb => hi _ b hb rfl) rfl

/-- The body's stored vector, lane by lane. -/
theorem body_apply (x0 x1 x2 x3 : Vec Ideal S1x512x1024 .f32) (q : Fin 4) :
    k0_pay1 (F := Ideal) x0 x1 x2 x3 (ix3 (0 : Fin 1) (0 : Fin 1) q) = slabStats x0 x1 x2 x3 q := by
  unfold k0_pay1
  refine (shapeCast_apply _ shapeCasts_S1x4_S1x1x4 (ix3 (0 : Fin 1) (0 : Fin 1) q) (ix2 (0 : Fin 1) q)
    (by rw [Shape.rowMajor_val_two, Shape.rowMajor_val_three]; show 0 * 4 + q.val = (0 * 1 + 0) * 4 + q.val; omega)).trans ?_
  refine (lanes_of_pieces _ _ _ _ q).trans ?_
  match q with
  | ⟨0, _⟩ =>
    refine (rows_of_lanes _).trans ?_
    exact Finset.sum_congr rfl fun h _ => Finset.sum_congr rfl fun w _ => by
      show shapeCast S512x1024 x0 shapeCasts_S1x512x1024_S512x1024 (ix2 h w) * shapeCast S512x1024 x1 shapeCasts_S1x512x1024_S512x1024 (ix2 h w) = _
      rw [slab_apply, slab_apply]
  | ⟨1, _⟩ =>
    refine (rows_of_lanes _).trans ?_
    exact Finset.sum_congr rfl fun h _ => Finset.sum_congr rfl fun w _ => slab_apply x1 h w
  | ⟨2, _⟩ =>
    refine (rows_of_lanes _).trans ?_
    exact Finset.sum_congr rfl fun h _ => Finset.sum_congr rfl fun w _ => by
      show shapeCast S512x1024 x2 shapeCasts_S1x512x1024_S512x1024 (ix2 h w) * shapeCast S512x1024 x3 shapeCasts_S1x512x1024_S512x1024 (ix2 h w) = _
      rw [slab_apply, slab_apply]
  | ⟨3, _⟩ =>
    refine (rows_of_lanes _).trans ?_
    exact Finset.sum_congr rfl fun h _ => Finset.sum_congr rfl fun w _ => slab_apply x3 h w

end Cert.MaskedMean

end
-- ==== Proof.BatchStats.lean ====
/-
  The region's output array. Grid point `t` handles batch element `t`: it reads row `t` of the four
  [16, 512, 1024] arrays the region finds and writes row `t` of the [16, 1, 4] output. So the whole output is
  one function of the four arrays: entry (b, 0, q) is total number `q` of batch element `b`.
-/
import proofs.«131796_j81346680586607_2_alg».proof.Proof.Gen.KernelIdeal.Frame
import proofs.«131796_j81346680586607_2_alg».proof.Proof.BodySums

set_option maxRecDepth 16384

noncomputable section

namespace Cert.MaskedMean

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- Total number `q` of batch element `b`, from the four whole arrays. -/
def batchLane (A0 A1 A2 A3 : S16x512x1024.Idx → EReal) (b : Fin 16) (q : Fin 4) : EReal :=
  match q with
  | ⟨0, _⟩ => ∑ h : Fin 512, ∑ w : Fin 1024, A0 (ix3 b h w) * A1 (ix3 b h w)
  | ⟨1, _⟩ => ∑ h : Fin 512, ∑ w : Fin 1024, A1 (ix3 b h w)
  | ⟨2, _⟩ => ∑ h : Fin 512, ∑ w : Fin 1024, A2 (ix3 b h w) * A3 (ix3 b h w)
  | ⟨3, _⟩ => ∑ h : Fin 512, ∑ w : Fin 1024, A3 (ix3 b h w)

/-- The [16, 1, 4] array of every batch element's four totals. -/
def batchStats (A0 A1 A2 A3 : S16x512x1024.Idx → EReal) : S16x1x4.Idx → EReal :=
  fun i => batchLane A0 A1 A2 A3 (i 0) (i 2)

theorem zero_offsets : (![0, 0, 0] : Fin 3 → Nat) = fun _ => 0 := funext fun a => by fin_cases a <;> rfl

/-- The printed index maps, decided over the sixteen grid points: every window's block index is (t, 0, 0). -/
theorem index_facts : ∀ t : Fin cfg0.N,
    win0_0.index t (0 : Fin 3) = win0_4.index t (0 : Fin 3) ∧ win0_0.index t (1 : Fin 3) = 0 ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 3) = win0_4.index t (0 : Fin 3) ∧ win0_2.index t (1 : Fin 3) = 0 ∧ win0_2.index t (2 : Fin 3) = 0
    ∧ win0_3.index t (0 : Fin 3) = win0_4.index t (0 : Fin 3) ∧ win0_3.index t (1 : Fin 3) = 0 ∧ win0_3.index t (2 : Fin 3) = 0
    ∧ win0_4.index t (0 : Fin 3) ≤ 15 ∧ win0_4.index t (1 : Fin 3) = 0 ∧ win0_4.index t (2 : Fin 3) = 0 :=
  (by decide +kernel : ∀ t : Fin grid0.N, _)

/-- Every batch element is some grid point's. -/
theorem index_onto : ∀ b : Fin 16, ∃ t : Fin cfg0.N, win0_4.index t = ![b.val, 0, 0] :=
  (by decide +kernel : ∀ b : Fin 16, ∃ t : Fin grid0.N, win0_4.index t = ![b.val, 0, 0])

/-- An input window's block at point `t` is row `b` of its array, `b` the point's batch element. -/
theorem block0_read (c : Dev nD) (t : Fin cfg0.N) (b : Fin 16) (hb : win0_4.index t (0 : Fin 3) = b.val) (h : Fin 512) (w : Fin 1024) :
    iblk m c 0 t (ix3 (0 : Fin 1) h w) = V m c main_v218 (ix3 b h w) := by
  obtain ⟨e0, e1, e2, -⟩ := index_facts t
  show V m c main_v218 (((cfg0.win 0).blk t).view.emb (ix3 (0 : Fin 1) h w)) = V m c main_v218 (ix3 b h w)
  refine congrArg (V m c main_v218) (funext fun a => Fin.ext ?_)
  match a with
  | ⟨0, _⟩ => show win0_0.index t (0 : Fin 3) * 1 + 1 * 0 = b.val; omega
  | ⟨1, _⟩ => show win0_0.index t (1 : Fin 3) * 512 + 1 * h.val = h.val; omega
  | ⟨2, _⟩ => show win0_0.index t (2 : Fin 3) * 1024 + 1 * w.val = w.val; omega

theorem block1_read (c : Dev nD) (t : Fin cfg0.N) (b : Fin 16) (hb : win0_4.index t (0 : Fin 3) = b.val) (h : Fin 512) (w : Fin 1024) :
    iblk m c 1 t (ix3 (0 : Fin 1) h w) = V m c main_v220 (ix3 b h w) := by
  obtain ⟨-, -, -, e0, e1, e2, -⟩ := index_facts t
  show V m c main_v220 (((cfg0.win 1).blk t).view.emb (ix3 (0 : Fin 1) h w)) = V m c main_v220 (ix3 b h w)
  refine congrArg (V m c main_v220) (funext fun a => Fin.ext ?_)
  match a with
  | ⟨0, _⟩ => show win0_1.index t (0 : Fin 3) * 1 + 1 * 0 = b.val; omega
  | ⟨1, _⟩ => show win0_1.index t (1 : Fin 3) * 512 + 1 * h.val = h.val; omega
  | ⟨2, _⟩ => show win0_1.index t (2 : Fin 3) * 1024 + 1 * w.val = w.val; omega

theorem block2_read (c : Dev nD) (t : Fin cfg0.N) (b : Fin 16) (hb : win0_4.index t (0 : Fin 3) = b.val) (h : Fin 512) (w : Fin 1024) :
    iblk m c 2 t (ix3 (0 : Fin 1) h w) = V m c main_v219 (ix3 b h w) := by
  obtain ⟨-, -, -, -, -, -, e0, e1, e2, -⟩ := index_facts t
  show V m c main_v219 (((cfg0.win 2).blk t).view.emb (ix3 (0 : Fin 1) h w)) = V m c main_v219 (ix3 b h w)
  refine congrArg (V m c main_v219) (funext fun a => Fin.ext ?_)
  match a with
  | ⟨0, _⟩ => show win0_2.index t (0 : Fin 3) * 1 + 1 * 0 = b.val; omega
  | ⟨1, _⟩ => show win0_2.index t (1 : Fin 3) * 512 + 1 * h.val = h.val; omega
  | ⟨2, _⟩ => show win0_2.index t (2 : Fin 3) * 1024 + 1 * w.val = w.val; omega

theorem block3_read (c : Dev nD) (t : Fin cfg0.N) (b : Fin 16) (hb : win0_4.index t (0 : Fin 3) = b.val) (h : Fin 512) (w : Fin 1024) :
    iblk m c 3 t (ix3 (0 : Fin 1) h w) = V m c main_v221 (ix3 b h w) := by
  obtain ⟨-, -, -, -, -, -, -, -, -, e0, e1, e2, -⟩ := index_facts t
  show V m c main_v221 (((cfg0.win 3).blk t).view.emb (ix3 (0 : Fin 1) h w)) = V m c main_v221 (ix3 b h w)
  refine congrArg (V m c main_v221) (funext fun a => Fin.ext ?_)
  match a with
  | ⟨0, _⟩ => show win0_3.index t (0 : Fin 3) * 1 + 1 * 0 = b.val; omega
  | ⟨1, _⟩ => show win0_3.index t (1 : Fin 3) * 512 + 1 * h.val = h.val; omega
  | ⟨2, _⟩ => show win0_3.index t (2 : Fin 3) * 1024 + 1 * w.val = w.val; omega

/-- Two [1, 1, 4] vectors that agree on their four lanes are equal. -/
theorem ext_lanes (P R : S1x1x4.Idx → EReal) (h : ∀ q : Fin 4, P (ix3 (0 : Fin 1) (0 : Fin 1) q) = R (ix3 (0 : Fin 1) (0 : Fin 1) q)) : P = R := by
  funext j
  have e : j = ix3 (0 : Fin 1) (0 : Fin 1) (j 2) := by
    funext a
    match a with
    | ⟨0, _⟩ => exact Fin.ext (by have hlt : (j 0).val < 1 := (j 0).isLt; show (j 0).val = 0; omega)
    | ⟨1, _⟩ => exact Fin.ext (by have hlt : (j 1).val < 1 := (j 1).isLt; show (j 1).val = 0; omega)
    | ⟨2, _⟩ => rfl
  rw [e]; exact h (j 2)

/-- What point `t` writes back is row `t` of the totals of the four arrays as the region finds them. -/
theorem flushed_stats (c : Dev nD) (t : Fin cfg0.N) :
    (dats m 0 c).flushed 4 t = ((cfg0.win 4).blk t).view.read (Elt Ideal)
      (batchStats (V m c main_v218) (V m c main_v220) (V m c main_v219) (V m c main_v221)) := by
  show (cfg0.win 4).cut (grid0.coords t) ((dats m 0 c).after 4 t) = _
  rw [after0_4]
  unfold out0_4
  rw [View.canon_unit_zero zero_offsets]
  simp only [View.ld_unit_zero (S := S1x512x1024) zero_offsets]
  obtain ⟨-, -, -, -, -, -, -, -, -, -, -, -, e0, e1, e2⟩ := index_facts t
  refine ext_lanes _ _ fun q => ?_
  refine (body_apply (iblk m c 0 t) (iblk m c 1 t) (iblk m c 2 t) (iblk m c 3 t) q).trans ?_
  -- the batch element of this point
  have hb : win0_4.index t (0 : Fin 3) = (⟨win0_4.index t (0 : Fin 3), by omega⟩ : Fin 16).val := rfl
  show _ = batchLane (V m c main_v218) (V m c main_v220) (V m c main_v219) (V m c main_v221)
    ((((cfg0.win 4).blk t).view.emb (ix3 (0 : Fin 1) (0 : Fin 1) q)) 0) ((((cfg0.win 4).blk t).view.emb (ix3 (0 : Fin 1) (0 : Fin 1) q)) 2)
  have i0 : (((cfg0.win 4).blk t).view.emb (ix3 (0 : Fin 1) (0 : Fin 1) q)) 0 = (⟨win0_4.index t (0 : Fin 3), by omega⟩ : Fin 16) :=
    Fin.ext (by show win0_4.index t (0 : Fin 3) * 1 + 1 * 0 = win0_4.index t (0 : Fin 3); omega)
  have i2 : (((cfg0.win 4).blk t).view.emb (ix3 (0 : Fin 1) (0 : Fin 1) q)) 2 = q :=
    Fin.ext (by show win0_4.index t (2 : Fin 3) * 4 + 1 * q.val = q.val; omega)
  rw [i0, i2]
  match q with
  | ⟨0, _⟩ =>
    exact Finset.sum_congr rfl fun h _ => Finset.sum_congr rfl fun w _ => by
      rw [block0_read m c t _ hb h w, block1_read m c t _ hb h w]
  | ⟨1, _⟩ =>
    exact Finset.sum_congr rfl fun h _ => Finset.sum_congr rfl fun w _ => block1_read m c t _ hb h w
  | ⟨2, _⟩ =>
    exact Finset.sum_congr rfl fun h _ => Finset.sum_congr rfl fun w _ => by
      rw [block2_read m c t _ hb h w, block3_read m c t _ hb h w]
  | ⟨3, _⟩ =>
    exact Finset.sum_congr rfl fun h _ => Finset.sum_congr rfl fun w _ => block3_read m c t _ hb h w

/-- An index of the output array lies in point `t`'s block iff each coordinate lies in the block's range. -/
theorem mem_block (t : Fin cfg0.N) (i : S16x1x4.Idx) :
    i ∈ ((cfg0.win 4).blk t).view.set ↔ ∀ a : Fin 3, win0_4.index t a * S1x1x4.size a ≤ (i a).val ∧ (i a).val < win0_4.index t a * S1x1x4.size a + S1x1x4.size a := by
  show i ∈ ((View.whole main_v222).slice (win0_4.rect t)).set ↔ _
  rw [View.set_slice_whole, Rect.mem_set_unit]
  exact Iff.rfl

/-- The sixteen blocks cover the output array. -/
theorem covered (i : S16x1x4.Idx) : ∃ t : Fin cfg0.N, (cfg0.win 4).flush t = true ∧ i ∈ ((cfg0.win 4).blk t).view.set := by
  have hi0 : (i 0).val < 16 := (i 0).isLt
  have hi1 : (i 1).val < 1 := (i 1).isLt
  have hi2 : (i 2).val < 4 := (i 2).isLt
  obtain ⟨t, ht⟩ := index_onto ⟨(i 0).val, hi0⟩
  have q0 : win0_4.index t (0 : Fin 3) = (i 0).val := congrFun ht 0
  have q1 : win0_4.index t (1 : Fin 3) = 0 := congrFun ht 1
  have q2 : win0_4.index t (2 : Fin 3) = 0 := congrFun ht 2
  refine ⟨t, flush0_4 t, ?_⟩
  rw [mem_block]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1 ≤ (i 1).val ∧ (i 1).val < win0_4.index t (1 : Fin 3) * 1 + 1; omega
  | ⟨2, _⟩ => show win0_4.index t (2 : Fin 3) * 4 ≤ (i 2).val ∧ (i 2).val < win0_4.index t (2 : Fin 3) * 4 + 4; omega

/-- The output array after the region: every batch element's four totals. -/
theorem stats_array (c : Dev nD) :
    (dats m 0 c).arrAt 4 cfg0.N = batchStats (V m c main_v218) (V m c main_v220) (V m c main_v219) (V m c main_v221) :=
  (dats m 0 c).arrAt_eq_of_cover 4 _ (fun t _ => flushed_stats m c t) covered

end Cert.MaskedMean

end
-- ==== Proof.LossForm.lean ====
/-
  The scalar both programs return, as one expression of four grand totals: the masked mean of the forward
  direction plus that of the backward direction, halved. Each host sum starts from the literal zero it is given,
  each quotient is the host's division, and the literal one half is kept as its bit pattern: both programs
  print the same words, so none of them is ever evaluated.
-/
import proofs.«131796_j81346680586607_2_alg».proof.Proof.SumOrder
import Idealize.ShloMosaic.Lib.IdealHost

noncomputable section

namespace Cert.MaskedMean

open Idealize.ShloMosaic

/-- (n₁ / d₁ + n₂ / d₂) · ½, each total added to the zero the host's sum starts from. -/
def lossOf (n₁ d₁ n₂ d₂ : EReal) : EReal :=
  (Ideal.div (Ideal.ofBits .f32 0x00000000#32 + n₁) (Ideal.ofBits .f32 0x00000000#32 + d₁)
    + Ideal.div (Ideal.ofBits .f32 0x00000000#32 + n₂) (Ideal.ofBits .f32 0x00000000#32 + d₂))
  * Ideal.ofBits .f32 0x3F000000#32

end Cert.MaskedMean

end
-- ==== Proof.LossTail.lean ====
/-
  The host lines after the region: the [16, 1, 4] array of per-batch totals is viewed [16, 4]; each of its four
  columns is summed over the sixteen batch elements; the two quotients are added and halved. Read on the
  extended reals, the result is the closed form of the four grand totals, each a sum over the batch of the
  region's totals.
-/
import proofs.«131796_j81346680586607_2_alg».proof.Proof.BatchStats
import proofs.«131796_j81346680586607_2_alg».proof.Proof.LossForm
import Idealize.ShloMosaic.Lib.StableHlo.Run

set_option maxRecDepth 16384

noncomputable section

namespace Cert.MaskedMean

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ)

/-- Column `off` of the totals, summed over the batch from the host's zero. -/
def columnSum (S : FVec Ideal S16x1x4 .f32) (off : Fin 2 → Nat) (h : S16x4.Slices off S16x1) : FVec Ideal S_ .f32 :=
  Host.reduceAdd (F := Ideal)
    (shapeCast S16 (extractStridedSlice S16x1 off (shapeCast S16x4 S shapeCasts_S16x1x4_S16x4) h) shapeCasts_S16x1_S16)
    (constant (F := Ideal) S_ .f32 0x00000000#32) reducesTo_S16_S_d0 h_S_

/-- The host tail as one function of the region's output array. -/
def tailLoss (S : FVec Ideal S16x1x4 .f32) : FVec Ideal S_ .f32 :=
  mulf
    (addf
      (Host.divf (F := Ideal) (columnSum S ![0, 0] slices_S16x4_S16x1_0_0) (columnSum S ![0, 1] slices_S16x4_S16x1_0_1))
      (Host.divf (F := Ideal) (columnSum S ![0, 2] slices_S16x4_S16x1_0_2) (columnSum S ![0, 3] slices_S16x4_S16x1_0_3)))
    (constant (F := Ideal) S_ .f32 0x3F000000#32)

set_option maxHeartbeats 4000000 in
/-- What @main returns: the tail applied to the array the region leaves. -/
theorem tail_value (c : Dev nD) :
    Pipeline.afterTail₀ cfgs (dats m) 0 (V0 m) [hostOps1] c main_v239 = tailLoss ((dats m 0 c).arrAt 4 cfg0.N) := by
  unfold Pipeline.afterTail₀
  show StableHlo.after hostOps1 _ (Proc.devRef .tc main_v239) = _
  after_results_simp
  rw [Pipeline.withArrays_arr spec0 launch0.win.arr_inj c _ _ 4]
  rfl

/-- A column's sum is the host's zero plus the sum over the batch of that column's entries. -/
theorem columnSum_apply (S : FVec Ideal S16x1x4 .f32) (q : Fin 4) (off : Fin 2 → Nat) (h : S16x4.Slices off S16x1)
    (h0 : off 0 = 0) (h1 : off 1 = q.val) :
    columnSum S off h ix0 = Ideal.ofBits .f32 0x00000000#32 + ∑ b : Fin 16, S (ix3 b (0 : Fin 1) q) := by
  unfold columnSum
  refine (hostReduceAdd_apply _ _ reducesTo_S16_S_d0 h_S_ ix0).trans ?_
  refine (Ideal.hostReduceAdd_total reducesTo_S16_S_d0 (fun b => b.elim0) _ _ ix0).trans ?_
  refine congrArg (Ideal.ofBits .f32 0x00000000#32 + ·) ?_
  refine (sum_idx1 _).trans (Finset.sum_congr rfl fun b _ => ?_)
  refine (shapeCast_apply _ shapeCasts_S16x1_S16 (ix1 b) (ix2 b (0 : Fin 1))
    (by rw [Shape.rowMajor_val_one, Shape.rowMajor_val_two]; show b.val * 1 + 0 = b.val; omega)).trans ?_
  refine (extractStridedSlice_apply off _ h (ix2 b (0 : Fin 1)) (ix2 b q) (fun a => by
    match a with
    | ⟨0, _⟩ => show b.val = off 0 + b.val; omega
    | ⟨1, _⟩ => show q.val = off 1 + 0; omega)).trans ?_
  exact shapeCast_apply S shapeCasts_S16x1x4_S16x4 (ix2 b q) (ix3 b (0 : Fin 1) q)
    (by rw [Shape.rowMajor_val_two, Shape.rowMajor_val_three]; show (b.val * 1 + 0) * 4 + q.val = b.val * 4 + q.val; omega)

/-- The tail's value is the closed form of the four column sums. -/
theorem tailLoss_apply (S : FVec Ideal S16x1x4 .f32) :
    tailLoss S ix0 = lossOf (∑ b : Fin 16, S (ix3 b (0 : Fin 1) (0 : Fin 4))) (∑ b : Fin 16, S (ix3 b (0 : Fin 1) (1 : Fin 4)))
      (∑ b : Fin 16, S (ix3 b (0 : Fin 1) (2 : Fin 4))) (∑ b : Fin 16, S (ix3 b (0 : Fin 1) (3 : Fin 4))) := by
  unfold tailLoss lossOf
  show (Ideal.div (columnSum S ![0, 0] slices_S16x4_S16x1_0_0 ix0) (columnSum S ![0, 1] slices_S16x4_S16x1_0_1 ix0)
      + Ideal.div (columnSum S ![0, 2] slices_S16x4_S16x1_0_2 ix0) (columnSum S ![0, 3] slices_S16x4_S16x1_0_3 ix0))
    * Ideal.ofBits .f32 0x3F000000#32 = _
  rw [columnSum_apply S 0 _ _ rfl rfl, columnSum_apply S 1 _ _ rfl rfl, columnSum_apply S 2 _ _ rfl rfl, columnSum_apply S 3 _ _ rfl rfl]

end Cert.MaskedMean

end
-- ==== Proof.KernelValue.lean ====
/-
  The idealized kernel's run with its result named: every weakly fair execution ends with @main's result at the
  host tail applied to the per-batch totals of the four arrays the region finds, and the two arguments unchanged.
-/
import proofs.«131796_j81346680586607_2_alg».proof.Proof.LossTail

set_option maxRecDepth 16384

noncomputable section

namespace Cert.MaskedMean

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- The kernel program's result on core `c`, from the arrays the region finds there. -/
def kernelResult (c : Dev nD) : FVec Ideal S_ .f32 :=
  tailLoss (batchStats (V m c main_v218) (V m c main_v220) (V m c main_v219) (V m c main_v221))

theorem kernel_run : θ_run defs (onTc (τ := τ) (main (F := Ideal))) ⟨m, fun _ => 0, ρ⟩ (fun r => ∀ c : Dev nD,
      r.2.mem ((c.tc : Thread nD τ).loc main_v239) = kernelResult m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v239 (Pipeline.mem_restRefs_of main_v239 (by decide) (by decide))).trans
        ((tail_value m c).trans (congrArg tailLoss (stats_array m c))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.MaskedMean

end
-- ==== Proof.RefLoss.lean ====
/-
  How the reference closes: from the channel-mean difference and the mask of each direction, all of shape
  [16, 1, 512, 1024], it multiplies mean by mask, sums every entry of the product and of the mask, divides, adds
  the two directions' quotients and halves. Read on the extended reals, that is the closed form of four grand
  totals, each an iterated sum over batch, rows and lanes.
-/
import proofs.«131796_j81346680586607_2_alg».proof.ReferenceIdeal
import proofs.«131796_j81346680586607_2_alg».proof.Proof.Gen.ReferenceIdeal
import proofs.«131796_j81346680586607_2_alg».proof.Proof.LossForm
import Idealize.ShloMosaic.PureOps.Ideal.Laws

noncomputable section

namespace Cert.MaskedMean

open Idealize.ShloMosaic Idealize.ShloMosaic.ValueIdx Cert.ReferenceIdeal Cert.ReferenceIdeal.Gen

/-- The sum of every entry of a [16, 1, 512, 1024] array, from the host's zero. -/
def grandSum (X : FVec Ideal S16x1x512x1024 .f32) : FVec Ideal S_ .f32 :=
  Host.reduceAdd (F := Ideal) X (constant (F := Ideal) S_ .f32 0x00000000#32)
    reducesTo_S16x1x512x1024_S_d0_1_2_3 h_S_

/-- The reference's last lines as one function of the four arrays. -/
def refLoss (X Y Z W : FVec Ideal S16x1x512x1024 .f32) : FVec Ideal S_ .f32 :=
  mulf
    (addf
      (Host.divf (F := Ideal) (grandSum (mulf X Y)) (grandSum Y))
      (Host.divf (F := Ideal) (grandSum (mulf Z W)) (grandSum W)))
    (constant (F := Ideal) S_ .f32 0x3F000000#32)

/-- A grand sum is the host's zero plus the iterated sum over batch, rows and lanes. -/
theorem grandSum_apply (X : FVec Ideal S16x1x512x1024 .f32) :
    grandSum X ix0 = Ideal.ofBits .f32 0x00000000#32
      + ∑ b : Fin 16, ∑ h : Fin 512, ∑ w : Fin 1024, X (ix4 b (0 : Fin 1) h w) := by
  unfold grandSum
  refine (hostReduceAdd_apply _ _ reducesTo_S16x1x512x1024_S_d0_1_2_3 h_S_ ix0).trans ?_
  refine (Ideal.hostReduceAdd_total reducesTo_S16x1x512x1024_S_d0_1_2_3 (fun b => b.elim0) _ _ ix0).trans ?_
  exact congrArg (Ideal.ofBits .f32 0x00000000#32 + ·) (sum_idxUnit4 _)

/-- The reference's value is the closed form of its four grand totals. -/
theorem refLoss_apply (X Y Z W : FVec Ideal S16x1x512x1024 .f32) :
    refLoss X Y Z W ix0 = lossOf
      (∑ b : Fin 16, ∑ h : Fin 512, ∑ w : Fin 1024, X (ix4 b (0 : Fin 1) h w) * Y (ix4 b (0 : Fin 1) h w))
      (∑ b : Fin 16, ∑ h : Fin 512, ∑ w : Fin 1024, Y (ix4 b (0 : Fin 1) h w))
      (∑ b : Fin 16, ∑ h : Fin 512, ∑ w : Fin 1024, Z (ix4 b (0 : Fin 1) h w) * W (ix4 b (0 : Fin 1) h w))
      (∑ b : Fin 16, ∑ h : Fin 512, ∑ w : Fin 1024, W (ix4 b (0 : Fin 1) h w)) := by
  unfold refLoss lossOf
  show (Ideal.div (grandSum (mulf X Y) ix0) (grandSum Y ix0) + Ideal.div (grandSum (mulf Z W) ix0) (grandSum W ix0))
    * Ideal.ofBits .f32 0x3F000000#32 = _
  rw [grandSum_apply, grandSum_apply, grandSum_apply, grandSum_apply]
  rfl

end Cert.MaskedMean

end
-- ==== Proof.RefValue.lean ====
/-
  The idealized reference's run, read at the buffers the bridge needs. Every weakly fair execution ends with each
  buffer at the fold of the program's operations over the launch contents. Its result buffer is the closing
  function of four of its own intermediate buffers — the forward channel-mean difference and mask, the backward
  ones — and its argument buffers are never written.
-/
import proofs.«131796_j81346680586607_2_alg».proof.Proof.RefOps
import proofs.«131796_j81346680586607_2_alg».proof.Proof.RefLoss
import Idealize.ShloMosaic.Lib.StableHlo.Run

set_option maxRecDepth 16384

noncomputable section

namespace Cert.MaskedMean

open Idealize.ShloMosaic Idealize.ShloMosaic.TcCoe Idealize.SL.Sem Idealize.ShloMosaic.StableHlo
open Cert.ReferenceIdeal Cert.ReferenceIdeal.Gen Cert.ReferenceIdeal.ValueP

/-- Buffer `b` of the reference after its operations, from contents `V`. -/
abbrev refAfter (V : Valuation τ sig (Elt Ideal)) (b : Ref sig .tc) : (Proc.devRef (τ := τ) .tc b).ty.Contents (Elt Ideal) :=
  StableHlo.after (ops (F := Ideal)) V (Proc.devRef .tc b)

theorem chunk0_fresh : (ops_c0 : List (HloOp τ sig (Elt Ideal))).Forall fun op => op.fresh = ∅ := by
  simp only [List.Forall]; repeat' constructor
theorem chunk1_fresh : (ops_c1 : List (HloOp τ sig (Elt Ideal))).Forall fun op => op.fresh = ∅ := by
  simp only [List.Forall]; repeat' constructor
theorem chunk2_fresh : (ops_c2 : List (HloOp τ sig (Elt Ideal))).Forall fun op => op.fresh = ∅ := by
  simp only [List.Forall]; repeat' constructor
theorem chunk3_fresh : (ops_c3 : List (HloOp τ sig (Elt Ideal))).Forall fun op => op.fresh = ∅ := by
  simp only [List.Forall]; repeat' constructor
theorem chunk4_fresh : (ops_c4 : List (HloOp τ sig (Elt Ideal))).Forall fun op => op.fresh = ∅ := by
  simp only [List.Forall]; repeat' constructor
theorem chunk5_fresh : (ops_c5 : List (HloOp τ sig (Elt Ideal))).Forall fun op => op.fresh = ∅ := by
  simp only [List.Forall]; repeat' constructor
theorem chunk6_fresh : (ops_c6 : List (HloOp τ sig (Elt Ideal))).Forall fun op => op.fresh = ∅ := by
  simp only [List.Forall]; repeat' constructor
theorem chunk7_fresh : (ops_c7 : List (HloOp τ sig (Elt Ideal))).Forall fun op => op.fresh = ∅ := by
  simp only [List.Forall]; repeat' constructor
theorem chunk8_fresh : (ops_c8 : List (HloOp τ sig (Elt Ideal))).Forall fun op => op.fresh = ∅ := by
  simp only [List.Forall]; repeat' constructor
theorem chunk9_fresh : (ops_c9 : List (HloOp τ sig (Elt Ideal))).Forall fun op => op.fresh = ∅ := by
  simp only [List.Forall]; repeat' constructor
theorem chunk10_fresh : (ops_c10 : List (HloOp τ sig (Elt Ideal))).Forall fun op => op.fresh = ∅ := by
  simp only [List.Forall]; repeat' constructor
theorem chunk11_fresh : (ops_c11 : List (HloOp τ sig (Elt Ideal))).Forall fun op => op.fresh = ∅ := by
  simp only [List.Forall]; repeat' constructor
theorem chunk12_fresh : (ops_c12 : List (HloOp τ sig (Elt Ideal))).Forall fun op => op.fresh = ∅ := by
  simp only [List.Forall]; repeat' constructor

/-- No operation of the reference allocates: each determines its results. -/
theorem ops_fresh : ∀ op ∈ (ops : List (HloOp τ sig (Elt Ideal))), op.fresh = ∅ := by
  intro op hop
  simp only [ops, List.mem_append] at hop
  rcases hop with ((((((((((((h | h) | h) | h) | h) | h) | h) | h) | h) | h) | h) | h) | h)
  · exact (List.forall_iff_forall_mem.mp chunk0_fresh) op h
  · exact (List.forall_iff_forall_mem.mp chunk1_fresh) op h
  · exact (List.forall_iff_forall_mem.mp chunk2_fresh) op h
  · exact (List.forall_iff_forall_mem.mp chunk3_fresh) op h
  · exact (List.forall_iff_forall_mem.mp chunk4_fresh) op h
  · exact (List.forall_iff_forall_mem.mp chunk5_fresh) op h
  · exact (List.forall_iff_forall_mem.mp chunk6_fresh) op h
  · exact (List.forall_iff_forall_mem.mp chunk7_fresh) op h
  · exact (List.forall_iff_forall_mem.mp chunk8_fresh) op h
  · exact (List.forall_iff_forall_mem.mp chunk9_fresh) op h
  · exact (List.forall_iff_forall_mem.mp chunk10_fresh) op h
  · exact (List.forall_iff_forall_mem.mp chunk11_fresh) op h
  · exact (List.forall_iff_forall_mem.mp chunk12_fresh) op h

/-- The run: every buffer ends at the fold of the operations over its launch contents. -/
theorem ref_run (m : (ℓ : Loc nD τ sig) → Buf (Elt Ideal) ℓ) (ρ : Dev nD → PrngReg) :
    θ_run defs (onTc (τ := τ) (main (F := Ideal))) ⟨m, fun _ => 0, ρ⟩ fun r =>
      ∀ (d : Dev nD) (b : Ref sig .tc), r.2.mem ((d.tc : Thread nD τ).loc b) = refAfter (launchContents m d) b :=
  run_seq scopedRefs_eq scopedSems_eq defs main (fun _ => ops) main_eq (fun _ => ops_sub) m ρ (fun _ => ops_fresh)

set_option maxHeartbeats 400000000 in
/-- The result buffer is the closing function of the four payload buffers. -/
theorem ref_result (V : Valuation τ sig (Elt Ideal)) :
    refAfter V main_v227 = refLoss (refAfter V main_v213) (refAfter V main_v209) (refAfter V main_v221) (refAfter V main_v201) := by
  unfold refLoss grandSum
  simp only [refAfter, ops, ops_c0, ops_c1, ops_c2, ops_c3, ops_c4, ops_c5, ops_c6, ops_c7, ops_c8, ops_c9, ops_c10, ops_c11, ops_c12, List.cons_append, List.nil_append, List.append_nil]
  after_results_simp
  try rfl

set_option maxHeartbeats 400000000 in
/-- No operation writes the first argument. -/
theorem ref_arg0 (V : Valuation τ sig (Elt Ideal)) : refAfter V main_arg0 = V (Proc.devRef .tc main_arg0) := by
  simp only [refAfter, ops, ops_c0, ops_c1, ops_c2, ops_c3, ops_c4, ops_c5, ops_c6, ops_c7, ops_c8, ops_c9, ops_c10, ops_c11, ops_c12, List.cons_append, List.nil_append, List.append_nil]
  after_results_simp
  try rfl

set_option maxHeartbeats 400000000 in
/-- No operation writes the second argument. -/
theorem ref_arg1 (V : Valuation τ sig (Elt Ideal)) : refAfter V main_arg1 = V (Proc.devRef .tc main_arg1) := by
  simp only [refAfter, ops, ops_c0, ops_c1, ops_c2, ops_c3, ops_c4, ops_c5, ops_c6, ops_c7, ops_c8, ops_c9, ops_c10, ops_c11, ops_c12, List.cons_append, List.nil_append, List.append_nil]
  after_results_simp
  try rfl

end Cert.MaskedMean

end
-- ==== Proof.Agreement.lean ====
/-
  The two programs' closing computations agree. The kernel program views each [16, 1, 512, 1024] array as
  [16, 512, 1024], totals each batch element in the region (lanes, then rows) and sums the sixteen totals on the
  host; the reference sums every entry at once. Both are the same iterated sum over batch, rows and lanes, so
  the four grand totals — and with them the closed form — coincide.
-/
import proofs.«131796_j81346680586607_2_alg».proof.Proof.LossTail
import proofs.«131796_j81346680586607_2_alg».proof.Proof.RefLoss

noncomputable section

namespace Cert.MaskedMean

open Idealize.ShloMosaic Idealize.ShloMosaic.ValueIdx

/-- The [16, 512, 1024] view of a [16, 1, 512, 1024] array: the unit axis dropped. -/
def dropUnit (X : FVec Ideal Cert.ReferenceIdeal.S16x1x512x1024 .f32) : FVec Ideal Cert.KernelIdeal.S16x512x1024 .f32 :=
  shapeCast Cert.KernelIdeal.S16x512x1024 X Cert.KernelIdeal.Gen.shapeCasts_S16x1x512x1024_S16x512x1024

theorem dropUnit_apply (X : FVec Ideal Cert.ReferenceIdeal.S16x1x512x1024 .f32) (b : Fin 16) (h : Fin 512) (w : Fin 1024) :
    dropUnit X (ix3 b h w) = X (ix4 b (0 : Fin 1) h w) := by
  unfold dropUnit
  exact shapeCast_apply X Cert.KernelIdeal.Gen.shapeCasts_S16x1x512x1024_S16x512x1024 (ix3 b h w) (ix4 b (0 : Fin 1) h w)
    (by rw [Shape.rowMajor_val_three, Shape.rowMajor_val_four]
        show ((b.val * 1 + 0) * 512 + h.val) * 1024 + w.val = (b.val * 512 + h.val) * 1024 + w.val; omega)

/-- Per-batch totals in the region and a sum over the batch on the host give the reference's value. -/
theorem closing_agree (X Y Z W : FVec Ideal Cert.ReferenceIdeal.S16x1x512x1024 .f32) :
    tailLoss (batchStats (dropUnit X) (dropUnit Y) (dropUnit Z) (dropUnit W)) = refLoss X Y Z W := by
  funext i
  rw [eq_ix0 i, tailLoss_apply, refLoss_apply]
  unfold batchStats batchLane
  simp only [dropUnit_apply]

end Cert.MaskedMean

end
-- ==== Proof.KernelPrefix.lean ====
/-
  The kernel program's host operations before the region as one list, and the view that drops the unit axis of a
  [16, 1, 512, 1024] array: the vocabulary the two halves of the bridge share.
-/
import proofs.«131796_j81346680586607_2_alg».proof.Proof.Gen.KernelIdeal.Frame
import proofs.«131796_j81346680586607_2_alg».proof.Proof.RefOps
import proofs.«131796_j81346680586607_2_alg».proof.Proof.Agreement

noncomputable section

namespace Cert.MaskedMean

open Idealize.ShloMosaic Idealize.ShloMosaic.TcCoe Idealize.SL.Sem Idealize.ShloMosaic.StableHlo

/-- The kernel program's host operations before the region, in order. -/
abbrev kernelPrefix : List (HloOp Cert.KernelIdeal.τ Cert.KernelIdeal.sig (Elt Ideal)) :=
  List.flatten [Cert.KernelIdeal.Gen.hostOps0 (F := Ideal), Cert.KernelIdeal.Gen.hostOps0_1 (F := Ideal), Cert.KernelIdeal.Gen.hostOps0_2 (F := Ideal), Cert.KernelIdeal.Gen.hostOps0_3 (F := Ideal), Cert.KernelIdeal.Gen.hostOps0_4 (F := Ideal), Cert.KernelIdeal.Gen.hostOps0_5 (F := Ideal), Cert.KernelIdeal.Gen.hostOps0_6 (F := Ideal), Cert.KernelIdeal.Gen.hostOps0_7 (F := Ideal), Cert.KernelIdeal.Gen.hostOps0_8 (F := Ideal), Cert.KernelIdeal.Gen.hostOps0_9 (F := Ideal), Cert.KernelIdeal.Gen.hostOps0_10 (F := Ideal), Cert.KernelIdeal.Gen.hostOps0_11 (F := Ideal), Cert.KernelIdeal.Gen.hostOps0_12 (F := Ideal), Cert.KernelIdeal.Gen.hostOps0_13 (F := Ideal), Cert.KernelIdeal.Gen.hostOps0_14 (F := Ideal), Cert.KernelIdeal.Gen.hostOps0_15 (F := Ideal), Cert.KernelIdeal.Gen.hostOps0_16 (F := Ideal), Cert.KernelIdeal.Gen.hostOps0_17 (F := Ideal), Cert.KernelIdeal.Gen.hostOps0_18 (F := Ideal), Cert.KernelIdeal.Gen.hostOps0_19 (F := Ideal), Cert.KernelIdeal.Gen.hostOps0_20 (F := Ideal), Cert.KernelIdeal.Gen.hostOps0_21 (F := Ideal), Cert.KernelIdeal.Gen.hostOps0_22 (F := Ideal), Cert.KernelIdeal.Gen.hostOps0_23 (F := Ideal), Cert.KernelIdeal.Gen.hostOps0_24 (F := Ideal)]

end Cert.MaskedMean

end
-- ==== Proof.BridgeFwd.lean ====
/-
  The forward direction's payloads: the channel-mean residual and the mask the region finds are the reference's, with the unit axis dropped.
  Up to the point where they diverge the two programs are the same host operations on the same two arguments.
  Folding both operation lists over contents that agree on the two arguments leaves the same terms, and the
  kernel program's last step only drops the unit axis.
-/
import proofs.«131796_j81346680586607_2_alg».proof.Proof.KernelPrefix

set_option maxRecDepth 16384

noncomputable section

namespace Cert.MaskedMean

open Idealize.ShloMosaic Idealize.ShloMosaic.TcCoe Idealize.SL.Sem Idealize.ShloMosaic.StableHlo

set_option maxHeartbeats 1000000000 in
theorem forward_arrays_agree (VK : Valuation Cert.KernelIdeal.τ Cert.KernelIdeal.sig (Elt Ideal))
    (VR : Valuation Cert.ReferenceIdeal.τ Cert.ReferenceIdeal.sig (Elt Ideal))
    (h0 : VK (Proc.devRef .tc Cert.KernelIdeal.main_arg0) = VR (Proc.devRef .tc Cert.ReferenceIdeal.main_arg0))
    (h1 : VK (Proc.devRef .tc Cert.KernelIdeal.main_arg1) = VR (Proc.devRef .tc Cert.ReferenceIdeal.main_arg1)) :
    StableHlo.after kernelPrefix VK (Proc.devRef .tc Cert.KernelIdeal.main_v218) = dropUnit (StableHlo.after (Cert.ReferenceIdeal.ValueP.ops (F := Ideal)) VR (Proc.devRef .tc Cert.ReferenceIdeal.main_v213))
    ∧ StableHlo.after kernelPrefix VK (Proc.devRef .tc Cert.KernelIdeal.main_v220) = dropUnit (StableHlo.after (Cert.ReferenceIdeal.ValueP.ops (F := Ideal)) VR (Proc.devRef .tc Cert.ReferenceIdeal.main_v209)) := by
  unfold dropUnit
  simp only [kernelPrefix, Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18, Cert.KernelIdeal.Gen.hostOps0_19, Cert.KernelIdeal.Gen.hostOps0_20, Cert.KernelIdeal.Gen.hostOps0_21, Cert.KernelIdeal.Gen.hostOps0_22, Cert.KernelIdeal.Gen.hostOps0_23, Cert.KernelIdeal.Gen.hostOps0_24,
    List.flatten_cons, List.flatten_nil, List.append_nil, List.cons_append, List.nil_append,
    Cert.ReferenceIdeal.ValueP.ops, Cert.ReferenceIdeal.ValueP.ops_c0, Cert.ReferenceIdeal.ValueP.ops_c1, Cert.ReferenceIdeal.ValueP.ops_c2, Cert.ReferenceIdeal.ValueP.ops_c3, Cert.ReferenceIdeal.ValueP.ops_c4, Cert.ReferenceIdeal.ValueP.ops_c5, Cert.ReferenceIdeal.ValueP.ops_c6, Cert.ReferenceIdeal.ValueP.ops_c7, Cert.ReferenceIdeal.ValueP.ops_c8, Cert.ReferenceIdeal.ValueP.ops_c9, Cert.ReferenceIdeal.ValueP.ops_c10, Cert.ReferenceIdeal.ValueP.ops_c11, Cert.ReferenceIdeal.ValueP.ops_c12]
  simp (config := { maxSteps := 4000000 }) (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne']
  rw [h0, h1]
  refine ⟨?_, ?_⟩ <;> chain_rfl

end Cert.MaskedMean

end
-- ==== Proof.BridgeBwd.lean ====
/-
  The backward direction's payloads: the channel-mean residual and the mask the region finds are the reference's, with the unit axis dropped.
  Up to the point where they diverge the two programs are the same host operations on the same two arguments.
  Folding both operation lists over contents that agree on the two arguments leaves the same terms, and the
  kernel program's last step only drops the unit axis.
-/
import proofs.«131796_j81346680586607_2_alg».proof.Proof.KernelPrefix

set_option maxRecDepth 16384

noncomputable section

namespace Cert.MaskedMean

open Idealize.ShloMosaic Idealize.ShloMosaic.TcCoe Idealize.SL.Sem Idealize.ShloMosaic.StableHlo

set_option maxHeartbeats 1000000000 in
theorem backward_arrays_agree (VK : Valuation Cert.KernelIdeal.τ Cert.KernelIdeal.sig (Elt Ideal))
    (VR : Valuation Cert.ReferenceIdeal.τ Cert.ReferenceIdeal.sig (Elt Ideal))
    (h0 : VK (Proc.devRef .tc Cert.KernelIdeal.main_arg0) = VR (Proc.devRef .tc Cert.ReferenceIdeal.main_arg0))
    (h1 : VK (Proc.devRef .tc Cert.KernelIdeal.main_arg1) = VR (Proc.devRef .tc Cert.ReferenceIdeal.main_arg1)) :
    StableHlo.after kernelPrefix VK (Proc.devRef .tc Cert.KernelIdeal.main_v219) = dropUnit (StableHlo.after (Cert.ReferenceIdeal.ValueP.ops (F := Ideal)) VR (Proc.devRef .tc Cert.ReferenceIdeal.main_v221))
    ∧ StableHlo.after kernelPrefix VK (Proc.devRef .tc Cert.KernelIdeal.main_v221) = dropUnit (StableHlo.after (Cert.ReferenceIdeal.ValueP.ops (F := Ideal)) VR (Proc.devRef .tc Cert.ReferenceIdeal.main_v201)) := by
  unfold dropUnit
  simp only [kernelPrefix, Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18, Cert.KernelIdeal.Gen.hostOps0_19, Cert.KernelIdeal.Gen.hostOps0_20, Cert.KernelIdeal.Gen.hostOps0_21, Cert.KernelIdeal.Gen.hostOps0_22, Cert.KernelIdeal.Gen.hostOps0_23, Cert.KernelIdeal.Gen.hostOps0_24,
    List.flatten_cons, List.flatten_nil, List.append_nil, List.cons_append, List.nil_append,
    Cert.ReferenceIdeal.ValueP.ops, Cert.ReferenceIdeal.ValueP.ops_c0, Cert.ReferenceIdeal.ValueP.ops_c1, Cert.ReferenceIdeal.ValueP.ops_c2, Cert.ReferenceIdeal.ValueP.ops_c3, Cert.ReferenceIdeal.ValueP.ops_c4, Cert.ReferenceIdeal.ValueP.ops_c5, Cert.ReferenceIdeal.ValueP.ops_c6, Cert.ReferenceIdeal.ValueP.ops_c7, Cert.ReferenceIdeal.ValueP.ops_c8, Cert.ReferenceIdeal.ValueP.ops_c9, Cert.ReferenceIdeal.ValueP.ops_c10, Cert.ReferenceIdeal.ValueP.ops_c11, Cert.ReferenceIdeal.ValueP.ops_c12]
  simp (config := { maxSteps := 4000000 }) (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne']
  rw [h0, h1]
  refine ⟨?_, ?_⟩ <;> chain_rfl

end Cert.MaskedMean

end
-- ==== Proof.Bridge.lean ====
/-
  The arrays the region finds are the reference's payload buffers with the unit axis dropped: the two directions
  joined.
-/
import proofs.«131796_j81346680586607_2_alg».proof.Proof.BridgeFwd
import proofs.«131796_j81346680586607_2_alg».proof.Proof.BridgeBwd

noncomputable section

namespace Cert.MaskedMean

open Idealize.ShloMosaic Idealize.ShloMosaic.TcCoe Idealize.SL.Sem Idealize.ShloMosaic.StableHlo

theorem arrays_agree (VK : Valuation Cert.KernelIdeal.τ Cert.KernelIdeal.sig (Elt Ideal))
    (VR : Valuation Cert.ReferenceIdeal.τ Cert.ReferenceIdeal.sig (Elt Ideal))
    (h0 : VK (Proc.devRef .tc Cert.KernelIdeal.main_arg0) = VR (Proc.devRef .tc Cert.ReferenceIdeal.main_arg0))
    (h1 : VK (Proc.devRef .tc Cert.KernelIdeal.main_arg1) = VR (Proc.devRef .tc Cert.ReferenceIdeal.main_arg1)) :
    StableHlo.after kernelPrefix VK (Proc.devRef .tc Cert.KernelIdeal.main_v218) = dropUnit (StableHlo.after (Cert.ReferenceIdeal.ValueP.ops (F := Ideal)) VR (Proc.devRef .tc Cert.ReferenceIdeal.main_v213))
    ∧ StableHlo.after kernelPrefix VK (Proc.devRef .tc Cert.KernelIdeal.main_v220) = dropUnit (StableHlo.after (Cert.ReferenceIdeal.ValueP.ops (F := Ideal)) VR (Proc.devRef .tc Cert.ReferenceIdeal.main_v209))
    ∧ StableHlo.after kernelPrefix VK (Proc.devRef .tc Cert.KernelIdeal.main_v219) = dropUnit (StableHlo.after (Cert.ReferenceIdeal.ValueP.ops (F := Ideal)) VR (Proc.devRef .tc Cert.ReferenceIdeal.main_v221))
    ∧ StableHlo.after kernelPrefix VK (Proc.devRef .tc Cert.KernelIdeal.main_v221) = dropUnit (StableHlo.after (Cert.ReferenceIdeal.ValueP.ops (F := Ideal)) VR (Proc.devRef .tc Cert.ReferenceIdeal.main_v201)) :=
  ⟨(forward_arrays_agree VK VR h0 h1).1, (forward_arrays_agree VK VR h0 h1).2,
    (backward_arrays_agree VK VR h0 h1).1, (backward_arrays_agree VK VR h0 h1).2⟩

end Cert.MaskedMean

end
-- ==== Proof.lean ====
/-
  A forward–backward flow-consistency loss. Both programs warp each flow field by the other (a bilinear gather
  with border clamping), take the channel-wise absolute residual, mask every pixel whose residual norm is below
  a bound from the flow's own norm, and return ((Σ mean·mask / Σ mask) forward + the same backward) · ½.

  Everything up to the four per-pixel payloads — the channel-mean residual and the mask of each direction — is
  the same host computation in both programs. They differ only in how the payloads are totalled: the reference
  sums each [16, 1, 512, 1024] array at once; the kernel program drops the unit axis, lets one grid point per
  batch element total its [512, 1024] slab (lanes, then rows) into a [16, 1, 4] array, and sums the sixteen rows
  on the host. On the extended reals addition is commutative and associative, so the totals are the same
  iterated sum over batch, rows and lanes, and the two results are equal; no finiteness is used.

  The ideal pass rewrote nothing, so the idealization conjunct is trivial; the kernels' frames are their
  generated frame runs; the reference's frame is its run with the result dropped.
-/
import proofs.«131796_j81346680586607_2_alg».proof.Defs
import proofs.«131796_j81346680586607_2_alg».proof.Proof.Gen.Kernel
import proofs.«131796_j81346680586607_2_alg».proof.Proof.Gen.Kernel.Skeleton
import proofs.«131796_j81346680586607_2_alg».proof.Proof.Gen.Kernel.Launch
import proofs.«131796_j81346680586607_2_alg».proof.Proof.Gen.Kernel.Points
import proofs.«131796_j81346680586607_2_alg».proof.Proof.Gen.Kernel.Frame
import proofs.«131796_j81346680586607_2_alg».proof.Proof.Gen.KernelIdeal
import proofs.«131796_j81346680586607_2_alg».proof.Proof.Gen.KernelIdeal.Skeleton
import proofs.«131796_j81346680586607_2_alg».proof.Proof.Gen.KernelIdeal.Launch
import proofs.«131796_j81346680586607_2_alg».proof.Proof.Gen.KernelIdeal.Points
import proofs.«131796_j81346680586607_2_alg».proof.Proof.Gen.KernelIdeal.Frame
import proofs.«131796_j81346680586607_2_alg».proof.Proof.Gen.ReferenceIdeal
import proofs.«131796_j81346680586607_2_alg».proof.Proof.Gen.Pre_finite_inputs
import proofs.«131796_j81346680586607_2_alg».proof.Proof.KernelValue
import proofs.«131796_j81346680586607_2_alg».proof.Proof.RefValue
import proofs.«131796_j81346680586607_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo Cert.MaskedMean

theorem frame_kernel : Cert.frame_Kernel := fun m ρ _ => Cert.Kernel.Gen.frame m ρ

theorem frame_kernelIdeal : Cert.frame_KernelIdeal := fun m ρ _ => Cert.KernelIdeal.Gen.frame m ρ

/-- The reference's arguments end unchanged: no operation of its run writes them. -/
theorem frame_referenceIdeal : Cert.frame_ReferenceIdeal := fun m ρ _ =>
  (θ_run Cert.ReferenceIdeal.defs _ _).mono
    (fun _ h c => ⟨(h c Cert.ReferenceIdeal.main_arg0).trans (ref_arg0 _), (h c Cert.ReferenceIdeal.main_arg1).trans (ref_arg1 _)⟩)
    (ref_run m ρ)

/-- Both runs end with the same scalar: the kernel program's per-batch totals summed over the batch are the
    reference's grand totals. -/
theorem algebraic : Cert.algebraic_KernelIdeal_ReferenceIdeal := by
  intro m ρ m' ρ' _ hagree
  refine ⟨fun c => kernelResult m c, kernel_run m ρ, ?_⟩
  refine (θ_run Cert.ReferenceIdeal.defs _ _).mono (fun _ h c => ⟨?_, ?_, ?_⟩) (ref_run m' ρ')
  · obtain ⟨e0, e1, e2, e3⟩ := arrays_agree (fun b => m (c, b)) (launchContents m' c) (hagree c).1.symm (hagree c).2.symm
    refine (h c Cert.ReferenceIdeal.main_v227).trans ((ref_result _).trans ?_)
    show _ = kernelResult m c
    unfold kernelResult
    rw [show Cert.KernelIdeal.Gen.V m c Cert.KernelIdeal.main_v218 = StableHlo.after kernelPrefix (fun b => m (c, b)) (Proc.devRef .tc Cert.KernelIdeal.main_v218) from rfl,
      show Cert.KernelIdeal.Gen.V m c Cert.KernelIdeal.main_v220 = StableHlo.after kernelPrefix (fun b => m (c, b)) (Proc.devRef .tc Cert.KernelIdeal.main_v220) from rfl,
      show Cert.KernelIdeal.Gen.V m c Cert.KernelIdeal.main_v219 = StableHlo.after kernelPrefix (fun b => m (c, b)) (Proc.devRef .tc Cert.KernelIdeal.main_v219) from rfl,
      show Cert.KernelIdeal.Gen.V m c Cert.KernelIdeal.main_v221 = StableHlo.after kernelPrefix (fun b => m (c, b)) (Proc.devRef .tc Cert.KernelIdeal.main_v221) from rfl,
      e0, e1, e2, e3]
    exact (closing_agree _ _ _ _).symm
  · exact (h c Cert.ReferenceIdeal.main_arg0).trans (ref_arg0 _)
  · exact (h c Cert.ReferenceIdeal.main_arg1).trans (ref_arg1 _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
